-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg8 : FVec F S256 .f32) (main_arg9 : FVec F S256 .f32) (main_arg10 : FVec F S256x256 .f32) (main_arg11 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg5 : FVec F S256 .f32) (main_arg6 : FVec F S256x256 .f32) (main_arg7 : FVec F S256 .f32) (main_arg8 : FVec F S256 .f32) (main_arg9 : FVec F S256 .f32) (main_arg10 : FVec F S256x256 .f32) (main_arg11 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x256 .f32) (main_arg3 : FVec F S256 .f32) (main_arg4 : FVec F S256 .f32) (main_arg5 : FVec F S256 .f32) (main_arg6 : FVec F S256x256 .f32) (main_arg7 : FVec F S256 .f32) (main_arg8 : FVec F S256 .f32) (main_arg9 : FVec F S256 .f32) (main_arg10 : FVec F S256x256 .f32) (main_arg11 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x128 : Shape := ⟨2, ![2000, 128]⟩
abbrev S2000x256 : Shape := ⟨2, ![2000, 256]⟩
abbrev S850000x256 : Shape := ⟨2, ![850000, 256]⟩
abbrev S1x256 : Shape := ⟨2, ![1, 256]⟩

abbrev nBuf : Space → Nat
  | .hbm => 140
  | .vmem => 33
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S256, .f32⟩
  | 5 => ⟨S256, .f32⟩
  | 6 => ⟨S256x256, .f32⟩
  | 7 => ⟨S256, .f32⟩
  | 8 => ⟨S256, .f32⟩
  | 9 => ⟨S256, .f32⟩
  | 10 => ⟨S256x256, .f32⟩
  | 11 => ⟨S256, .f32⟩
  | 12 => ⟨S50000, .i32⟩
  | 13 => ⟨S1x800000, .i32⟩
  | 14 => ⟨S800000, .i32⟩
  | 15 => ⟨S850000, .i32⟩
  | 16 => ⟨S1x800000, .i32⟩
  | 17 => ⟨S800000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S50000x256, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000x256, .f32⟩
  | 65 => ⟨S850000x1, .f32⟩
  | 66 => ⟨S850000x256, .f32⟩
  | 67 => ⟨S850000x256, .f32⟩
  | 68 => ⟨S_, .f32⟩
  | 69 => ⟨S50000x256, .f32⟩
  | 70 => ⟨S850000x1, .i32⟩
  | 71 => ⟨S50000x256, .f32⟩
  | 72 => ⟨S1x256, .f32⟩
  | 73 => ⟨S50000x256, .f32⟩
  | 74 => ⟨S50000x256, .f32⟩
  | 75 => ⟨S1x256, .f32⟩
  | 76 => ⟨S1x256, .f32⟩
  | 77 => ⟨S256, .f32⟩
  | 78 => ⟨S_, .f32⟩
  | 79 => ⟨S256, .f32⟩
  | 80 => ⟨S256, .f32⟩
  | 81 => ⟨S256, .f32⟩
  | 82 => ⟨S_, .f32⟩
  | 83 => ⟨S256, .f32⟩
  | 84 => ⟨S256, .f32⟩
  | 85 => ⟨S256, .f32⟩
  | 86 => ⟨S256, .f32⟩
  | 87 => ⟨S_, .f32⟩
  | 88 => ⟨S256, .f32⟩
  | 89 => ⟨S256, .f32⟩
  | 90 => ⟨S256, .f32⟩
  | 91 => ⟨S_, .f32⟩
  | 92 => ⟨S256, .f32⟩
  | 93 => ⟨S1x256, .f32⟩
  | 94 => ⟨S1x256, .f32⟩
  | 95 => ⟨S1x256, .f32⟩
  | 96 => ⟨S1x256, .f32⟩
  | 97 => ⟨S1x256, .f32⟩
  | 98 => ⟨S50000x256, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000x256, .f32⟩
  | 108 => ⟨S850000x1, .f32⟩
  | 109 => ⟨S850000x256, .f32⟩
  | 110 => ⟨S850000x256, .f32⟩
  | 111 => ⟨S_, .f32⟩
  | 112 => ⟨S50000x256, .f32⟩
  | 113 => ⟨S850000x1, .i32⟩
  | 114 => ⟨S50000x256, .f32⟩
  | 115 => ⟨S1x256, .f32⟩
  | 116 => ⟨S50000x256, .f32⟩
  | 117 => ⟨S50000x256, .f32⟩
  | 118 => ⟨S1x256, .f32⟩
  | 119 => ⟨S1x256, .f32⟩
  | 120 => ⟨S256, .f32⟩
  | 121 => ⟨S_, .f32⟩
  | 122 => ⟨S256, .f32⟩
  | 123 => ⟨S256, .f32⟩
  | 124 => ⟨S256, .f32⟩
  | 125 => ⟨S_, .f32⟩
  | 126 => ⟨S256, .f32⟩
  | 127 => ⟨S256, .f32⟩
  | _ => ⟨S50000x128, .f32⟩

abbrev hbmTy0_1 (i : Nat) : BufTy := match i % 128 with
  | 0 => ⟨S256, .f32⟩
  | 1 => ⟨S256, .f32⟩
  | 2 => ⟨S_, .f32⟩
  | 3 => ⟨S256, .f32⟩
  | 4 => ⟨S256, .f32⟩
  | 5 => ⟨S256, .f32⟩
  | 6 => ⟨S1x256, .f32⟩
  | 7 => ⟨S1x256, .f32⟩
  | 8 => ⟨S1x256, .f32⟩
  | 9 => ⟨S1x256, .f32⟩
  | 10 => ⟨S1x256, .f32⟩
  | 11 => ⟨S50000x256, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S1x256, .f32⟩
  | .local _ .vmem, ⟨9, _⟩ => ⟨S2000x256, .f32⟩
  | .local _ .vmem, ⟨10, _⟩ => ⟨S2000x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S256x256, .f32⟩
  | .local _ .vmem, ⟨16, _⟩ => ⟨S1x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S1x256, .f32⟩
  | .local _ .vmem, ⟨22, _⟩ => ⟨S1x256, .f32⟩
  | .local _ .vmem, ⟨23, _⟩ => ⟨S2000x256, .f32⟩
  | .local _ .vmem, ⟨24, _⟩ => ⟨S2000x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S256x256, .f32⟩
  | .local _ .vmem, ⟨30, _⟩ => ⟨S1x256, .f32⟩
  | .local _ .vmem, ⟨31, _⟩ => ⟨S2000x256, .f32⟩
  | .local _ .vmem, ⟨32, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49_0 : Ref sig .tc := ⟨.hbm, 75, rfl⟩
abbrev main_v49_1 : Ref sig .tc := ⟨.hbm, 76, rfl⟩
abbrev main_v50 : Ref sig .tc := ⟨.hbm, 77, rfl⟩
abbrev main_cst_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_11 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_12 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_13 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_14 : Ref sig .tc := ⟨.hbm, 99, rfl⟩
abbrev main_v68 : Ref sig .tc := ⟨.hbm, 100, rfl⟩
abbrev main_v69 : Ref sig .tc := ⟨.hbm, 101, rfl⟩
abbrev main_c_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_16 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84_0 : Ref sig .tc := ⟨.hbm, 118, rfl⟩
abbrev main_v84_1 : Ref sig .tc := ⟨.hbm, 119, rfl⟩
abbrev main_v85 : Ref sig .tc := ⟨.hbm, 120, rfl⟩
abbrev main_cst_17 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_18 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_19 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg6_0 : Ref sig .tc := ⟨.vmem, 16, rfl⟩
abbrev cc2_stg7_0 : Ref sig .tc := ⟨.vmem, 17, rfl⟩
abbrev cc2_stg7_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg4_0 : Ref sig .tc := ⟨.vmem, 28, rfl⟩
abbrev cc4_stg5_0 : Ref sig .tc := ⟨.vmem, 29, rfl⟩
abbrev cc4_stg6_0 : Ref sig .tc := ⟨.vmem, 30, rfl⟩
abbrev cc4_stg7_0 : Ref sig .tc := ⟨.vmem, 31, rfl⟩
abbrev cc4_stg7_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem6_0 : DmaSem sig := 16
abbrev cc2_sem7_0 : DmaSem sig := 17
abbrev cc2_sem7_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem4_0 : DmaSem sig := 28
abbrev cc4_sem5_0 : DmaSem sig := 29
abbrev cc4_sem6_0 : DmaSem sig := 30
abbrev cc4_sem7_0 : DmaSem sig := 31
abbrev cc4_sem7_1 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x256 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  inb_S1x256_S1x256_0_0 : ∀ a, (![0, 0] : Fin 2 → Nat) a + S1x256.size a ≤ S1x256.size a
  h_S1x256 : 0 < S1x256.numel
  shapeCasts_S2000x256_S2000x256 : S2000x256.ShapeCasts S2000x256
  shapeCasts_S1x256_S1x256 : S1x256.ShapeCasts S1x256
  reduces_S2000x256_S256 : S2000x256.Reduces [0] S256
  shapeCasts_S256_S1x256 : S256.ShapeCasts S1x256
  shapeCasts_S1x256_S256 : S1x256.ShapeCasts S256
  bcast_S_S256 : S_.BroadcastsInDim S256 (![] : Fin 0 → Fin S256.rank)
  broadcasts_S1x256_S2000x256 : S1x256.Broadcasts S2000x256
  inb_S256x256_S256x256_0_0 : ∀ a, (![0, 0] : Fin 2 → Nat) a + S256x256.size a ≤ S256x256.size a
  h_S256x256 : 0 < S256x256.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x256_S2000x256_1_0_0_1_n_n_wf : DotDims.WF S2000x128 S128x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x256.size a ≤ S50000x256.size a
  hwx2_7 : ∀ i : grid2.Coords, EltTy.bits .f32 = 32 ∨ (Rect.block (s := S50000x256) S2000x256.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x256.size a ≤ S256x256.size a
  hwx4_5 : ∀ i : grid4.Coords, EltTy.bits .f32 = 32 ∨ (Rect.block (s := S256x256) S256x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x256.size a ≤ S50000x256.size a
  hwx4_7 : ∀ i : grid4.Coords, EltTy.bits .f32 = 32 ∨ (Rect.block (s := S50000x256) S2000x256.size (cc4_transform_7 i) (hinb4_7 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49_0) S1x256.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49_1) S1x256.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg6) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v67) S2000x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v83) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v84_0) S1x256.size cc3_transform_1 reads3_1 true true 1 stage3_1 sem3_1
    hrank3 hreads3_1 hinb3_1 nbuf3_1 (Memref.isWhole_whole _) hwx3_1 hstage3_1

abbrev win3_2 : Pipeline.Window sig grid3 :=
  Pipeline.Window.ofSpec (Memref.whole main_v84_1) S1x256.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v83) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v96) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v97) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v98) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v99) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg10) S256x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v100) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v101) S2000x256.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩

abbrev nBuf : Space → Nat
  | .hbm => 178
  | .vmem => 0
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S256, .f32⟩
  | 5 => ⟨S256, .f32⟩
  | 6 => ⟨S256x256, .f32⟩
  | 7 => ⟨S256, .f32⟩
  | 8 => ⟨S256, .f32⟩
  | 9 => ⟨S256, .f32⟩
  | 10 => ⟨S256x256, .f32⟩
  | 11 => ⟨S256, .f32⟩
  | 12 => ⟨S50000, .i32⟩
  | 13 => ⟨S1x800000, .i32⟩
  | 14 => ⟨S800000, .i32⟩
  | 15 => ⟨S850000, .i32⟩
  | 16 => ⟨S1x800000, .i32⟩
  | 17 => ⟨S800000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S50000x256, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000x256, .f32⟩
  | 65 => ⟨S850000x1, .f32⟩
  | 66 => ⟨S850000x256, .f32⟩
  | 67 => ⟨S850000x256, .f32⟩
  | 68 => ⟨S_, .f32⟩
  | 69 => ⟨S50000x256, .f32⟩
  | 70 => ⟨S850000x1, .i32⟩
  | 71 => ⟨S50000x256, .f32⟩
  | 72 => ⟨S1x256, .f32⟩
  | 73 => ⟨S50000x256, .f32⟩
  | 74 => ⟨S50000x256, .f32⟩
  | 75 => ⟨S_, .f32⟩
  | 76 => ⟨S256, .f32⟩
  | 77 => ⟨S_, .f32⟩
  | 78 => ⟨S256, .f32⟩
  | 79 => ⟨S256, .f32⟩
  | 80 => ⟨S1x256, .f32⟩
  | 81 => ⟨S50000x256, .f32⟩
  | 82 => ⟨S50000x256, .f32⟩
  | 83 => ⟨S50000x256, .f32⟩
  | 84 => ⟨S_, .f32⟩
  | 85 => ⟨S256, .f32⟩
  | 86 => ⟨S_, .f32⟩
  | 87 => ⟨S256, .f32⟩
  | 88 => ⟨S256, .f32⟩
  | 89 => ⟨S1x256, .f32⟩
  | 90 => ⟨S50000x256, .f32⟩
  | 91 => ⟨S50000x256, .f32⟩
  | 92 => ⟨S_, .f32⟩
  | 93 => ⟨S256, .f32⟩
  | 94 => ⟨S256, .f32⟩
  | 95 => ⟨S256, .f32⟩
  | 96 => ⟨S1x256, .f32⟩
  | 97 => ⟨S50000x256, .f32⟩
  | 98 => ⟨S50000x256, .f32⟩
  | 99 => ⟨S1x256, .f32⟩
  | 100 => ⟨S50000x256, .f32⟩
  | 101 => ⟨S50000x256, .f32⟩
  | 102 => ⟨S1x256, .f32⟩
  | 103 => ⟨S50000x256, .f32⟩
  | 104 => ⟨S50000x256, .f32⟩
  | 105 => ⟨S50000x256, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000, .f32⟩
  | 115 => ⟨S_, .i32⟩
  | 116 => ⟨S850000, .i32⟩
  | 117 => ⟨S850000, .i1⟩
  | 118 => ⟨S_, .i32⟩
  | 119 => ⟨S850000, .i32⟩
  | 120 => ⟨S850000, .i32⟩
  | 121 => ⟨S850000, .i32⟩
  | 122 => ⟨S850000x1, .i32⟩
  | 123 => ⟨S850000, .f32⟩
  | 124 => ⟨S850000, .f32⟩
  | 125 => ⟨S_, .i32⟩
  | 126 => ⟨S850000, .i32⟩
  | 127 => ⟨S850000, .i1⟩
  | _ => ⟨S50000x128, .f32⟩

abbrev hbmTy0_1 (i : Nat) : BufTy := match i % 128 with
  | 0 => ⟨S_, .i32⟩
  | 1 => ⟨S850000, .i32⟩
  | 2 => ⟨S850000, .i32⟩
  | 3 => ⟨S850000, .i32⟩
  | 4 => ⟨S850000x1, .i32⟩
  | 5 => ⟨S850000x256, .f32⟩
  | 6 => ⟨S850000x1, .f32⟩
  | 7 => ⟨S850000x256, .f32⟩
  | 8 => ⟨S850000x256, .f32⟩
  | 9 => ⟨S_, .f32⟩
  | 10 => ⟨S50000x256, .f32⟩
  | 11 => ⟨S850000x1, .i32⟩
  | 12 => ⟨S50000x256, .f32⟩
  | 13 => ⟨S1x256, .f32⟩
  | 14 => ⟨S50000x256, .f32⟩
  | 15 => ⟨S50000x256, .f32⟩
  | 16 => ⟨S_, .f32⟩
  | 17 => ⟨S256, .f32⟩
  | 18 => ⟨S_, .f32⟩
  | 19 => ⟨S256, .f32⟩
  | 20 => ⟨S256, .f32⟩
  | 21 => ⟨S1x256, .f32⟩
  | 22 => ⟨S50000x256, .f32⟩
  | 23 => ⟨S50000x256, .f32⟩
  | 24 => ⟨S50000x256, .f32⟩
  | 25 => ⟨S_, .f32⟩
  | 26 => ⟨S256, .f32⟩
  | 27 => ⟨S_, .f32⟩
  | 28 => ⟨S256, .f32⟩
  | 29 => ⟨S256, .f32⟩
  | 30 => ⟨S1x256, .f32⟩
  | 31 => ⟨S50000x256, .f32⟩
  | 32 => ⟨S50000x256, .f32⟩
  | 33 => ⟨S_, .f32⟩
  | 34 => ⟨S256, .f32⟩
  | 35 => ⟨S256, .f32⟩
  | 36 => ⟨S256, .f32⟩
  | 37 => ⟨S1x256, .f32⟩
  | 38 => ⟨S50000x256, .f32⟩
  | 39 => ⟨S50000x256, .f32⟩
  | 40 => ⟨S1x256, .f32⟩
  | 41 => ⟨S50000x256, .f32⟩
  | 42 => ⟨S50000x256, .f32⟩
  | 43 => ⟨S1x256, .f32⟩
  | 44 => ⟨S50000x256, .f32⟩
  | 45 => ⟨S50000x256, .f32⟩
  | 46 => ⟨S50000x256, .f32⟩
  | 47 => ⟨S1x256, .f32⟩
  | 48 => ⟨S50000x256, .f32⟩
  | 49 => ⟨S50000x256, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_v17 : Ref sig .tc := ⟨.hbm, 36, rfl⟩
abbrev main_c : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_12 : Ref sig .tc := ⟨.hbm, 84, rfl⟩
abbrev main_v56 : Ref sig .tc := ⟨.hbm, 85, rfl⟩
abbrev main_cst_13 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_15 : Ref sig .tc := ⟨.hbm, 106, rfl⟩
abbrev main_v75 : Ref sig .tc := ⟨.hbm, 107, rfl⟩
abbrev main_v76 : Ref sig .tc := ⟨.hbm, 108, rfl⟩
abbrev main_c_16 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_c_17 : Ref sig .tc := ⟨.hbm, 115, rfl⟩
abbrev main_v82 : Ref sig .tc := ⟨.hbm, 116, rfl⟩
abbrev main_v83 : Ref sig .tc := ⟨.hbm, 117, rfl⟩
abbrev main_c_18 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_c_19 : Ref sig .tc := ⟨.hbm, 125, rfl⟩
abbrev main_v90 : Ref sig .tc := ⟨.hbm, 126, rfl⟩
abbrev main_v91 : Ref sig .tc := ⟨.hbm, 127, rfl⟩
abbrev main_c_20 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_21 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_22 : Ref sig .tc := ⟨.hbm, 144, rfl⟩
abbrev main_v106 : Ref sig .tc := ⟨.hbm, 145, rfl⟩
abbrev main_cst_23 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_24 : Ref sig .tc := ⟨.hbm, 153, rfl⟩
abbrev main_v113 : Ref sig .tc := ⟨.hbm, 154, rfl⟩
abbrev main_cst_25 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_cst_26 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  scatter_S50000_S850000x1_S850000_n_0_0_1_wf : ScatterDims.WF S50000 S850000x1 S850000 [] [0] [0] 1
  dot_S50000x128_S128x256_S50000x256_1_0_0_1_n_n_wf : DotDims.WF S50000x128 S128x256 S50000x256 [1] [0] [0] [1] [] []
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KRun.lean ====
/-
  The idealized kernel's run with its result named: every weakly fair execution of the five regions and the host
  operations between them terminates without a fault, the argument arrays end as launched, and the result array ends
  at the contents the last region's write-backs leave — the last boundary of the fold through the program
  (`Gen.W12`), which the value lemmas then read back region by region.  The launch, the segments and the thread
  states are those of the frame; only the final reading adds the result's buffer.
-/
import proofs.«127999_j35588099015570_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments unchanged. -/
theorem run : θ_run defs (onTc (τ := τ) (main (F := F))) ⟨m, fun _ => 0, ρ⟩ (fun r => ∀ c : Dev nD,
      r.2.mem ((c.tc : Thread nD τ).loc main_v101) = W12 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v101 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.KernelIdeal.RunValue

end
-- ==== Proof.TermsK.lean ====
/-
  The host operations of the kernel's program between its regions, as functions of their operands, at the extended
  reals.  `src` / `dst`: the edge list's two rows, each followed by the self loops 0 … 49999.  `wrap`: an index
  array with its negative entries shifted up by 50000, kept as a column.  `deg`: the number of edges arriving at each
  node; `dis`: its inverse square root where positive, else 0; `norm`: per edge, the product of `dis` at its two ends.
  `aggT s d w h b`: gather the rows of h at the sources, scale each by its edge's weight, add them up at the
  destinations, add b to every row.  `meanT` / `invT`: the batch mean and the inverse standard deviation from the
  column sums and the column sums of squares; `rowT`: a vector kept as a row.
-/
import proofs.«127999_j35588099015570_1_alg».proof.Proof.Gen.KernelIdeal
import Idealize.ShloMosaic.PureOps.Ideal

noncomputable section

namespace Cert.Gcn.K

open Cert.KernelIdeal Cert.KernelIdeal.Facts₀ Cert.KernelIdeal.Facts Idealize.ShloMosaic

/-- A float array of shape S, an integer array of shape S, at the extended reals. -/
abbrev Fl (S : Shape) : Type := FVec Ideal S .f32
abbrev Ix (S : Shape) : Type := IVec S 32

/-- The sources: row 0 of the edge list, then the self loops. -/
def src (e : Ix S2x800000) : Ix S850000 :=
  concatenate S850000 0 [⟨S800000, shapeCast _ (extractStridedSlice S1x800000 ![0, 0] e slices_S2x800000_S1x800000_0_0) shapeCasts_S1x800000_S800000⟩, ⟨S50000, iotaInDim S50000 32 0⟩] concatenates_S800000_S50000_S850000_d0

/-- The destinations: row 1 of the edge list, then the self loops. -/
def dst (e : Ix S2x800000) : Ix S850000 :=
  concatenate S850000 0 [⟨S800000, shapeCast _ (extractStridedSlice S1x800000 ![1, 0] e slices_S2x800000_S1x800000_1_0) shapeCasts_S1x800000_S800000⟩, ⟨S50000, iotaInDim S50000 32 0⟩] concatenates_S800000_S50000_S850000_d0

/-- Negative indices shifted up by 50000; the result kept as a column. -/
def wrap (i : Ix S850000) : Ix S850000x1 :=
  broadcastInDim S850000x1 ![0] bcast_S850000_S850000x1_0
    (select (cmpi .slt i (broadcastInDim S850000 ![] bcast_S_S850000 (constantI S_ 32 0#32)))
      (addi i (broadcastInDim S850000 ![] bcast_S_S850000 (constantI S_ 32 50000#32))) i)

/-- The in-degree of every node, self loop included: ones added up at the destinations. -/
def deg (d : Ix S850000) : Fl S50000 :=
  Host.scatterAdd scatter_S50000_S850000x1_S850000_n_0_0_1 (broadcastInDim S50000 ![] bcast_S_S50000 (constant S_ .f32 0x00000000#32))
    (broadcastInDim S850000x1 ![0] bcast_S850000_S850000x1_0 d) (broadcastInDim S850000 ![] bcast_S_S850000 (constant S_ .f32 0x3F800000#32))

/-- The inverse square root of the degree where it is positive, else 0. -/
def dis (d : Ix S850000) : Fl S50000 :=
  select (cmpf .ogt (deg d) (broadcastInDim S50000 ![] bcast_S_S50000 (constant S_ .f32 0x00000000#32)))
    (Host.rsqrt (maximumf (deg d) (broadcastInDim S50000 ![] bcast_S_S50000 (constant S_ .f32 0x3F800000#32))))
    (broadcastInDim S50000 ![] bcast_S_S50000 (id (constant S_ .f32 0x00000000#32)))

/-- Per edge: the product of `dis` at its source and at its destination. -/
def norm (s d : Ix S850000) : Fl S850000 :=
  mulf (Host.gather gather_S50000_S850000x1_S850000_n_0_n_n_0_1_1 (dis d) (wrap s))
    (Host.gather gather_S50000_S850000x1_S850000_n_0_n_n_0_1_1 (dis d) (wrap d))

/-- Gather the rows of h at the sources, scale each by its edge's weight, add them up at the destinations, add b to
    every row. -/
def aggT (s d : Ix S850000) (w : Fl S850000) (h : Fl S50000x256) (b : Fl S256) : Fl S50000x256 :=
  addf (Host.scatterAdd scatter_S50000x256_S850000x1_S850000x256_1_0_0_1 (broadcastInDim S50000x256 ![] bcast_S_S50000x256 (constant S_ .f32 0x00000000#32))
      (broadcastInDim S850000x1 ![0] bcast_S850000_S850000x1_0 d)
      (mulf (Host.gather gather_S50000x256_S850000x1_S850000x256_1_0_n_n_0_1_1256 h (wrap s))
        (broadcastInDim S850000x256 ![0, 1] bcast_S850000x1_S850000x256_0_1 (broadcastInDim S850000x1 ![0] bcast_S850000_S850000x1_0 w))))
    (broadcastInDim S50000x256 ![0, 1] bcast_S1x256_S50000x256_0_1 (broadcastInDim S1x256 ![1] bcast_S256_S1x256_1 b))

/-- The whole aggregation as a function of the edge list. -/
def agg (e : Ix S2x800000) (h : Fl S50000x256) (b : Fl S256) : Fl S50000x256 :=
  aggT (src e) (dst e) (norm (src e) (dst e)) h b

/-- A row [1, 256] as a vector [256], and back. -/
def vecT (r : Fl S1x256) : Fl S256 := shapeCast _ r shapeCasts_S1x256_S256
def rowT (v : Fl S256) : Fl S1x256 := shapeCast _ v shapeCasts_S256_S1x256

/-- The batch mean from the column sums: divided by the row count. -/
def meanT (s : Fl S1x256) : Fl S256 :=
  Host.divf (vecT s) (broadcastInDim S256 ![] bcast_S_S256 (constant S_ .f32 0x47435000#32))

/-- The inverse standard deviation from the column sums and the column sums of squares:
    (sumsq / 50000 - mean · mean + eps)^(-1/2). -/
def invT (s ss : Fl S1x256) : Fl S256 :=
  Host.rsqrt (addf (subf (Host.divf (vecT ss) (broadcastInDim S256 ![] bcast_S_S256 (constant S_ .f32 0x47435000#32))) (mulf (meanT s) (meanT s)))
    (broadcastInDim S256 ![] bcast_S_S256 (constant S_ .f32 0x3727C5AC#32)))

/-- The zero vector [256]. -/
def zeroV : Fl S256 := broadcastInDim S256 ![] bcast_S_S256 (constant S_ .f32 0x00000000#32)

end Cert.Gcn.K

end
-- ==== Proof.KHostParams.lean ====
/-
  The fold through the idealized kernel's program, first part: at every boundary `Gen.Wk` between its segments the
  float parameter arrays hold what they were launched with — no host operation writes one, and a region at most reads
  one through an input window, which leaves it as entered.
-/
import proofs.«127999_j35588099015570_1_alg».proof.Proof.Gen.KernelIdeal.Frame
import proofs.«127999_j35588099015570_1_alg».proof.Proof.TermsK
import Idealize.ShloMosaic.Lib.StableHlo.Run

set_option maxRecDepth 16384
-- walking a stretch of some twenty host operations rewrites a term that grows with every step
set_option maxHeartbeats 8000000

noncomputable section

namespace Cert.KernelIdeal.HostValue

open Cert.KernelIdeal Cert.KernelIdeal.Gen Cert.Gcn
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- No operation of a stretch writes the buffer: the goal `∀ op ∈ ops, b ∉ op.writes`, by listing the writes. -/
macro "not_written" : tactic => `(tactic| (
  refine List.forall_iff_forall_mem.mp ?_
  simp only [hostOps0, hostOps0_1, hostOps0_2, hostOps1, hostOps2, hostOps3, hostOps4, List.flatten_cons, List.flatten_nil,
    List.append_nil, List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## The parameters pass through every segment -/

/-- The float parameter arrays of the program. -/
def IsParam (b : Ref sig .tc) : Prop :=
  b = main_arg0 ∨ b = main_arg2 ∨ b = main_arg3 ∨ b = main_arg4 ∨ b = main_arg5 ∨ b = main_arg6 ∨ b = main_arg7
    ∨ b = main_arg8 ∨ b = main_arg9 ∨ b = main_arg10 ∨ b = main_arg11

/-- At a boundary, every float parameter array holds its launch contents. -/
def Params (W : Valuation τ sig (Elt Ideal)) : Prop :=
  ∀ b, IsParam b → W (Proc.devRef .tc b) = m ((c : Thread nD τ).loc b)

/-- A stretch of host operations none of which writes a parameter keeps them. -/
theorem Params.host {ops : List (HloOp τ sig (Elt Ideal))} {W : Valuation τ sig (Elt Ideal)} (h : Params m c W)
    (hnw : ∀ b, IsParam b → ∀ op ∈ ops, Proc.devRef .tc b ∉ op.writes) : Params m c (StableHlo.after ops W) :=
  fun b hb => (StableHlo.after_of_forall_not_mem ops W (hnw b hb)).trans (h b hb)

theorem params0 : Params m c (W0 m ρ c) := fun b _ => rfl
theorem params1 : Params m c (W1 m ρ c) := (params0 m ρ c).host m c fun b hb => by
  rcases hb with rfl | rfl | rfl | rfl | rfl | rfl | rfl | rfl | rfl | rfl | rfl <;> not_written
theorem params2 : Params m c (W2 m ρ c) := (params1 m ρ c).host m c fun b hb => by
  rcases hb with rfl | rfl | rfl | rfl | rfl | rfl | rfl | rfl | rfl | rfl | rfl <;> not_written
theorem params3 : Params m c (W3 m ρ c) := (params2 m ρ c).host m c fun b hb => by
  rcases hb with rfl | rfl | rfl | rfl | rfl | rfl | rfl | rfl | rfl | rfl | rfl <;> not_written
theorem params4 : Params m c (W4 m ρ c) := fun b hb => by
  have h := params3 m ρ c b hb
  rcases hb with rfl | rfl | rfl | rfl | rfl | rfl | rfl | rfl | rfl | rfl | rfl
  all_goals first
    | exact (W4_of_ne m ρ c _ (by decide)).trans h
    | exact ((W4_arr m ρ c 0).trans (((dat0 (V3 m ρ) c).arrAt_in 0 rfl _).trans (A_eq0 (V3 m ρ) c 0))).trans h
    | exact ((W4_arr m ρ c 1).trans (((dat0 (V3 m ρ) c).arrAt_in 1 rfl _).trans (A_eq0 (V3 m ρ) c 1))).trans h
theorem params5 : Params m c (W5 m ρ c) := (params4 m ρ c).host m c fun b hb => by
  rcases hb with rfl | rfl | rfl | rfl | rfl | rfl | rfl | rfl | rfl | rfl | rfl <;> not_written
theorem params6 : Params m c (W6 m ρ c) := fun b hb => by
  have h := params5 m ρ c b hb
  rcases hb with rfl | rfl | rfl | rfl | rfl | rfl | rfl | rfl | rfl | rfl | rfl
  all_goals exact (W6_of_ne m ρ c _ (by decide)).trans h
theorem params7 : Params m c (W7 m ρ c) := (params6 m ρ c).host m c fun b hb => by
  rcases hb with rfl | rfl | rfl | rfl | rfl | rfl | rfl | rfl | rfl | rfl | rfl <;> not_written
theorem params8 : Params m c (W8 m ρ c) := fun b hb => by
  have h := params7 m ρ c b hb
  rcases hb with rfl | rfl | rfl | rfl | rfl | rfl | rfl | rfl | rfl | rfl | rfl
  all_goals first
    | exact (W8_of_ne m ρ c _ (by decide)).trans h
    | exact ((W8_arr m ρ c 5).trans (((dat2 (V7 m ρ) c).arrAt_in 5 rfl _).trans (A_eq2 (V7 m ρ) c 5))).trans h
theorem params9 : Params m c (W9 m ρ c) := (params8 m ρ c).host m c fun b hb => by
  rcases hb with rfl | rfl | rfl | rfl | rfl | rfl | rfl | rfl | rfl | rfl | rfl <;> not_written
theorem params10 : Params m c (W10 m ρ c) := fun b hb => by
  have h := params9 m ρ c b hb
  rcases hb with rfl | rfl | rfl | rfl | rfl | rfl | rfl | rfl | rfl | rfl | rfl
  all_goals exact (W10_of_ne m ρ c _ (by decide)).trans h
theorem params11 : Params m c (W11 m ρ c) := (params10 m ρ c).host m c fun b hb => by
  rcases hb with rfl | rfl | rfl | rfl | rfl | rfl | rfl | rfl | rfl | rfl | rfl <;> not_written

end Cert.KernelIdeal.HostValue

end
-- ==== Proof.KHostEdges.lean ====
/-
  The fold through the idealized kernel's program, second part: the first stretches of host operations compute the
  source and destination arrays (the edge list's rows followed by the self loops), the inverse square roots of the
  degrees, and their product per edge; from region 0's entry on the three arrays are kept, no later operation
  writing them, up to the last stretch that reads them.
-/
import proofs.«127999_j35588099015570_1_alg».proof.Proof.Gen.KernelIdeal.Frame
import proofs.«127999_j35588099015570_1_alg».proof.Proof.TermsK
import Idealize.ShloMosaic.Lib.StableHlo.Run
import proofs.«127999_j35588099015570_1_alg».proof.Proof.KHostParams

set_option maxRecDepth 16384
-- walking a stretch of some twenty host operations rewrites a term that grows with every step
set_option maxHeartbeats 8000000

noncomputable section

namespace Cert.KernelIdeal.HostValue

open Cert.KernelIdeal Cert.KernelIdeal.Gen Cert.Gcn
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The edge arrays: computed by the first stretch; the edge weights: the inverse square roots of the degrees
    (first stretch, then the outlined `where`) and their products per edge (third stretch) -/

theorem src1 : W1 m ρ c (Proc.devRef .tc main_v3) = K.src (m ((c : Thread nD τ).loc main_arg1)) := by
  show StableHlo.after hostOps0 (W0 m ρ c) (Proc.devRef .tc main_v3) = _; after_results <;> rfl
theorem dst1 : W1 m ρ c (Proc.devRef .tc main_v6) = K.dst (m ((c : Thread nD τ).loc main_arg1)) := by
  show StableHlo.after hostOps0 (W0 m ρ c) (Proc.devRef .tc main_v6) = _; after_results <;> rfl
theorem cmp1 : W1 m ρ c (Proc.devRef .tc main_v12)
    = cmpf .ogt (K.deg (K.dst (m ((c : Thread nD τ).loc main_arg1)))) (broadcastInDim S50000 ![] bcast_S_S50000 (constant (F := Ideal) S_ .f32 0x00000000#32)) := by
  show StableHlo.after hostOps0 (W0 m ρ c) (Proc.devRef .tc main_v12) = _; after_results <;> rfl
theorem rsq1 : W1 m ρ c (Proc.devRef .tc main_v15)
    = Host.rsqrt (maximumf (K.deg (K.dst (m ((c : Thread nD τ).loc main_arg1)))) (broadcastInDim S50000 ![] bcast_S_S50000 (constant (F := Ideal) S_ .f32 0x3F800000#32))) := by
  show StableHlo.after hostOps0 (W0 m ρ c) (Proc.devRef .tc main_v15) = _; after_results <;> rfl
theorem zero1 : W1 m ρ c (Proc.devRef .tc main_cst_3) = constant (F := Ideal) S_ .f32 0x00000000#32 := by
  show StableHlo.after hostOps0 (W0 m ρ c) (Proc.devRef .tc main_cst_3) = _; after_results <;> rfl

theorem src2 : W2 m ρ c (Proc.devRef .tc main_v3) = K.src (m ((c : Thread nD τ).loc main_arg1)) :=
  (StableHlo.after_of_forall_not_mem (b := Proc.devRef .tc main_v3) hostOps0_1 _ (by not_written)).trans (src1 m ρ c)
theorem dst2 : W2 m ρ c (Proc.devRef .tc main_v6) = K.dst (m ((c : Thread nD τ).loc main_arg1)) :=
  (StableHlo.after_of_forall_not_mem (b := Proc.devRef .tc main_v6) hostOps0_1 _ (by not_written)).trans (dst1 m ρ c)
/-- The buffers of the outlined `where` hold values of their own types: reading a value as a buffer's contents, or a
    buffer's contents as a value, changes nothing. -/
theorem to_v16 (v : FVec Ideal S50000 .f32) :
    (TRef.of (sig := sig) (T := ⟨S50000, .f32⟩) main_v16).toBuf (Val := Elt Ideal) v = v := rfl
theorem of_v12 (v : IVec S50000 1) :
    (TRef.of (sig := sig) (T := ⟨S50000, .i1⟩) main_v12).ofBuf (Val := Elt Ideal) v = v := rfl
theorem of_v15 (v : FVec Ideal S50000 .f32) :
    (TRef.of (sig := sig) (T := ⟨S50000, .f32⟩) main_v15).ofBuf (Val := Elt Ideal) v = v := rfl
theorem of_w1 (v : FVec Ideal S50000 .f32) :
    (TRef.of (sig := sig) (T := ⟨S50000, .f32⟩) main_call0_v1).ofBuf (Val := Elt Ideal) v = v := rfl
theorem to_w1 (v : FVec Ideal S50000 .f32) :
    (TRef.of (sig := sig) (T := ⟨S50000, .f32⟩) main_call0_v1).toBuf (Val := Elt Ideal) v = v := rfl
theorem of_w0 (v : FVec Ideal S_ .f32) :
    (TRef.of (sig := sig) (T := ⟨S_, .f32⟩) main_call0_v0).ofBuf (Val := Elt Ideal) v = v := rfl
theorem to_w0 (v : FVec Ideal S_ .f32) :
    (TRef.of (sig := sig) (T := ⟨S_, .f32⟩) main_call0_v0).toBuf (Val := Elt Ideal) v = v := rfl
theorem of_z3 (v : FVec Ideal S_ .f32) :
    (TRef.of (sig := sig) (T := ⟨S_, .f32⟩) main_cst_3).ofBuf (Val := Elt Ideal) v = v := rfl

theorem dis2 : W2 m ρ c (Proc.devRef .tc main_v16) = K.dis (K.dst (m ((c : Thread nD τ).loc main_arg1))) := by
  show StableHlo.after hostOps0_1 (W1 m ρ c) (Proc.devRef .tc main_v16) = _
  have h12 := cmp1 m ρ c
  have h15 := rsq1 m ρ c
  have h0 := zero1 m ρ c
  generalize W1 m ρ c = U at h12 h15 h0 ⊢
  after_results
  rw [h12, h15, h0, to_v16, of_v12, of_v15, of_w1, to_w1, of_w0, to_w0, of_z3]
  rfl

/-- From region 0's entry on: the source and destination arrays and the edge weights. -/
structure Edges (W : Valuation τ sig (Elt Ideal)) : Prop where
  s : W (Proc.devRef .tc main_v3) = K.src (m ((c : Thread nD τ).loc main_arg1))
  d : W (Proc.devRef .tc main_v6) = K.dst (m ((c : Thread nD τ).loc main_arg1))
  w : W (Proc.devRef .tc main_v31) = K.norm (K.src (m ((c : Thread nD τ).loc main_arg1))) (K.dst (m ((c : Thread nD τ).loc main_arg1)))

theorem edges3 : Edges m c (W3 m ρ c) where
  s := (StableHlo.after_of_forall_not_mem (b := Proc.devRef .tc main_v3) hostOps0_2 _ (by not_written)).trans (src2 m ρ c)
  d := (StableHlo.after_of_forall_not_mem (b := Proc.devRef .tc main_v6) hostOps0_2 _ (by not_written)).trans (dst2 m ρ c)
  w := by
    show StableHlo.after hostOps0_2 (W2 m ρ c) (Proc.devRef .tc main_v31) = _
    have h16 := dis2 m ρ c
    have h3 := src2 m ρ c
    have h6 := dst2 m ρ c
    generalize W2 m ρ c = U at h16 h3 h6 ⊢
    after_results
    rw [h16, h3, h6]
    rfl

/-- A stretch that writes none of the three keeps them. -/
theorem Edges.host {ops : List (HloOp τ sig (Elt Ideal))} {W : Valuation τ sig (Elt Ideal)} (h : Edges m c W)
    (h3 : ∀ op ∈ ops, Proc.devRef .tc main_v3 ∉ op.writes) (h6 : ∀ op ∈ ops, Proc.devRef .tc main_v6 ∉ op.writes)
    (h31 : ∀ op ∈ ops, Proc.devRef .tc main_v31 ∉ op.writes) : Edges m c (StableHlo.after ops W) :=
  ⟨(StableHlo.after_of_forall_not_mem ops W h3).trans h.s, (StableHlo.after_of_forall_not_mem ops W h6).trans h.d,
   (StableHlo.after_of_forall_not_mem ops W h31).trans h.w⟩

theorem edges4 : Edges m c (W4 m ρ c) :=
  have h := edges3 m ρ c
  ⟨(W4_of_ne m ρ c main_v3 (by decide)).trans h.s, (W4_of_ne m ρ c main_v6 (by decide)).trans h.d,
   (W4_of_ne m ρ c main_v31 (by decide)).trans h.w⟩
theorem edges5 : Edges m c (W5 m ρ c) := (edges4 m ρ c).host m c (by not_written) (by not_written) (by not_written)
theorem edges6 : Edges m c (W6 m ρ c) :=
  have h := edges5 m ρ c
  ⟨(W6_of_ne m ρ c main_v3 (by decide)).trans h.s, (W6_of_ne m ρ c main_v6 (by decide)).trans h.d,
   (W6_of_ne m ρ c main_v31 (by decide)).trans h.w⟩
theorem edges7 : Edges m c (W7 m ρ c) := (edges6 m ρ c).host m c (by not_written) (by not_written) (by not_written)
theorem edges8 : Edges m c (W8 m ρ c) :=
  have h := edges7 m ρ c
  ⟨(W8_of_ne m ρ c main_v3 (by decide)).trans h.s, (W8_of_ne m ρ c main_v6 (by decide)).trans h.d,
   (W8_of_ne m ρ c main_v31 (by decide)).trans h.w⟩

end Cert.KernelIdeal.HostValue

end
-- ==== Proof.KHostStretch.lean ====
/-
  The fold through the idealized kernel's program, third part: each later stretch of host operations, from the
  contents it is entered with — the aggregation after a product, and the batch mean, inverse standard deviation and
  parameter rows after the column sums — and an activation array that the next region only reads is kept.
-/
import proofs.«127999_j35588099015570_1_alg».proof.Proof.Gen.KernelIdeal.Frame
import proofs.«127999_j35588099015570_1_alg».proof.Proof.TermsK
import Idealize.ShloMosaic.Lib.StableHlo.Run
import proofs.«127999_j35588099015570_1_alg».proof.Proof.KHostParams

set_option maxRecDepth 16384
-- walking a stretch of some twenty host operations rewrites a term that grows with every step
set_option maxHeartbeats 8000000

noncomputable section

namespace Cert.KernelIdeal.HostValue

open Cert.KernelIdeal Cert.KernelIdeal.Gen Cert.Gcn
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The four later stretches, each from the contents it is entered with -/

/-- After region 0: the aggregation of its product. -/
theorem agg5 : W5 m ρ c (Proc.devRef .tc main_v48)
    = K.aggT (W4 m ρ c (Proc.devRef .tc main_v3)) (W4 m ρ c (Proc.devRef .tc main_v6)) (W4 m ρ c (Proc.devRef .tc main_v31))
        (W4 m ρ c (Proc.devRef .tc main_v32)) (W4 m ρ c (Proc.devRef .tc main_arg3)) := by
  show StableHlo.after hostOps1 (W4 m ρ c) (Proc.devRef .tc main_v48) = _; after_results <;> rfl

/-- After region 1: the statistics and the parameters as rows. -/
theorem mean7 : W7 m ρ c (Proc.devRef .tc main_v62) = K.rowT (K.meanT (W6 m ρ c (Proc.devRef .tc main_v49_0))) := by
  show StableHlo.after hostOps2 (W6 m ρ c) (Proc.devRef .tc main_v62) = _; after_results <;> rfl
theorem inv7 : W7 m ρ c (Proc.devRef .tc main_v63)
    = K.rowT (K.invT (W6 m ρ c (Proc.devRef .tc main_v49_0)) (W6 m ρ c (Proc.devRef .tc main_v49_1))) := by
  show StableHlo.after hostOps2 (W6 m ρ c) (Proc.devRef .tc main_v63) = _; after_results <;> rfl
theorem g7 : W7 m ρ c (Proc.devRef .tc main_v64) = K.rowT (W6 m ρ c (Proc.devRef .tc main_arg4)) := by
  show StableHlo.after hostOps2 (W6 m ρ c) (Proc.devRef .tc main_v64) = _; after_results <;> rfl
theorem be7 : W7 m ρ c (Proc.devRef .tc main_v65) = K.rowT (W6 m ρ c (Proc.devRef .tc main_arg5)) := by
  show StableHlo.after hostOps2 (W6 m ρ c) (Proc.devRef .tc main_v65) = _; after_results <;> rfl
theorem bias7 : W7 m ρ c (Proc.devRef .tc main_v66) = K.rowT K.zeroV := by
  show StableHlo.after hostOps2 (W6 m ρ c) (Proc.devRef .tc main_v66) = _; after_results <;> rfl

/-- After region 2: the aggregation of its product. -/
theorem agg9 : W9 m ρ c (Proc.devRef .tc main_v83)
    = K.aggT (W8 m ρ c (Proc.devRef .tc main_v3)) (W8 m ρ c (Proc.devRef .tc main_v6)) (W8 m ρ c (Proc.devRef .tc main_v31))
        (W8 m ρ c (Proc.devRef .tc main_v67)) (W8 m ρ c (Proc.devRef .tc main_arg7)) := by
  show StableHlo.after hostOps3 (W8 m ρ c) (Proc.devRef .tc main_v83) = _; after_results <;> rfl

/-- After region 3: the statistics and the parameters as rows. -/
theorem mean11 : W11 m ρ c (Proc.devRef .tc main_v96) = K.rowT (K.meanT (W10 m ρ c (Proc.devRef .tc main_v84_0))) := by
  show StableHlo.after hostOps4 (W10 m ρ c) (Proc.devRef .tc main_v96) = _; after_results <;> rfl
theorem inv11 : W11 m ρ c (Proc.devRef .tc main_v97)
    = K.rowT (K.invT (W10 m ρ c (Proc.devRef .tc main_v84_0)) (W10 m ρ c (Proc.devRef .tc main_v84_1))) := by
  show StableHlo.after hostOps4 (W10 m ρ c) (Proc.devRef .tc main_v97) = _; after_results <;> rfl
theorem g11 : W11 m ρ c (Proc.devRef .tc main_v98) = K.rowT (W10 m ρ c (Proc.devRef .tc main_arg8)) := by
  show StableHlo.after hostOps4 (W10 m ρ c) (Proc.devRef .tc main_v98) = _; after_results <;> rfl
theorem be11 : W11 m ρ c (Proc.devRef .tc main_v99) = K.rowT (W10 m ρ c (Proc.devRef .tc main_arg9)) := by
  show StableHlo.after hostOps4 (W10 m ρ c) (Proc.devRef .tc main_v99) = _; after_results <;> rfl
theorem bias11 : W11 m ρ c (Proc.devRef .tc main_v100) = K.rowT (W10 m ρ c (Proc.devRef .tc main_arg11)) := by
  show StableHlo.after hostOps4 (W10 m ρ c) (Proc.devRef .tc main_v100) = _; after_results <;> rfl

/-! ## An activation array that the next region only reads, and the stretch after it does not write, is kept -/

theorem keep48_6 : W6 m ρ c (Proc.devRef .tc main_v48) = W5 m ρ c (Proc.devRef .tc main_v48) :=
  (W6_arr m ρ c 0).trans (((dat1 (V5 m ρ) c).arrAt_in 0 rfl _).trans (A_eq1 (V5 m ρ) c 0))
theorem keep48_7 : W7 m ρ c (Proc.devRef .tc main_v48) = W5 m ρ c (Proc.devRef .tc main_v48) :=
  (StableHlo.after_of_forall_not_mem (b := Proc.devRef .tc main_v48) hostOps2 _ (by not_written)).trans (keep48_6 m ρ c)
theorem keep83_10 : W10 m ρ c (Proc.devRef .tc main_v83) = W9 m ρ c (Proc.devRef .tc main_v83) :=
  (W10_arr m ρ c 0).trans (((dat3 (V9 m ρ) c).arrAt_in 0 rfl _).trans (A_eq3 (V9 m ρ) c 0))
theorem keep83_11 : W11 m ρ c (Proc.devRef .tc main_v83) = W9 m ρ c (Proc.devRef .tc main_v83) :=
  (StableHlo.after_of_forall_not_mem (b := Proc.devRef .tc main_v83) hostOps4 _ (by not_written)).trans (keep83_10 m ρ c)

end Cert.KernelIdeal.HostValue

end
-- ==== Proof.Spec.lean ====
/-
  The three array functions the kernel's regions compute, on the extended reals, entry by entry.

  * `mm A B`: the matrix product, entry (p, q) the sum over k of A (p, k) · B (k, q).
  * `colSum Y`, `colSumSq Y`: the column sums of Y and of its squares, kept as a row [1, b].
  * `bnmm Y mean inv g be W bias`: each row of Y shifted by `mean`, scaled by `inv` and by `g`, shifted by `be`
    (all four kept as rows [1, n]), multiplied into W, plus the row `bias`.
-/
import Idealize.ShloMosaic.PureOps.Ideal
import Idealize.ShloMosaic.Lib.ValueIdx

noncomputable section

open scoped BigOperators

namespace Cert.Gcn

open Idealize.ShloMosaic Idealize.ShloMosaic.ValueIdx

/-- An [a, b] array of extended reals. -/
abbrev Mat (a b : ℕ) : Type := (⟨2, ![a, b]⟩ : Shape).Idx → EReal

/-- The matrix product: entry (p, q) is the sum over k of A (p, k) · B (k, q). -/
def mm {a n b : ℕ} (A : Mat a n) (B : Mat n b) : Mat a b :=
  fun j => ∑ k : Fin n, A (ix2 (j 0) k) * B (ix2 k (j 1))

/-- The column sums, kept as a row: entry (0, q) is the sum over the rows p of Y (p, q). -/
def colSum {a b : ℕ} (Y : Mat a b) : Mat 1 b :=
  fun j => ∑ p : Fin a, Y (ix2 p (j 1))

/-- The column sums of the squares, kept as a row. -/
def colSumSq {a b : ℕ} (Y : Mat a b) : Mat 1 b :=
  fun j => ∑ p : Fin a, Y (ix2 p (j 1)) * Y (ix2 p (j 1))

/-- Normalise, scale and shift each row, multiply into W, add the bias row:
    entry (p, q) is the sum over k of ((Y (p, k) - mean k) · inv k · g k + be k) · W (k, q), plus bias q. -/
def bnmm {a n b : ℕ} (Y : Mat a n) (mean inv g be : Mat 1 n) (W : Mat n b) (bias : Mat 1 b) : Mat a b :=
  fun j => (∑ k : Fin n, ((Y (ix2 (j 0) k) - mean (ix2 (0 : Fin 1) k)) * inv (ix2 (0 : Fin 1) k) * g (ix2 (0 : Fin 1) k)
      + be (ix2 (0 : Fin 1) k)) * W (ix2 k (j 1))) + bias (ix2 (0 : Fin 1) (j 1))

end Cert.Gcn

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.RegMatmul.lean ====
/-
  Region 0: the plain matrix product, read off the pipeline's proof data.

  The region runs over 25 points. At point t the left operand's window holds rows 2000 t … 2000 t + 1999 of the
  [50000, 128] array, the right operand's window holds the whole [128, 256] array, and the body stores, into the
  result's window, the product of the two blocks accumulated onto zero. On the extended reals the changes of format on
  the way into the product are the identity, so entry (p, q) of what is stored is the sum over k of
  left (2000 t + p, k) · right (k, q): block t of the product of the two arrays. The 25 row blocks tile the
  [50000, 256] result — row r lies in block r / 2000 — and every point writes its block back, so the result array ends
  holding the product.
-/
import proofs.«127999_j35588099015570_1_alg».proof.Proof.Gen.KernelIdeal.Frame
import proofs.«127999_j35588099015570_1_alg».proof.Proof.Spec
import proofs.«127999_j35588099015570_1_alg».proof.Proof.LibPlainMatmul
import Idealize.ShloMosaic.Lib.Pipeline.Value
import Idealize.ShloMosaic.Lib.ValueIdx

noncomputable section

open scoped BigOperators
open Idealize.ShloMosaic Idealize.ShloMosaic.TcCoe Idealize.SL.Sem
open Idealize.ShloMosaic.Pipeline (Dat)

namespace Cert.KernelIdeal.RegionValue

open Cert.KernelIdeal Cert.KernelIdeal.Gen Idealize.ShloMosaic.ValueIdx

variable (V : (c : Dev nD) → (b : Ref sig .tc) → Buf (Elt Ideal) ((c : Thread nD τ).loc b)) (c : Dev nD)

/-- The offsets of a whole-block access, as the constant zero function. -/
theorem zero_offsets0 : (![0, 0] : Fin 2 → Nat) = fun _ => 0 := funext fun a => by fin_cases a <;> rfl

/-- The product's entry (p, q): the sum over k of left (p, k) times right (k, q). -/
theorem matmul_entry0 (v0 : Vec Ideal S2000x128 .f32) (v2 : Vec Ideal S128x256 .f32) (p : Fin 2000) (q : Fin 256) :
    k0_pay1 v0 v2 (ix2 p q) = ∑ k : Fin 128, v0 (ix2 p k) * v2 (ix2 k q) := by
  unfold k0_pay1
  exact Cert.PlainMatmul.zero_acc_apply _ _ _ _ p q

/-- The index maps over the 25 points: the row-block windows sit at block (t, 0), the weight at block (0, 0). -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 2000 t … 2000 t + 1999 of the array. -/
theorem left_block_entry0 (t : Fin cfg0.N) (p : Fin 2000) (k : Fin 128) (i : S50000x128.Idx)
    (h0 : (i 0).val = t.val * 2000 + p.val) (h1 : (i 1).val = k.val) :
    (iblk0 V c 0 t : Vec Ideal S2000x128 .f32) (ix2 p k) = (V c main_arg0 : S50000x128.Idx → EReal) i := by
  obtain ⟨e0, e1, -⟩ := index_facts0 t
  unfold iblk0
  rw [View.read_apply]
  show (V c main_arg0 : S50000x128.Idx → EReal) _ = (V c main_arg0 : S50000x128.Idx → EReal) _
  refine congrArg (V c main_arg0 : S50000x128.Idx → EReal) ?_
  funext a
  apply Fin.ext
  match a with
  | ⟨0, _⟩ => show win0_0.index t (0 : Fin 2) * 2000 + 1 * p.val = (i 0).val; rw [e0, h0]; omega
  | ⟨1, _⟩ => show win0_0.index t (1 : Fin 2) * 128 + 1 * k.val = (i 1).val; rw [e1, h1]; omega

/-- The right operand's block at every point is the whole array. -/
theorem right_block_entry0 (t : Fin cfg0.N) (k : Fin 128) (q : Fin 256) (i : S128x256.Idx)
    (h0 : (i 0).val = k.val) (h1 : (i 1).val = q.val) :
    (iblk0 V c 1 t : Vec Ideal S128x256 .f32) (ix2 k q) = (V c main_arg2 : S128x256.Idx → EReal) i := by
  obtain ⟨-, -, e2, e3, -⟩ := index_facts0 t
  unfold iblk0
  rw [View.read_apply]
  show (V c main_arg2 : S128x256.Idx → EReal) _ = (V c main_arg2 : S128x256.Idx → EReal) _
  refine congrArg (V c main_arg2 : S128x256.Idx → EReal) ?_
  funext a
  apply Fin.ext
  match a with
  | ⟨0, _⟩ => show win0_1.index t (0 : Fin 2) * 128 + 1 * k.val = (i 0).val; rw [e2, h0]; omega
  | ⟨1, _⟩ => show win0_1.index t (1 : Fin 2) * 256 + 1 * q.val = (i 1).val; rw [e3, h1]; omega

/-- When row p of the left block is row (i 0) of the array A and the right block is the array B, entry (p, q) of the
    blocks' product is the product of A and B at i. -/
theorem block_product_entry0 (x0 : Vec Ideal S2000x128 .f32) (x1 : Vec Ideal S128x256 .f32)
    (A : Cert.Gcn.Mat 50000 128) (B : Cert.Gcn.Mat 128 256) (p : Fin 2000) (q : Fin 256) (i : S50000x256.Idx)
    (hA : ∀ k : Fin 128, x0 (ix2 p k) = A (ix2 (i 0) k)) (hB : ∀ k : Fin 128, x1 (ix2 k q) = B (ix2 k (i 1))) :
    k0_pay1 x0 x1 (ix2 p q) = Cert.Gcn.mm A B i := by
  refine (matmul_entry0 x0 x1 p q).trans ?_
  show _ = ∑ k : Fin 128, A (ix2 (i 0) k) * B (ix2 k (i 1))
  exact Finset.sum_congr rfl fun k _ => by rw [hA k, hB k]

/-- What point t writes back is block t of the product of the two arrays. -/
theorem flushed_block0 (t : Fin cfg0.N) :
    (dat0 V c).flushed 2 t = ((cfg0.win 2).blk t).view.read (Elt Ideal) (Cert.Gcn.mm (V c main_arg0) (V c main_arg2)) := by
  show (cfg0.win 2).cut (grid0.coords t) ((dat0 V c).after 2 t) = _
  rw [after0_2]
  unfold out0_2
  rw [View.canon_unit_zero zero_offsets0]
  simp only [View.ld_unit_zero (S := S2000x128) zero_offsets0, View.ld_unit_zero (S := S128x256) zero_offsets0]
  obtain ⟨-, -, -, -, e4, e5⟩ := index_facts0 t
  funext j
  obtain ⟨p, q, rfl⟩ : ∃ (p : Fin 2000) (q : Fin 256), j = ix2 p q := ⟨j 0, j 1, eq_ix2 j⟩
  rw [View.read_apply]
  show k0_pay1 (iblk0 V c 0 t) (iblk0 V c 1 t) (ix2 p q) = Cert.Gcn.mm (V c main_arg0) (V c main_arg2) (((cfg0.win 2).blk t).view.emb (ix2 p q))
  have h0 : ((((cfg0.win 2).blk t).view.emb (ix2 p q)) 0).val = t.val * 2000 + p.val := by
    show win0_2.index t (0 : Fin 2) * 2000 + 1 * p.val = t.val * 2000 + p.val; rw [e4]; omega
  have h1 : ((((cfg0.win 2).blk t).view.emb (ix2 p q)) 1).val = q.val := by
    show win0_2.index t (1 : Fin 2) * 256 + 1 * q.val = q.val; rw [e5]; omega
  exact block_product_entry0 (iblk0 V c 0 t) (iblk0 V c 1 t) (V c main_arg0) (V c main_arg2) p q
    (((cfg0.win 2).blk t).view.emb (ix2 p q))
    (fun k => left_block_entry0 V c t p k (ix2 ((((cfg0.win 2).blk t).view.emb (ix2 p q)) 0) k) h0 rfl)
    (fun k => right_block_entry0 V c t k q (ix2 k ((((cfg0.win 2).blk t).view.emb (ix2 p q)) 1)) rfl h1)

/-- An index of the result array is in point t's block iff each coordinate is in the block's range on its axis. -/
theorem mem_block0 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v32).slice (win0_2.rect t)).set ↔ _
  rw [View.set_slice_whole, Rect.mem_set_unit]
  exact Iff.rfl

/-- Row r of the result lies in the block of point r / 2000, which is written back. -/
theorem covered0 (i : S50000x256.Idx) :
    ∃ t : Fin cfg0.N, (cfg0.win 2).flush t = true ∧ i ∈ ((cfg0.win 2).blk t).view.set := by
  have hN : grid0.N = 25 := N_0
  have hi0 : (i 0).val < 50000 := (i 0).isLt
  have hi1 : (i 1).val < 256 := (i 1).isLt
  have ht : (i 0).val / 2000 < cfg0.N := by show (i 0).val / 2000 < grid0.N; rw [hN]; omega
  refine ⟨⟨(i 0).val / 2000, ht⟩, flush0_2 _, ?_⟩
  obtain ⟨-, -, -, -, e4, e5⟩ := index_facts0 ⟨(i 0).val / 2000, ht⟩
  rw [mem_block0]
  intro a
  match a with
  | ⟨0, _⟩ => show win0_2.index ⟨(i 0).val / 2000, ht⟩ (0 : Fin 2) * 2000 ≤ (i 0).val ∧ (i 0).val < win0_2.index ⟨(i 0).val / 2000, ht⟩ (0 : Fin 2) * 2000 + 2000; rw [e4]; show (i 0).val / 2000 * 2000 ≤ (i 0).val ∧ (i 0).val < (i 0).val / 2000 * 2000 + 2000; omega
  | ⟨1, _⟩ => show win0_2.index ⟨(i 0).val / 2000, ht⟩ (1 : Fin 2) * 256 ≤ (i 1).val ∧ (i 1).val < win0_2.index ⟨(i 0).val / 2000, ht⟩ (1 : Fin 2) * 256 + 256; rw [e5]; omega

/-- Region 0 leaves the product of its two operand arrays in its result array. -/
theorem linear : (Gen.dat0 (F := Ideal) V c).arrAt 2 cfg0.N = Cert.Gcn.mm (V c main_arg0) (V c main_arg2) :=
  (dat0 V c).arrAt_eq_of_cover 2 (Cert.Gcn.mm (V c main_arg0) (V c main_arg2)) (fun t _ => flushed_block0 V c t) (covered0)

end Cert.KernelIdeal.RegionValue

end
-- ==== Proof.LibSumBlocks.lean ====
/-
  Regrouping a finite sum into consecutive blocks.

  A sum over the N = a * b indices 0, …, N - 1 is the sum, over the a blocks, of the sum over the b offsets inside a
  block: index i * b + j is offset j of block i.  Only commutativity and associativity of the addition are used, so the
  statement holds in any additive commutative monoid (the extended reals included).
-/
import Mathlib.Algebra.BigOperators.Fin
import Mathlib.Logic.Equiv.Fin.Basic

open scoped BigOperators

namespace Cert.SumBlocks

/-- Index `i * b + j` of block `i`, offset `j`, is below `a * b`. -/
theorem block_index_lt {a b : ℕ} (i : Fin a) (j : Fin b) : i.val * b + j.val < a * b := by
  have hi : i.val + 1 ≤ a := i.isLt
  have hj := j.isLt
  have h1 : (i.val + 1) * b ≤ a * b := Nat.mul_le_mul_right b hi
  rw [Nat.succ_mul] at h1
  omega

/-- A sum over `Fin N`, `N = a * b`, regrouped as `a` consecutive blocks of `b` terms. -/
theorem sum_blocks {M : Type*} [AddCommMonoid M] (a b N : ℕ) (hN : N = a * b) (f : Fin N → M) :
    ∑ n : Fin N, f n = ∑ i : Fin a, ∑ j : Fin b, f ⟨i.val * b + j.val, hN ▸ block_index_lt i j⟩ := by
  subst hN
  rw [← Fintype.sum_prod_type', ← (finProdFinEquiv (m := a) (n := b)).sum_comp]
  refine Finset.sum_congr rfl fun p _ => congrArg f (Fin.ext ?_)
  show p.2.val + b * p.1.val = p.1.val * b + p.2.val
  rw [Nat.mul_comm, Nat.add_comm]

end Cert.SumBlocks
-- ==== Proof.RegStats1.lean ====
/-
  The two column statistics of region 1: after the region's 25 grid points the two [1, 256] outputs hold, at entry
  (0, q), the sum over all 50000 rows p of Y (p, q) and of Y (p, q) * Y (p, q), where Y is the region's [50000, 256]
  input array.

  Each point reads one block of 2000 consecutive rows of Y.  The first point stores a zero row into each output, reads
  it back and adds the block's column sums; every later point adds its block's column sums to what the point before
  left.  By induction on the point, after point t the first output's entry (0, q) is the sum of Y (p, q) over the rows
  p < (t + 1) * 2000 (the second output: of the squares).  Both outputs keep one block for the whole grid, which is
  written back after the last point only and is the whole [1, 256] array; 25 blocks of 2000 rows are the 50000 rows.
  The extended reals are an additive commutative monoid, so the regrouping needs no finiteness.
-/
import proofs.«127999_j35588099015570_1_alg».proof.Proof.Gen.KernelIdeal.Frame
import proofs.«127999_j35588099015570_1_alg».proof.Proof.Spec
import proofs.«127999_j35588099015570_1_alg».proof.Proof.LibSumBlocks
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

/-! ## What each case leaves in each output, as the body's arithmetic -/

section Pieces

variable {F : FTy → Type} [FloatOps F]

theorem hz1 : (![0, 0] : Fin 2 → Nat) = fun _ => 0 := funext fun a => by fin_cases a <;> rfl

/-- A later point (not the first): the first output's buffer, holding `xo1`, is left at the body's sum payload of the
    input block `x` and `xo1`. -/
theorem out1_B_1_eq (c : Dev nD) (i : grid1.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (hc : ¬cond1_0 i) (x : Vec F S2000x256 .f32) (xo1 xo2 : Vec F S1x256 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero hz1]
  simp only [View.readAt_eq_ld, h1.read_unread, h2.read_unread, View.ld_unit_zero (S := S2000x256) hz1,
    View.ld_unit_zero (S := S1x256) hz1]

/-- A later point: the second output's buffer, holding `xo2`, is left at the body's sum-of-squares payload of the input
    block `x` and `xo2`. -/
theorem out1_B_2_eq (c : Dev nD) (i : grid1.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (hc : ¬cond1_0 i) (x : Vec F S2000x256 .f32) (xo1 xo2 : Vec F S1x256 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero hz1]
  simp only [View.readAt_eq_ld, h1.read_unread, h3.read_unread, View.ld_unit_zero (S := S2000x256) hz1,
    View.ld_unit_zero (S := S1x256) hz1]

/-- The first point: the body stores the zero row into the first output, reads it back and leaves the sum payload of
    the input block `x` and that zero row. -/
theorem out1_A_1_eq (c : Dev nD) (i : grid1.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (hc : cond1_0 i) (x : Vec F S2000x256 .f32) :
    out1_A_1 c i a1 h1 a2 h2 a3 h3 hc x = k1_pay4 x k1_pay1 := by
  unfold out1_A_1
  rw [View.read_writes_eq_canon _ _ _ (cover1_A_1 c i a1 h1 a2 h2 a3 h3 hc x)]
  unfold kernelRun1_A
  dsimp only
  sl_unfold_words
  rw [View.canon_cons_unit_zero (S := S1x256) hz1, View.readCov_unit_zero (S := S1x256) _ hz1]
  simp only [View.readAt_eq_ld, h1.read_unread, View.ld_unit_zero (S := S2000x256) hz1]

/-- The first point: likewise for the second output and the sum-of-squares payload. -/
theorem out1_A_2_eq (c : Dev nD) (i : grid1.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (hc : cond1_0 i) (x : Vec F S2000x256 .f32) :
    out1_A_2 c i a1 h1 a2 h2 a3 h3 hc x = k1_pay5 x k1_pay2 := by
  unfold out1_A_2
  rw [View.read_writes_eq_canon _ _ _ (cover1_A_2 c i a1 h1 a2 h2 a3 h3 hc x)]
  unfold kernelRun1_A
  dsimp only
  sl_unfold_words
  rw [View.canon_cons_unit_zero (S := S1x256) hz1, View.readCov_unit_zero (S := S1x256) _ hz1]
  simp only [View.readAt_eq_ld, h1.read_unread, View.ld_unit_zero (S := S2000x256) hz1]

end Pieces

/-! ## The body's arithmetic at an entry, on the extended reals -/

/-- The zero row: every entry is 0. -/
theorem k1_pay1_apply (j : S1x256.Idx) : k1_pay1 (F := Ideal) j = 0 := by
  unfold k1_pay1
  exact Ideal.ofBits_zero_f32

theorem k1_pay2_apply (j : S1x256.Idx) : k1_pay2 (F := Ideal) j = 0 := by
  unfold k1_pay2
  exact Ideal.ofBits_zero_f32

/-- The sum over the rows of a [2000, 256] block, taken lane by lane and kept as a row: entry (0, q) is the sum over the
    rows p of the block's entry (p, q). -/
theorem lane_sum_apply1 (x : FVec Ideal S2000x256 .f32) (h : S2000x256.Reduces [0] S256) (hφ : FKind.Formats .f32)
    (hacc : (0x00000000#32 : BitVec 32) = FKind.add.neutral .f32 hφ) (hc : S256.ShapeCasts S1x256) (q : Fin 256) :
    shapeCast S1x256 (multiReduction (F := Ideal) .add [0] S256 x 0x00000000#32 h hφ hacc) hc (ix2 (0 : Fin 1) q)
      = ∑ p : Fin 2000, x (ix2 p q) := by
  refine (shapeCast_a_1a_apply _ hc 0 q).trans ?_
  refine (Ideal.multiReduction_add_single x 0x00000000#32 h hφ hacc (ix1 q)).trans ?_
  refine Finset.sum_congr rfl fun p _ => congrArg x (funext fun ax => Fin.ext ?_)
  match ax with
  | ⟨0, _⟩ => rfl
  | ⟨1, _⟩ => rfl

/-- The sum payload at entry (0, q): what the output held there plus the block's column sum. -/
theorem k1_pay4_apply (v3 : Vec Ideal S2000x256 .f32) (v5 : Vec Ideal S1x256 .f32) (q : Fin 256) :
    k1_pay4 (F := Ideal) v3 v5 (ix2 (0 : Fin 1) q) = v5 (ix2 (0 : Fin 1) q) + ∑ p : Fin 2000, v3 (ix2 p q) := by
  unfold k1_pay4 k1_pay3
  dsimp only
  refine (addf_apply _ _ _).trans ?_
  refine congrArg₂ (· + ·) (congrFun (shapeCast_self v5 _) _) ?_
  refine (lane_sum_apply1 _ _ _ _ _ q).trans ?_
  exact Finset.sum_congr rfl fun p _ => congrFun (shapeCast_self v3 _) _

/-- The sum-of-squares payload at entry (0, q): what the output held there plus the block's column sum of squares. -/
theorem k1_pay5_apply (v3 : Vec Ideal S2000x256 .f32) (v11 : Vec Ideal S1x256 .f32) (q : Fin 256) :
    k1_pay5 (F := Ideal) v3 v11 (ix2 (0 : Fin 1) q)
      = v11 (ix2 (0 : Fin 1) q) + ∑ p : Fin 2000, v3 (ix2 p q) * v3 (ix2 p q) := by
  unfold k1_pay5 k1_pay3
  dsimp only
  refine (addf_apply _ _ _).trans ?_
  refine congrArg₂ (· + ·) (congrFun (shapeCast_self v11 _) _) ?_
  refine (lane_sum_apply1 _ _ _ _ _ q).trans ?_
  refine Finset.sum_congr rfl fun p _ => (mulf_apply _ _ _).trans ?_
  exact congrArg₂ (· * ·) (congrFun (shapeCast_self v3 _) _) (congrFun (shapeCast_self v3 _) _)

/-! ## The input's blocks: block t is rows t * 2000 … t * 2000 + 1999 -/

section Region

variable (V : (c : Dev nD) → (b : Ref sig .tc) → Buf (Elt Ideal) ((c : Thread nD τ).loc b)) (c : Dev nD)

/-- The region's input array, as a [50000, 256] array of extended reals. -/
abbrev inArr1 : Cert.Gcn.Mat 50000 256 := V c main_v48

/-- The input window's block index at point t is (t, 0). -/
theorem in_index1 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- Entry (p, q) of the input's block at point t is the array's entry (t * 2000 + p, q). -/
theorem block_entry1 (t : Fin cfg1.N) (p : Fin 2000) (q : Fin 256) (hr : t.val * 2000 + p.val < 50000) :
    (iblk1 V c 0 t : Vec Ideal S2000x256 .f32) (ix2 p q)
      = inArr1 V c (ix2 ⟨t.val * 2000 + p.val, hr⟩ q) := by
  unfold iblk1
  rw [View.read_apply]
  show V c main_v48 _ = V c main_v48 _
  refine congrArg (V c main_v48) (funext fun a => Fin.ext ?_)
  match a with
  | ⟨0, _⟩ =>
    show win1_0.index t 0 * 2000 + 1 * p.val = t.val * 2000 + p.val
    rw [(in_index1 t).1]; omega
  | ⟨1, _⟩ =>
    show win1_0.index t 1 * 256 + 1 * q.val = q.val
    rw [(in_index1 t).2]; omega

/-! ## What the outputs hold after each point -/

/-- After the first point the first output holds the sum payload of block 0 over the zero row. -/
theorem outs1_fst_zero (h : 0 < cfg1.N) :
    (outsAt1 V c 0 h).1 = k1_pay4 (iblk1 V c 0 ⟨0, h⟩) (k1_pay1 (F := Ideal)) := by
  rw [outsAt1_A V c ⟨0, h⟩ rfl]
  dsimp only
  exact out1_A_1_eq (F := Ideal) _ _ _ _ _ _ _ _ _ _

theorem outs1_snd_zero (h : 0 < cfg1.N) :
    (outsAt1 V c 0 h).2 = k1_pay5 (iblk1 V c 0 ⟨0, h⟩) (k1_pay2 (F := Ideal)) := by
  rw [outsAt1_A V c ⟨0, h⟩ rfl]
  dsimp only
  exact out1_A_2_eq (F := Ideal) _ _ _ _ _ _ _ _ _ _

/-- After a later point the first output holds the sum payload of that point's block over what the point before left. -/
theorem outs1_fst_succ (n : ℕ) (h : n + 1 < cfg1.N) :
    (outsAt1 V c (n + 1) h).1 = k1_pay4 (iblk1 V c 0 ⟨n + 1, h⟩) (outsAt1 V c n (Nat.lt_of_succ_lt h)).1 := by
  have hN : cfg1.N = 25 := N_1
  have hB : ¬(⟨n + 1, h⟩ : Fin cfg1.N).val % 25 = 0 := by dsimp only; omega
  rw [outsAt1_B V c ⟨n + 1, h⟩ hB]
  dsimp only
  exact out1_B_1_eq (F := Ideal) _ _ _ _ _ _ _ _ _ _ _ _

theorem outs1_snd_succ (n : ℕ) (h : n + 1 < cfg1.N) :
    (outsAt1 V c (n + 1) h).2 = k1_pay5 (iblk1 V c 0 ⟨n + 1, h⟩) (outsAt1 V c n (Nat.lt_of_succ_lt h)).2 := by
  have hN : cfg1.N = 25 := N_1
  have hB : ¬(⟨n + 1, h⟩ : Fin cfg1.N).val % 25 = 0 := by dsimp only; omega
  rw [outsAt1_B V c ⟨n + 1, h⟩ hB]
  dsimp only
  exact out1_B_2_eq (F := Ideal) _ _ _ _ _ _ _ _ _ _ _ _

/-- After point n the first output's entry (0, q) is the sum of the array's entries (r, q) over the rows of blocks
    0, …, n. -/
theorem sum_after1 : ∀ (n : ℕ) (h : n < cfg1.N) (hn : n < 25) (q : Fin 256),
    (outsAt1 V c n h).1 (ix2 (0 : Fin 1) q)
      = ∑ i : Fin (n + 1), ∑ p : Fin 2000,
          inArr1 V c (ix2 ⟨i.val * 2000 + p.val, by omega⟩ q)
  | 0, h, hn, q => by
    rw [outs1_fst_zero, k1_pay4_apply, k1_pay1_apply, zero_add, Fin.sum_univ_one]
    exact Finset.sum_congr rfl fun p _ => block_entry1 V c ⟨0, h⟩ p q _
  | n + 1, h, hn, q => by
    rw [outs1_fst_succ, k1_pay4_apply, sum_after1 n (Nat.lt_of_succ_lt h) (by omega) q]
    refine Eq.trans ?_ (Fin.sum_univ_castSucc _).symm
    refine congrArg₂ (fun a b : EReal => a + b) rfl ?_
    exact Finset.sum_congr rfl fun p _ => block_entry1 V c ⟨n + 1, h⟩ p q _

/-- After point n the second output's entry (0, q) is the sum of the squares of the array's entries (r, q) over the
    rows of blocks 0, …, n. -/
theorem sumsq_after1 : ∀ (n : ℕ) (h : n < cfg1.N) (hn : n < 25) (q : Fin 256),
    (outsAt1 V c n h).2 (ix2 (0 : Fin 1) q)
      = ∑ i : Fin (n + 1), ∑ p : Fin 2000,
          inArr1 V c (ix2 ⟨i.val * 2000 + p.val, by omega⟩ q)
            * inArr1 V c (ix2 ⟨i.val * 2000 + p.val, by omega⟩ q)
  | 0, h, hn, q => by
    rw [outs1_snd_zero, k1_pay5_apply, k1_pay2_apply, zero_add, Fin.sum_univ_one]
    exact Finset.sum_congr rfl fun p _ =>
      congrArg₂ (· * ·) (block_entry1 V c ⟨0, h⟩ p q _) (block_entry1 V c ⟨0, h⟩ p q _)
  | n + 1, h, hn, q => by
    rw [outs1_snd_succ, k1_pay5_apply, sumsq_after1 n (Nat.lt_of_succ_lt h) (by omega) q]
    refine Eq.trans ?_ (Fin.sum_univ_castSucc _).symm
    refine congrArg₂ (fun a b : EReal => a + b) rfl ?_
    exact Finset.sum_congr rfl fun p _ =>
      congrArg₂ (· * ·) (block_entry1 V c ⟨n + 1, h⟩ p q _) (block_entry1 V c ⟨n + 1, h⟩ p q _)

/-! ## The outputs' one block is their whole array, written back after the last point -/

/-- The last point of the grid. -/
abbrev last1 : Fin cfg1.N := ⟨24, by decide⟩

/-- 25 blocks of 2000 rows are the 50000 rows: after the last point the first output is the column sums. -/
theorem outs_last1_fst (h : 24 < cfg1.N) : (outsAt1 V c 24 h).1 = Cert.Gcn.colSum (inArr1 V c) := by
  funext j
  obtain ⟨u, q, rfl⟩ : ∃ (u : Fin 1) (q : Fin 256), j = ix2 u q := ⟨j 0, j 1, eq_ix2 j⟩
  obtain rfl : u = 0 := Subsingleton.elim _ _
  rw [sum_after1 V c 24 h (by omega) q]
  exact (Cert.SumBlocks.sum_blocks 25 2000 50000 rfl fun r => inArr1 V c (ix2 r q)).symm

/-- After the last point the second output is the column sums of squares. -/
theorem outs_last1_snd (h : 24 < cfg1.N) : (outsAt1 V c 24 h).2 = Cert.Gcn.colSumSq (inArr1 V c) := by
  funext j
  obtain ⟨u, q, rfl⟩ : ∃ (u : Fin 1) (q : Fin 256), j = ix2 u q := ⟨j 0, j 1, eq_ix2 j⟩
  obtain rfl : u = 0 := Subsingleton.elim _ _
  rw [sumsq_after1 V c 24 h (by omega) q]
  exact (Cert.SumBlocks.sum_blocks 25 2000 50000 rfl
    fun r => inArr1 V c (ix2 r q) * inArr1 V c (ix2 r q)).symm

/-- The one write-back of the first output, after the last point, writes the column sums: its block (0, 0) read through
    zero offsets is the whole [1, 256] array. -/
theorem flushed1_1_eq (t : Fin cfg1.N) (hf : (cfg1.win 1).flush t = true) :
    (dat1 V c).flushed 1 t = ((cfg1.win 1).blk t).view.read (Elt Ideal) (Cert.Gcn.colSum (inArr1 V c)) := by
  have hN : cfg1.N = 25 := N_1
  have h24 : t.val = 24 := by have := (flush1_1 t).mp hf; have := t.isLt; omega
  obtain rfl : t = last1 := Fin.ext h24
  show (cfg1.win 1).cut (grid1.coords last1) ((dat1 V c).after 1 last1) = _
  rw [after1_1, outs_last1_fst]
  have hz' : (fun a => win1_1.index last1 a * main_v49_0.ty.shape.size a) = fun _ => 0 :=
    funext fun a => by fin_cases a <;> decide
  exact (Memref.read_access_unit_zero (Elt Ideal) main_v49_0 hz' (fun a => by rw [congrFun hz' a]; simp) _).symm

theorem flushed1_2_eq (t : Fin cfg1.N) (hf : (cfg1.win 2).flush t = true) :
    (dat1 V c).flushed 2 t = ((cfg1.win 2).blk t).view.read (Elt Ideal) (Cert.Gcn.colSumSq (inArr1 V c)) := by
  have hN : cfg1.N = 25 := N_1
  have h24 : t.val = 24 := by have := (flush1_2 t).mp hf; have := t.isLt; omega
  obtain rfl : t = last1 := Fin.ext h24
  show (cfg1.win 2).cut (grid1.coords last1) ((dat1 V c).after 2 last1) = _
  rw [after1_2, outs_last1_snd]
  have hz' : (fun a => win1_2.index last1 a * main_v49_1.ty.shape.size a) = fun _ => 0 :=
    funext fun a => by fin_cases a <;> decide
  exact (Memref.read_access_unit_zero (Elt Ideal) main_v49_1 hz' (fun a => by rw [congrFun hz' a]; simp) _).symm

/-- Every entry of the first output's array is in the block the last point writes back. -/
theorem cover1_1 (i : ((cfg1.win 1).arr.view.loc (c.tc : Thread nD τ)).2.ty.Idx) :
    ∃ t : Fin cfg1.N, (cfg1.win 1).flush t = true ∧ i ∈ ((cfg1.win 1).blk t).view.set :=
  ⟨last1, (flush1_1 last1).mpr rfl, by
    show i ∈ ((View.whole main_v49_0).slice (win1_1.rect last1)).set
    rw [View.set_slice_whole, Rect.mem_set_unit]
    intro a
    have h0 : (i 0 : Nat) < 1 := (i 0).isLt
    have h1 : (i 1 : Nat) < 256 := (i 1).isLt
    match a with
    | ⟨0, _⟩ =>
      show win1_1.index last1 0 * win1_1.size 0 ≤ (i 0 : Nat)
        ∧ (i 0 : Nat) < win1_1.index last1 0 * win1_1.size 0 + win1_1.xsize (grid1.coords last1) 0
      rw [show win1_1.index last1 0 * win1_1.size 0 = 0 from by decide +kernel,
        show win1_1.xsize (grid1.coords last1) 0 = 1 from by decide +kernel]
      omega
    | ⟨1, _⟩ =>
      show win1_1.index last1 1 * win1_1.size 1 ≤ (i 1 : Nat)
        ∧ (i 1 : Nat) < win1_1.index last1 1 * win1_1.size 1 + win1_1.xsize (grid1.coords last1) 1
      rw [show win1_1.index last1 1 * win1_1.size 1 = 0 from by decide +kernel,
        show win1_1.xsize (grid1.coords last1) 1 = 256 from by decide +kernel]
      omega⟩

theorem cover1_2 (i : ((cfg1.win 2).arr.view.loc (c.tc : Thread nD τ)).2.ty.Idx) :
    ∃ t : Fin cfg1.N, (cfg1.win 2).flush t = true ∧ i ∈ ((cfg1.win 2).blk t).view.set :=
  ⟨last1, (flush1_2 last1).mpr rfl, by
    show i ∈ ((View.whole main_v49_1).slice (win1_2.rect last1)).set
    rw [View.set_slice_whole, Rect.mem_set_unit]
    intro a
    have h0 : (i 0 : Nat) < 1 := (i 0).isLt
    have h1 : (i 1 : Nat) < 256 := (i 1).isLt
    match a with
    | ⟨0, _⟩ =>
      show win1_2.index last1 0 * win1_2.size 0 ≤ (i 0 : Nat)
        ∧ (i 0 : Nat) < win1_2.index last1 0 * win1_2.size 0 + win1_2.xsize (grid1.coords last1) 0
      rw [show win1_2.index last1 0 * win1_2.size 0 = 0 from by decide +kernel,
        show win1_2.xsize (grid1.coords last1) 0 = 1 from by decide +kernel]
      omega
    | ⟨1, _⟩ =>
      show win1_2.index last1 1 * win1_2.size 1 ≤ (i 1 : Nat)
        ∧ (i 1 : Nat) < win1_2.index last1 1 * win1_2.size 1 + win1_2.xsize (grid1.coords last1) 1
      rw [show win1_2.index last1 1 * win1_2.size 1 = 0 from by decide +kernel,
        show win1_2.xsize (grid1.coords last1) 1 = 256 from by decide +kernel]
      omega⟩

/-- After region 1 its first output array holds the column sums of its input array. -/
theorem sum1 : (Gen.dat1 (F := Ideal) V c).arrAt 1 cfg1.N = Cert.Gcn.colSum (V c main_v48) :=
  (dat1 V c).arrAt_eq_of_cover 1 (Cert.Gcn.colSum (inArr1 V c)) (flushed1_1_eq V c) (cover1_1 c)

/-- After region 1 its second output array holds the column sums of squares of its input array. -/
theorem sumsq1 : (Gen.dat1 (F := Ideal) V c).arrAt 2 cfg1.N = Cert.Gcn.colSumSq (V c main_v48) :=
  (dat1 V c).arrAt_eq_of_cover 2 (Cert.Gcn.colSumSq (inArr1 V c)) (flushed1_2_eq V c) (cover1_2 c)

end Region

end Cert.KernelIdeal.RegionValue

end
-- ==== Proof.RegBn2.lean ====
/-
  Region 2: normalise, scale and shift each row, multiply into the weight, add the bias row — read off the pipeline's
  proof data.

  The region runs over 25 points. At point t the first window holds rows 2000 t … 2000 t + 1999 of the [50000, 256]
  array; the mean, inverse-deviation, scale, shift and bias windows each hold their whole [1, 256] row, and the
  weight's window its whole [256, 256] array, at every point. The body subtracts the mean row from each row of the
  block, multiplies by the inverse-deviation row and by the scale row, adds the shift row, multiplies the result into
  the weight accumulating onto zero, and adds the bias row. On the extended reals the changes of format are the
  identity, a cast to the same shape is the identity, and a row repeated over the block's 2000 rows reads its one row;
  so entry (p, q) of what is stored is the sum over k of
  ((y (2000 t + p, k) - mean k) · inv k · g k + be k) · w (k, q), plus bias q: block t of the specification's array.
  The 25 row blocks tile the [50000, 256] result — row r lies in block r / 2000 — and every point writes its block
  back, so the result array ends holding the specification's array.
-/
import proofs.«127999_j35588099015570_1_alg».proof.Proof.Gen.KernelIdeal.Frame
import proofs.«127999_j35588099015570_1_alg».proof.Proof.Spec
import proofs.«127999_j35588099015570_1_alg».proof.Proof.LibPlainMatmul
import Idealize.ShloMosaic.Lib.Pipeline.Value
import Idealize.ShloMosaic.Lib.ValueIdx
import Idealize.ShloMosaic.Lib.ValueLayout

noncomputable section

open scoped BigOperators
open Idealize.ShloMosaic Idealize.ShloMosaic.TcCoe Idealize.SL.Sem
open Idealize.ShloMosaic.Pipeline (Dat)

namespace Cert.KernelIdeal.RegionValue

open Cert.KernelIdeal Cert.KernelIdeal.Gen Idealize.ShloMosaic.ValueIdx

variable (V : (c : Dev nD) → (b : Ref sig .tc) → Buf (Elt Ideal) ((c : Thread nD τ).loc b)) (c : Dev nD)

/-- The offsets of a whole-block access, as the constant zero function. -/
theorem zero_offsets2 : (![0, 0] : Fin 2 → Nat) = fun _ => 0 := funext fun a => by fin_cases a <;> rfl

/-- Entry (p, q) of the normalise-scale-shift product: the sum over k of
    ((y (p, k) - mean k) · inv k · g k + be k) · w (k, q), plus bias q. On the extended reals the changes of format
    and the casts to the same shape are the identity, and a [1, 256] row repeated over 2000 rows reads its one row. -/
theorem bn_matmul_entry2 (v0 : Vec Ideal S2000x256 .f32) (v2 v6 v10 v14 : Vec Ideal S1x256 .f32)
    (v19 : Vec Ideal S256x256 .f32) (v22 : Vec Ideal S1x256 .f32) (p : Fin 2000) (q : Fin 256) :
    k2_pay1 v0 v2 v6 v10 v14 v19 v22 (ix2 p q)
      = (∑ k : Fin 256, ((v0 (ix2 p k) - v2 (ix2 (0 : Fin 1) k)) * v6 (ix2 (0 : Fin 1) k) * v10 (ix2 (0 : Fin 1) k)
          + v14 (ix2 (0 : Fin 1) k)) * v19 (ix2 k q)) + v22 (ix2 (0 : Fin 1) q) := by
  unfold k2_pay1
  simp only [shapeCast_self]
  refine (addf_apply _ _ (ix2 p q)).trans ?_
  refine congrArg₂ (· + ·) ?_ (broadcastTo_1b_ab_apply v22 broadcasts_S1x256_S2000x256 p q)
  refine (Cert.PlainMatmul.zero_acc_apply _ none _ _ p q).trans ?_
  refine Finset.sum_congr rfl fun k _ => ?_
  refine congrArg₂ (· * ·) ?_ rfl
  show ((v0 (ix2 p k) - broadcastTo S2000x256 v2 broadcasts_S1x256_S2000x256 (ix2 p k))
        * broadcastTo S2000x256 v6 broadcasts_S1x256_S2000x256 (ix2 p k))
        * broadcastTo S2000x256 v10 broadcasts_S1x256_S2000x256 (ix2 p k)
      + broadcastTo S2000x256 v14 broadcasts_S1x256_S2000x256 (ix2 p k) = _
  rw [broadcastTo_1b_ab_apply v2, broadcastTo_1b_ab_apply v6, broadcastTo_1b_ab_apply v10, broadcastTo_1b_ab_apply v14]

/-- The index maps over the 25 points: the two row-block windows sit at block (t, 0), every other window at (0, 0). -/
theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- The normalised operand's block at point t is rows 2000 t … 2000 t + 1999 of the array. -/
theorem rows_block_entry2 (t : Fin cfg2.N) (p : Fin 2000) (k : Fin 256) (i : S50000x256.Idx)
    (h0 : (i 0).val = t.val * 2000 + p.val) (h1 : (i 1).val = k.val) :
    (iblk2 V c 0 t : Vec Ideal S2000x256 .f32) (ix2 p k) = (V c main_v48 : S50000x256.Idx → EReal) i := by
  have e := index_facts2 t
  unfold iblk2
  rw [View.read_apply]
  show (V c main_v48 : S50000x256.Idx → EReal) _ = (V c main_v48 : S50000x256.Idx → EReal) _
  refine congrArg (V c main_v48 : S50000x256.Idx → EReal) ?_
  funext a
  apply Fin.ext
  match a with
  | ⟨0, _⟩ => show win2_0.index t (0 : Fin 2) * 2000 + 1 * p.val = (i 0).val; omega
  | ⟨1, _⟩ => show win2_0.index t (1 : Fin 2) * 256 + 1 * k.val = (i 1).val; omega

/-- The mean row's block at every point is the whole [1, 256] array. -/
theorem row_block_entry2_1 (t : Fin cfg2.N) (k : Fin 256) :
    (iblk2 V c 1 t : Vec Ideal S1x256 .f32) (ix2 (0 : Fin 1) k) = (V c main_v62 : S1x256.Idx → EReal) (ix2 (0 : Fin 1) k) := by
  have e := index_facts2 t
  unfold iblk2
  rw [View.read_apply]
  show (V c main_v62 : S1x256.Idx → EReal) _ = (V c main_v62 : S1x256.Idx → EReal) _
  refine congrArg (V c main_v62 : S1x256.Idx → EReal) ?_
  funext a
  apply Fin.ext
  match a with
  | ⟨0, _⟩ => show win2_1.index t (0 : Fin 2) * 1 + 1 * 0 = 0; omega
  | ⟨1, _⟩ => show win2_1.index t (1 : Fin 2) * 256 + 1 * k.val = k.val; omega

/-- The inverse deviation row's block at every point is the whole [1, 256] array. -/
theorem row_block_entry2_2 (t : Fin cfg2.N) (k : Fin 256) :
    (iblk2 V c 2 t : Vec Ideal S1x256 .f32) (ix2 (0 : Fin 1) k) = (V c main_v63 : S1x256.Idx → EReal) (ix2 (0 : Fin 1) k) := by
  have e := index_facts2 t
  unfold iblk2
  rw [View.read_apply]
  show (V c main_v63 : S1x256.Idx → EReal) _ = (V c main_v63 : S1x256.Idx → EReal) _
  refine congrArg (V c main_v63 : S1x256.Idx → EReal) ?_
  funext a
  apply Fin.ext
  match a with
  | ⟨0, _⟩ => show win2_2.index t (0 : Fin 2) * 1 + 1 * 0 = 0; omega
  | ⟨1, _⟩ => show win2_2.index t (1 : Fin 2) * 256 + 1 * k.val = k.val; omega

/-- The scale row's block at every point is the whole [1, 256] array. -/
theorem row_block_entry2_3 (t : Fin cfg2.N) (k : Fin 256) :
    (iblk2 V c 3 t : Vec Ideal S1x256 .f32) (ix2 (0 : Fin 1) k) = (V c main_v64 : S1x256.Idx → EReal) (ix2 (0 : Fin 1) k) := by
  have e := index_facts2 t
  unfold iblk2
  rw [View.read_apply]
  show (V c main_v64 : S1x256.Idx → EReal) _ = (V c main_v64 : S1x256.Idx → EReal) _
  refine congrArg (V c main_v64 : S1x256.Idx → EReal) ?_
  funext a
  apply Fin.ext
  match a with
  | ⟨0, _⟩ => show win2_3.index t (0 : Fin 2) * 1 + 1 * 0 = 0; omega
  | ⟨1, _⟩ => show win2_3.index t (1 : Fin 2) * 256 + 1 * k.val = k.val; omega

/-- The shift row's block at every point is the whole [1, 256] array. -/
theorem row_block_entry2_4 (t : Fin cfg2.N) (k : Fin 256) :
    (iblk2 V c 4 t : Vec Ideal S1x256 .f32) (ix2 (0 : Fin 1) k) = (V c main_v65 : S1x256.Idx → EReal) (ix2 (0 : Fin 1) k) := by
  have e := index_facts2 t
  unfold iblk2
  rw [View.read_apply]
  show (V c main_v65 : S1x256.Idx → EReal) _ = (V c main_v65 : S1x256.Idx → EReal) _
  refine congrArg (V c main_v65 : S1x256.Idx → EReal) ?_
  funext a
  apply Fin.ext
  match a with
  | ⟨0, _⟩ => show win2_4.index t (0 : Fin 2) * 1 + 1 * 0 = 0; omega
  | ⟨1, _⟩ => show win2_4.index t (1 : Fin 2) * 256 + 1 * k.val = k.val; omega

/-- The weight's block at every point is the whole [256, 256] array. -/
theorem weight_block_entry2 (t : Fin cfg2.N) (k : Fin 256) (q : Fin 256) (i : S256x256.Idx)
    (h0 : (i 0).val = k.val) (h1 : (i 1).val = q.val) :
    (iblk2 V c 5 t : Vec Ideal S256x256 .f32) (ix2 k q) = (V c main_arg6 : S256x256.Idx → EReal) i := by
  have e := index_facts2 t
  unfold iblk2
  rw [View.read_apply]
  show (V c main_arg6 : S256x256.Idx → EReal) _ = (V c main_arg6 : S256x256.Idx → EReal) _
  refine congrArg (V c main_arg6 : S256x256.Idx → EReal) ?_
  funext a
  apply Fin.ext
  match a with
  | ⟨0, _⟩ => show win2_5.index t (0 : Fin 2) * 256 + 1 * k.val = (i 0).val; omega
  | ⟨1, _⟩ => show win2_5.index t (1 : Fin 2) * 256 + 1 * q.val = (i 1).val; omega

/-- The bias row's block at every point is the whole [1, 256] array. -/
theorem bias_block_entry2 (t : Fin cfg2.N) (q : Fin 256) (i : S1x256.Idx) (h1 : (i 1).val = q.val) :
    (iblk2 V c 6 t : Vec Ideal S1x256 .f32) (ix2 (0 : Fin 1) q) = (V c main_v66 : S1x256.Idx → EReal) i := by
  have e := index_facts2 t
  have hi0 : (i 0).val < 1 := (i 0).isLt
  unfold iblk2
  rw [View.read_apply]
  show (V c main_v66 : S1x256.Idx → EReal) _ = (V c main_v66 : S1x256.Idx → EReal) _
  refine congrArg (V c main_v66 : S1x256.Idx → EReal) ?_
  funext a
  apply Fin.ext
  match a with
  | ⟨0, _⟩ => show win2_6.index t (0 : Fin 2) * 1 + 1 * 0 = (i 0).val; omega
  | ⟨1, _⟩ => show win2_6.index t (1 : Fin 2) * 256 + 1 * q.val = (i 1).val; omega

/-- When row p of the first block is row (i 0) of the array Y and every other block is its whole array, entry (p, q)
    of what the body stores is the normalise-scale-shift product of the arrays at i. -/
theorem block_bn_entry2 (x0 : Vec Ideal S2000x256 .f32) (x1 x2 x3 x4 : Vec Ideal S1x256 .f32)
    (x5 : Vec Ideal S256x256 .f32) (x6 : Vec Ideal S1x256 .f32)
    (Y : Cert.Gcn.Mat 50000 256) (mean inv g be : Cert.Gcn.Mat 1 256) (W : Cert.Gcn.Mat 256 256) (bias : Cert.Gcn.Mat 1 256)
    (p : Fin 2000) (q : Fin 256) (i : S50000x256.Idx)
    (h0 : ∀ k : Fin 256, x0 (ix2 p k) = Y (ix2 (i 0) k))
    (h1 : ∀ k : Fin 256, x1 (ix2 (0 : Fin 1) k) = mean (ix2 (0 : Fin 1) k))
    (h2 : ∀ k : Fin 256, x2 (ix2 (0 : Fin 1) k) = inv (ix2 (0 : Fin 1) k))
    (h3 : ∀ k : Fin 256, x3 (ix2 (0 : Fin 1) k) = g (ix2 (0 : Fin 1) k))
    (h4 : ∀ k : Fin 256, x4 (ix2 (0 : Fin 1) k) = be (ix2 (0 : Fin 1) k))
    (h5 : ∀ k : Fin 256, x5 (ix2 k q) = W (ix2 k (i 1)))
    (h6 : x6 (ix2 (0 : Fin 1) q) = bias (ix2 (0 : Fin 1) (i 1))) :
    k2_pay1 x0 x1 x2 x3 x4 x5 x6 (ix2 p q) = Cert.Gcn.bnmm Y mean inv g be W bias i := by
  refine (bn_matmul_entry2 x0 x1 x2 x3 x4 x5 x6 p q).trans ?_
  show _ = (∑ k : Fin 256, ((Y (ix2 (i 0) k) - mean (ix2 (0 : Fin 1) k)) * inv (ix2 (0 : Fin 1) k) * g (ix2 (0 : Fin 1) k)
      + be (ix2 (0 : Fin 1) k)) * W (ix2 k (i 1))) + bias (ix2 (0 : Fin 1) (i 1))
  rw [h6]
  refine congrArg₂ (· + ·) (Finset.sum_congr rfl fun k _ => ?_) rfl
  rw [h0 k, h1 k, h2 k, h3 k, h4 k, h5 k]

/-- What point t writes back is block t of the normalise-scale-shift product of the arrays. -/
theorem flushed_block2 (t : Fin cfg2.N) :
    (dat2 V c).flushed 7 t = ((cfg2.win 7).blk t).view.read (Elt Ideal)
      (Cert.Gcn.bnmm (V c main_v48) (V c main_v62) (V c main_v63) (V c main_v64) (V c main_v65) (V c main_arg6) (V c main_v66)) := by
  show (cfg2.win 7).cut (grid2.coords t) ((dat2 V c).after 7 t) = _
  rw [after2_7]
  unfold out2_7
  rw [View.canon_unit_zero zero_offsets2]
  simp only [View.ld_unit_zero (S := S2000x256) zero_offsets2, View.ld_unit_zero (S := S1x256) zero_offsets2,
    View.ld_unit_zero (S := S256x256) zero_offsets2]
  have e := index_facts2 t
  funext j
  obtain ⟨p, q, rfl⟩ : ∃ (p : Fin 2000) (q : Fin 256), j = ix2 p q := ⟨j 0, j 1, eq_ix2 j⟩
  rw [View.read_apply]
  show k2_pay1 (iblk2 V c 0 t) (iblk2 V c 1 t) (iblk2 V c 2 t) (iblk2 V c 3 t) (iblk2 V c 4 t) (iblk2 V c 5 t)
      (iblk2 V c 6 t) (ix2 p q)
    = Cert.Gcn.bnmm (V c main_v48) (V c main_v62) (V c main_v63) (V c main_v64) (V c main_v65) (V c main_arg6) (V c main_v66)
      (((cfg2.win 7).blk t).view.emb (ix2 p q))
  have h0 : ((((cfg2.win 7).blk t).view.emb (ix2 p q)) 0).val = t.val * 2000 + p.val := by
    show win2_7.index t (0 : Fin 2) * 2000 + 1 * p.val = t.val * 2000 + p.val; omega
  have h1 : ((((cfg2.win 7).blk t).view.emb (ix2 p q)) 1).val = q.val := by
    show win2_7.index t (1 : Fin 2) * 256 + 1 * q.val = q.val; omega
  exact block_bn_entry2 (iblk2 V c 0 t) (iblk2 V c 1 t) (iblk2 V c 2 t) (iblk2 V c 3 t) (iblk2 V c 4 t)
    (iblk2 V c 5 t) (iblk2 V c 6 t)
    (V c main_v48) (V c main_v62) (V c main_v63) (V c main_v64) (V c main_v65) (V c main_arg6) (V c main_v66) p q
    (((cfg2.win 7).blk t).view.emb (ix2 p q))
    (fun k => rows_block_entry2 V c t p k (ix2 ((((cfg2.win 7).blk t).view.emb (ix2 p q)) 0) k) h0 rfl)
    (fun k => row_block_entry2_1 V c t k) (fun k => row_block_entry2_2 V c t k)
    (fun k => row_block_entry2_3 V c t k) (fun k => row_block_entry2_4 V c t k)
    (fun k => weight_block_entry2 V c t k q (ix2 k ((((cfg2.win 7).blk t).view.emb (ix2 p q)) 1)) rfl h1)
    (bias_block_entry2 V c t q (ix2 (0 : Fin 1) ((((cfg2.win 7).blk t).view.emb (ix2 p q)) 1)) h1)

/-- An index of the result array is in point t's block iff each coordinate is in the block's range on its axis. -/
theorem mem_block2 (t : Fin cfg2.N) (i : S50000x256.Idx) :
    i ∈ ((cfg2.win 7).blk t).view.set ↔ ∀ a : Fin 2, win2_7.index t a * S2000x256.size a ≤ (i a).val ∧ (i a).val < win2_7.index t a * S2000x256.size a + S2000x256.size a := by
  show i ∈ ((View.whole main_v67).slice (win2_7.rect t)).set ↔ _
  rw [View.set_slice_whole, Rect.mem_set_unit]
  exact Iff.rfl

/-- Row r of the result lies in the block of point r / 2000, which is written back. -/
theorem covered2 (i : S50000x256.Idx) :
    ∃ t : Fin cfg2.N, (cfg2.win 7).flush t = true ∧ i ∈ ((cfg2.win 7).blk t).view.set := by
  have hN : grid2.N = 25 := N_2
  have hi0 : (i 0).val < 50000 := (i 0).isLt
  have hi1 : (i 1).val < 256 := (i 1).isLt
  have ht : (i 0).val / 2000 < cfg2.N := by show (i 0).val / 2000 < grid2.N; rw [hN]; omega
  refine ⟨⟨(i 0).val / 2000, ht⟩, flush2_7 _, ?_⟩
  have e := index_facts2 ⟨(i 0).val / 2000, ht⟩
  obtain ⟨-, -, -, -, -, -, -, -, -, -, -, -, -, -, e14, e15⟩ := e
  rw [mem_block2]
  intro a
  match a with
  | ⟨0, _⟩ => show win2_7.index ⟨(i 0).val / 2000, ht⟩ (0 : Fin 2) * 2000 ≤ (i 0).val ∧ (i 0).val < win2_7.index ⟨(i 0).val / 2000, ht⟩ (0 : Fin 2) * 2000 + 2000; rw [e14]; show (i 0).val / 2000 * 2000 ≤ (i 0).val ∧ (i 0).val < (i 0).val / 2000 * 2000 + 2000; omega
  | ⟨1, _⟩ => show win2_7.index ⟨(i 0).val / 2000, ht⟩ (1 : Fin 2) * 256 ≤ (i 1).val ∧ (i 1).val < win2_7.index ⟨(i 0).val / 2000, ht⟩ (1 : Fin 2) * 256 + 256; rw [e15]; omega

/-- Region 2 leaves the normalise-scale-shift product of its operand arrays in its result array. -/
theorem bn2 : (Gen.dat2 (F := Ideal) V c).arrAt 7 cfg2.N = Cert.Gcn.bnmm (V c main_v48) (V c main_v62) (V c main_v63) (V c main_v64) (V c main_v65) (V c main_arg6) (V c main_v66) :=
  (dat2 V c).arrAt_eq_of_cover 7
    (Cert.Gcn.bnmm (V c main_v48) (V c main_v62) (V c main_v63) (V c main_v64) (V c main_v65) (V c main_arg6) (V c main_v66))
    (fun t _ => flushed_block2 V c t) (covered2)

end Cert.KernelIdeal.RegionValue

end
-- ==== Proof.RegStats3.lean ====
/-
  The two column statistics of region 3: after the region's 25 grid points the two [1, 256] outputs hold, at entry
  (0, q), the sum over all 50000 rows p of Y (p, q) and of Y (p, q) * Y (p, q), where Y is the region's [50000, 256]
  input array.

  Each point reads one block of 2000 consecutive rows of Y.  The first point stores a zero row into each output, reads
  it back and adds the block's column sums; every later point adds its block's column sums to what the point before
  left.  By induction on the point, after point t the first output's entry (0, q) is the sum of Y (p, q) over the rows
  p < (t + 1) * 2000 (the second output: of the squares).  Both outputs keep one block for the whole grid, which is
  written back after the last point only and is the whole [1, 256] array; 25 blocks of 2000 rows are the 50000 rows.
  The extended reals are an additive commutative monoid, so the regrouping needs no finiteness.
-/
import proofs.«127999_j35588099015570_1_alg».proof.Proof.Gen.KernelIdeal.Frame
import proofs.«127999_j35588099015570_1_alg».proof.Proof.Spec
import proofs.«127999_j35588099015570_1_alg».proof.Proof.LibSumBlocks
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

/-! ## What each case leaves in each output, as the body's arithmetic -/

section Pieces

variable {F : FTy → Type} [FloatOps F]

theorem hz3 : (![0, 0] : Fin 2 → Nat) = fun _ => 0 := funext fun a => by fin_cases a <;> rfl

/-- A later point (not the first): the first output's buffer, holding `xo1`, is left at the body's sum payload of the
    input block `x` and `xo1`. -/
theorem out3_B_1_eq (c : Dev nD) (i : grid3.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (hc : ¬cond3_0 i) (x : Vec F S2000x256 .f32) (xo1 xo2 : Vec F S1x256 .f32) :
    out3_B_1 c i a1 h1 a2 h2 a3 h3 hc x xo1 xo2 = k3_pay4 x xo1 := by
  unfold out3_B_1
  rw [View.read_writes_eq_canon _ _ _ (cover3_B_1 c i a1 h1 a2 h2 a3 h3 hc x xo1 xo2)]
  unfold kernelRun3_B
  dsimp only
  rw [View.canon_unit_zero hz3]
  simp only [View.readAt_eq_ld, h1.read_unread, h2.read_unread, View.ld_unit_zero (S := S2000x256) hz3,
    View.ld_unit_zero (S := S1x256) hz3]

/-- A later point: the second output's buffer, holding `xo2`, is left at the body's sum-of-squares payload of the input
    block `x` and `xo2`. -/
theorem out3_B_2_eq (c : Dev nD) (i : grid3.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (hc : ¬cond3_0 i) (x : Vec F S2000x256 .f32) (xo1 xo2 : Vec F S1x256 .f32) :
    out3_B_2 c i a1 h1 a2 h2 a3 h3 hc x xo1 xo2 = k3_pay5 x xo2 := by
  unfold out3_B_2
  rw [View.read_writes_eq_canon _ _ _ (cover3_B_2 c i a1 h1 a2 h2 a3 h3 hc x xo1 xo2)]
  unfold kernelRun3_B
  dsimp only
  rw [View.canon_unit_zero hz3]
  simp only [View.readAt_eq_ld, h1.read_unread, h3.read_unread, View.ld_unit_zero (S := S2000x256) hz3,
    View.ld_unit_zero (S := S1x256) hz3]

/-- The first point: the body stores the zero row into the first output, reads it back and leaves the sum payload of
    the input block `x` and that zero row. -/
theorem out3_A_1_eq (c : Dev nD) (i : grid3.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (hc : cond3_0 i) (x : Vec F S2000x256 .f32) :
    out3_A_1 c i a1 h1 a2 h2 a3 h3 hc x = k3_pay4 x k3_pay1 := by
  unfold out3_A_1
  rw [View.read_writes_eq_canon _ _ _ (cover3_A_1 c i a1 h1 a2 h2 a3 h3 hc x)]
  unfold kernelRun3_A
  dsimp only
  sl_unfold_words
  rw [View.canon_cons_unit_zero (S := S1x256) hz3, View.readCov_unit_zero (S := S1x256) _ hz3]
  simp only [View.readAt_eq_ld, h1.read_unread, View.ld_unit_zero (S := S2000x256) hz3]

/-- The first point: likewise for the second output and the sum-of-squares payload. -/
theorem out3_A_2_eq (c : Dev nD) (i : grid3.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (hc : cond3_0 i) (x : Vec F S2000x256 .f32) :
    out3_A_2 c i a1 h1 a2 h2 a3 h3 hc x = k3_pay5 x k3_pay2 := by
  unfold out3_A_2
  rw [View.read_writes_eq_canon _ _ _ (cover3_A_2 c i a1 h1 a2 h2 a3 h3 hc x)]
  unfold kernelRun3_A
  dsimp only
  sl_unfold_words
  rw [View.canon_cons_unit_zero (S := S1x256) hz3, View.readCov_unit_zero (S := S1x256) _ hz3]
  simp only [View.readAt_eq_ld, h1.read_unread, View.ld_unit_zero (S := S2000x256) hz3]

end Pieces

/-! ## The body's arithmetic at an entry, on the extended reals -/

/-- The zero row: every entry is 0. -/
theorem k3_pay1_apply (j : S1x256.Idx) : k3_pay1 (F := Ideal) j = 0 := by
  unfold k3_pay1
  exact Ideal.ofBits_zero_f32

theorem k3_pay2_apply (j : S1x256.Idx) : k3_pay2 (F := Ideal) j = 0 := by
  unfold k3_pay2
  exact Ideal.ofBits_zero_f32

/-- The sum over the rows of a [2000, 256] block, taken lane by lane and kept as a row: entry (0, q) is the sum over the
    rows p of the block's entry (p, q). -/
theorem lane_sum_apply3 (x : FVec Ideal S2000x256 .f32) (h : S2000x256.Reduces [0] S256) (hφ : FKind.Formats .f32)
    (hacc : (0x00000000#32 : BitVec 32) = FKind.add.neutral .f32 hφ) (hc : S256.ShapeCasts S1x256) (q : Fin 256) :
    shapeCast S1x256 (multiReduction (F := Ideal) .add [0] S256 x 0x00000000#32 h hφ hacc) hc (ix2 (0 : Fin 1) q)
      = ∑ p : Fin 2000, x (ix2 p q) := by
  refine (shapeCast_a_1a_apply _ hc 0 q).trans ?_
  refine (Ideal.multiReduction_add_single x 0x00000000#32 h hφ hacc (ix1 q)).trans ?_
  refine Finset.sum_congr rfl fun p _ => congrArg x (funext fun ax => Fin.ext ?_)
  match ax with
  | ⟨0, _⟩ => rfl
  | ⟨1, _⟩ => rfl

/-- The sum payload at entry (0, q): what the output held there plus the block's column sum. -/
theorem k3_pay4_apply (v3 : Vec Ideal S2000x256 .f32) (v5 : Vec Ideal S1x256 .f32) (q : Fin 256) :
    k3_pay4 (F := Ideal) v3 v5 (ix2 (0 : Fin 1) q) = v5 (ix2 (0 : Fin 1) q) + ∑ p : Fin 2000, v3 (ix2 p q) := by
  unfold k3_pay4 k3_pay3
  dsimp only
  refine (addf_apply _ _ _).trans ?_
  refine congrArg₂ (· + ·) (congrFun (shapeCast_self v5 _) _) ?_
  refine (lane_sum_apply3 _ _ _ _ _ q).trans ?_
  exact Finset.sum_congr rfl fun p _ => congrFun (shapeCast_self v3 _) _

/-- The sum-of-squares payload at entry (0, q): what the output held there plus the block's column sum of squares. -/
theorem k3_pay5_apply (v3 : Vec Ideal S2000x256 .f32) (v11 : Vec Ideal S1x256 .f32) (q : Fin 256) :
    k3_pay5 (F := Ideal) v3 v11 (ix2 (0 : Fin 1) q)
      = v11 (ix2 (0 : Fin 1) q) + ∑ p : Fin 2000, v3 (ix2 p q) * v3 (ix2 p q) := by
  unfold k3_pay5 k3_pay3
  dsimp only
  refine (addf_apply _ _ _).trans ?_
  refine congrArg₂ (· + ·) (congrFun (shapeCast_self v11 _) _) ?_
  refine (lane_sum_apply3 _ _ _ _ _ q).trans ?_
  refine Finset.sum_congr rfl fun p _ => (mulf_apply _ _ _).trans ?_
  exact congrArg₂ (· * ·) (congrFun (shapeCast_self v3 _) _) (congrFun (shapeCast_self v3 _) _)

/-! ## The input's blocks: block t is rows t * 2000 … t * 2000 + 1999 -/

section Region

variable (V : (c : Dev nD) → (b : Ref sig .tc) → Buf (Elt Ideal) ((c : Thread nD τ).loc b)) (c : Dev nD)

/-- The region's input array, as a [50000, 256] array of extended reals. -/
abbrev inArr3 : Cert.Gcn.Mat 50000 256 := V c main_v83

/-- The input window's block index at point t is (t, 0). -/
theorem in_index3 : ∀ t : Fin cfg3.N, win3_0.index t (0 : Fin 2) = t.val ∧ win3_0.index t (1 : Fin 2) = 0 :=
  (by decide +kernel : ∀ t : Fin grid3.N, win3_0.index t (0 : Fin 2) = t.val ∧ win3_0.index t (1 : Fin 2) = 0)

/-- Entry (p, q) of the input's block at point t is the array's entry (t * 2000 + p, q). -/
theorem block_entry3 (t : Fin cfg3.N) (p : Fin 2000) (q : Fin 256) (hr : t.val * 2000 + p.val < 50000) :
    (iblk3 V c 0 t : Vec Ideal S2000x256 .f32) (ix2 p q)
      = inArr3 V c (ix2 ⟨t.val * 2000 + p.val, hr⟩ q) := by
  unfold iblk3
  rw [View.read_apply]
  show V c main_v83 _ = V c main_v83 _
  refine congrArg (V c main_v83) (funext fun a => Fin.ext ?_)
  match a with
  | ⟨0, _⟩ =>
    show win3_0.index t 0 * 2000 + 1 * p.val = t.val * 2000 + p.val
    rw [(in_index3 t).1]; omega
  | ⟨1, _⟩ =>
    show win3_0.index t 1 * 256 + 1 * q.val = q.val
    rw [(in_index3 t).2]; omega

/-! ## What the outputs hold after each point -/

/-- After the first point the first output holds the sum payload of block 0 over the zero row. -/
theorem outs3_fst_zero (h : 0 < cfg3.N) :
    (outsAt3 V c 0 h).1 = k3_pay4 (iblk3 V c 0 ⟨0, h⟩) (k3_pay1 (F := Ideal)) := by
  rw [outsAt3_A V c ⟨0, h⟩ rfl]
  dsimp only
  exact out3_A_1_eq (F := Ideal) _ _ _ _ _ _ _ _ _ _

theorem outs3_snd_zero (h : 0 < cfg3.N) :
    (outsAt3 V c 0 h).2 = k3_pay5 (iblk3 V c 0 ⟨0, h⟩) (k3_pay2 (F := Ideal)) := by
  rw [outsAt3_A V c ⟨0, h⟩ rfl]
  dsimp only
  exact out3_A_2_eq (F := Ideal) _ _ _ _ _ _ _ _ _ _

/-- After a later point the first output holds the sum payload of that point's block over what the point before left. -/
theorem outs3_fst_succ (n : ℕ) (h : n + 1 < cfg3.N) :
    (outsAt3 V c (n + 1) h).1 = k3_pay4 (iblk3 V c 0 ⟨n + 1, h⟩) (outsAt3 V c n (Nat.lt_of_succ_lt h)).1 := by
  have hN : cfg3.N = 25 := N_3
  have hB : ¬(⟨n + 1, h⟩ : Fin cfg3.N).val % 25 = 0 := by dsimp only; omega
  rw [outsAt3_B V c ⟨n + 1, h⟩ hB]
  dsimp only
  exact out3_B_1_eq (F := Ideal) _ _ _ _ _ _ _ _ _ _ _ _

theorem outs3_snd_succ (n : ℕ) (h : n + 1 < cfg3.N) :
    (outsAt3 V c (n + 1) h).2 = k3_pay5 (iblk3 V c 0 ⟨n + 1, h⟩) (outsAt3 V c n (Nat.lt_of_succ_lt h)).2 := by
  have hN : cfg3.N = 25 := N_3
  have hB : ¬(⟨n + 1, h⟩ : Fin cfg3.N).val % 25 = 0 := by dsimp only; omega
  rw [outsAt3_B V c ⟨n + 1, h⟩ hB]
  dsimp only
  exact out3_B_2_eq (F := Ideal) _ _ _ _ _ _ _ _ _ _ _ _

/-- After point n the first output's entry (0, q) is the sum of the array's entries (r, q) over the rows of blocks
    0, …, n. -/
theorem sum_after3 : ∀ (n : ℕ) (h : n < cfg3.N) (hn : n < 25) (q : Fin 256),
    (outsAt3 V c n h).1 (ix2 (0 : Fin 1) q)
      = ∑ i : Fin (n + 1), ∑ p : Fin 2000,
          inArr3 V c (ix2 ⟨i.val * 2000 + p.val, by omega⟩ q)
  | 0, h, hn, q => by
    rw [outs3_fst_zero, k3_pay4_apply, k3_pay1_apply, zero_add, Fin.sum_univ_one]
    exact Finset.sum_congr rfl fun p _ => block_entry3 V c ⟨0, h⟩ p q _
  | n + 1, h, hn, q => by
    rw [outs3_fst_succ, k3_pay4_apply, sum_after3 n (Nat.lt_of_succ_lt h) (by omega) q]
    refine Eq.trans ?_ (Fin.sum_univ_castSucc _).symm
    refine congrArg₂ (fun a b : EReal => a + b) rfl ?_
    exact Finset.sum_congr rfl fun p _ => block_entry3 V c ⟨n + 1, h⟩ p q _

/-- After point n the second output's entry (0, q) is the sum of the squares of the array's entries (r, q) over the
    rows of blocks 0, …, n. -/
theorem sumsq_after3 : ∀ (n : ℕ) (h : n < cfg3.N) (hn : n < 25) (q : Fin 256),
    (outsAt3 V c n h).2 (ix2 (0 : Fin 1) q)
      = ∑ i : Fin (n + 1), ∑ p : Fin 2000,
          inArr3 V c (ix2 ⟨i.val * 2000 + p.val, by omega⟩ q)
            * inArr3 V c (ix2 ⟨i.val * 2000 + p.val, by omega⟩ q)
  | 0, h, hn, q => by
    rw [outs3_snd_zero, k3_pay5_apply, k3_pay2_apply, zero_add, Fin.sum_univ_one]
    exact Finset.sum_congr rfl fun p _ =>
      congrArg₂ (· * ·) (block_entry3 V c ⟨0, h⟩ p q _) (block_entry3 V c ⟨0, h⟩ p q _)
  | n + 1, h, hn, q => by
    rw [outs3_snd_succ, k3_pay5_apply, sumsq_after3 n (Nat.lt_of_succ_lt h) (by omega) q]
    refine Eq.trans ?_ (Fin.sum_univ_castSucc _).symm
    refine congrArg₂ (fun a b : EReal => a + b) rfl ?_
    exact Finset.sum_congr rfl fun p _ =>
      congrArg₂ (· * ·) (block_entry3 V c ⟨n + 1, h⟩ p q _) (block_entry3 V c ⟨n + 1, h⟩ p q _)

/-! ## The outputs' one block is their whole array, written back after the last point -/

/-- The last point of the grid. -/
abbrev last3 : Fin cfg3.N := ⟨24, by decide⟩

/-- 25 blocks of 2000 rows are the 50000 rows: after the last point the first output is the column sums. -/
theorem outs_last3_fst (h : 24 < cfg3.N) : (outsAt3 V c 24 h).1 = Cert.Gcn.colSum (inArr3 V c) := by
  funext j
  obtain ⟨u, q, rfl⟩ : ∃ (u : Fin 1) (q : Fin 256), j = ix2 u q := ⟨j 0, j 1, eq_ix2 j⟩
  obtain rfl : u = 0 := Subsingleton.elim _ _
  rw [sum_after3 V c 24 h (by omega) q]
  exact (Cert.SumBlocks.sum_blocks 25 2000 50000 rfl fun r => inArr3 V c (ix2 r q)).symm

/-- After the last point the second output is the column sums of squares. -/
theorem outs_last3_snd (h : 24 < cfg3.N) : (outsAt3 V c 24 h).2 = Cert.Gcn.colSumSq (inArr3 V c) := by
  funext j
  obtain ⟨u, q, rfl⟩ : ∃ (u : Fin 1) (q : Fin 256), j = ix2 u q := ⟨j 0, j 1, eq_ix2 j⟩
  obtain rfl : u = 0 := Subsingleton.elim _ _
  rw [sumsq_after3 V c 24 h (by omega) q]
  exact (Cert.SumBlocks.sum_blocks 25 2000 50000 rfl
    fun r => inArr3 V c (ix2 r q) * inArr3 V c (ix2 r q)).symm

/-- The one write-back of the first output, after the last point, writes the column sums: its block (0, 0) read through
    zero offsets is the whole [1, 256] array. -/
theorem flushed3_1_eq (t : Fin cfg3.N) (hf : (cfg3.win 1).flush t = true) :
    (dat3 V c).flushed 1 t = ((cfg3.win 1).blk t).view.read (Elt Ideal) (Cert.Gcn.colSum (inArr3 V c)) := by
  have hN : cfg3.N = 25 := N_3
  have h24 : t.val = 24 := by have := (flush3_1 t).mp hf; have := t.isLt; omega
  obtain rfl : t = last3 := Fin.ext h24
  show (cfg3.win 1).cut (grid3.coords last3) ((dat3 V c).after 1 last3) = _
  rw [after3_1, outs_last3_fst]
  have hz' : (fun a => win3_1.index last3 a * main_v84_0.ty.shape.size a) = fun _ => 0 :=
    funext fun a => by fin_cases a <;> decide
  exact (Memref.read_access_unit_zero (Elt Ideal) main_v84_0 hz' (fun a => by rw [congrFun hz' a]; simp) _).symm

theorem flushed3_2_eq (t : Fin cfg3.N) (hf : (cfg3.win 2).flush t = true) :
    (dat3 V c).flushed 2 t = ((cfg3.win 2).blk t).view.read (Elt Ideal) (Cert.Gcn.colSumSq (inArr3 V c)) := by
  have hN : cfg3.N = 25 := N_3
  have h24 : t.val = 24 := by have := (flush3_2 t).mp hf; have := t.isLt; omega
  obtain rfl : t = last3 := Fin.ext h24
  show (cfg3.win 2).cut (grid3.coords last3) ((dat3 V c).after 2 last3) = _
  rw [after3_2, outs_last3_snd]
  have hz' : (fun a => win3_2.index last3 a * main_v84_1.ty.shape.size a) = fun _ => 0 :=
    funext fun a => by fin_cases a <;> decide
  exact (Memref.read_access_unit_zero (Elt Ideal) main_v84_1 hz' (fun a => by rw [congrFun hz' a]; simp) _).symm

/-- Every entry of the first output's array is in the block the last point writes back. -/
theorem cover3_1 (i : ((cfg3.win 1).arr.view.loc (c.tc : Thread nD τ)).2.ty.Idx) :
    ∃ t : Fin cfg3.N, (cfg3.win 1).flush t = true ∧ i ∈ ((cfg3.win 1).blk t).view.set :=
  ⟨last3, (flush3_1 last3).mpr rfl, by
    show i ∈ ((View.whole main_v84_0).slice (win3_1.rect last3)).set
    rw [View.set_slice_whole, Rect.mem_set_unit]
    intro a
    have h0 : (i 0 : Nat) < 1 := (i 0).isLt
    have h1 : (i 1 : Nat) < 256 := (i 1).isLt
    match a with
    | ⟨0, _⟩ =>
      show win3_1.index last3 0 * win3_1.size 0 ≤ (i 0 : Nat)
        ∧ (i 0 : Nat) < win3_1.index last3 0 * win3_1.size 0 + win3_1.xsize (grid3.coords last3) 0
      rw [show win3_1.index last3 0 * win3_1.size 0 = 0 from by decide +kernel,
        show win3_1.xsize (grid3.coords last3) 0 = 1 from by decide +kernel]
      omega
    | ⟨1, _⟩ =>
      show win3_1.index last3 1 * win3_1.size 1 ≤ (i 1 : Nat)
        ∧ (i 1 : Nat) < win3_1.index last3 1 * win3_1.size 1 + win3_1.xsize (grid3.coords last3) 1
      rw [show win3_1.index last3 1 * win3_1.size 1 = 0 from by decide +kernel,
        show win3_1.xsize (grid3.coords last3) 1 = 256 from by decide +kernel]
      omega⟩

theorem cover3_2 (i : ((cfg3.win 2).arr.view.loc (c.tc : Thread nD τ)).2.ty.Idx) :
    ∃ t : Fin cfg3.N, (cfg3.win 2).flush t = true ∧ i ∈ ((cfg3.win 2).blk t).view.set :=
  ⟨last3, (flush3_2 last3).mpr rfl, by
    show i ∈ ((View.whole main_v84_1).slice (win3_2.rect last3)).set
    rw [View.set_slice_whole, Rect.mem_set_unit]
    intro a
    have h0 : (i 0 : Nat) < 1 := (i 0).isLt
    have h1 : (i 1 : Nat) < 256 := (i 1).isLt
    match a with
    | ⟨0, _⟩ =>
      show win3_2.index last3 0 * win3_2.size 0 ≤ (i 0 : Nat)
        ∧ (i 0 : Nat) < win3_2.index last3 0 * win3_2.size 0 + win3_2.xsize (grid3.coords last3) 0
      rw [show win3_2.index last3 0 * win3_2.size 0 = 0 from by decide +kernel,
        show win3_2.xsize (grid3.coords last3) 0 = 1 from by decide +kernel]
      omega
    | ⟨1, _⟩ =>
      show win3_2.index last3 1 * win3_2.size 1 ≤ (i 1 : Nat)
        ∧ (i 1 : Nat) < win3_2.index last3 1 * win3_2.size 1 + win3_2.xsize (grid3.coords last3) 1
      rw [show win3_2.index last3 1 * win3_2.size 1 = 0 from by decide +kernel,
        show win3_2.xsize (grid3.coords last3) 1 = 256 from by decide +kernel]
      omega⟩

/-- After region 3 its first output array holds the column sums of its input array. -/
theorem sum3 : (Gen.dat3 (F := Ideal) V c).arrAt 1 cfg3.N = Cert.Gcn.colSum (V c main_v83) :=
  (dat3 V c).arrAt_eq_of_cover 1 (Cert.Gcn.colSum (inArr3 V c)) (flushed3_1_eq V c) (cover3_1 c)

/-- After region 3 its second output array holds the column sums of squares of its input array. -/
theorem sumsq3 : (Gen.dat3 (F := Ideal) V c).arrAt 2 cfg3.N = Cert.Gcn.colSumSq (V c main_v83) :=
  (dat3 V c).arrAt_eq_of_cover 2 (Cert.Gcn.colSumSq (inArr3 V c)) (flushed3_2_eq V c) (cover3_2 c)

end Region

end Cert.KernelIdeal.RegionValue

end
-- ==== Proof.RegBn4.lean ====
/-
  Region 4: normalise, scale and shift each row, multiply into the weight, add the bias row — read off the pipeline's
  proof data.

  The region runs over 25 points. At point t the first window holds rows 2000 t … 2000 t + 1999 of the [50000, 256]
  array; the mean, inverse-deviation, scale, shift and bias windows each hold their whole [1, 256] row, and the
  weight's window its whole [256, 256] array, at every point. The body subtracts the mean row from each row of the
  block, multiplies by the inverse-deviation row and by the scale row, adds the shift row, multiplies the result into
  the weight accumulating onto zero, and adds the bias row. On the extended reals the changes of format are the
  identity, a cast to the same shape is the identity, and a row repeated over the block's 2000 rows reads its one row;
  so entry (p, q) of what is stored is the sum over k of
  ((y (2000 t + p, k) - mean k) · inv k · g k + be k) · w (k, q), plus bias q: block t of the specification's array.
  The 25 row blocks tile the [50000, 256] result — row r lies in block r / 2000 — and every point writes its block
  back, so the result array ends holding the specification's array.
-/
import proofs.«127999_j35588099015570_1_alg».proof.Proof.Gen.KernelIdeal.Frame
import proofs.«127999_j35588099015570_1_alg».proof.Proof.Spec
import proofs.«127999_j35588099015570_1_alg».proof.Proof.LibPlainMatmul
import Idealize.ShloMosaic.Lib.Pipeline.Value
import Idealize.ShloMosaic.Lib.ValueIdx
import Idealize.ShloMosaic.Lib.ValueLayout

noncomputable section

open scoped BigOperators
open Idealize.ShloMosaic Idealize.ShloMosaic.TcCoe Idealize.SL.Sem
open Idealize.ShloMosaic.Pipeline (Dat)

namespace Cert.KernelIdeal.RegionValue

open Cert.KernelIdeal Cert.KernelIdeal.Gen Idealize.ShloMosaic.ValueIdx

variable (V : (c : Dev nD) → (b : Ref sig .tc) → Buf (Elt Ideal) ((c : Thread nD τ).loc b)) (c : Dev nD)

/-- The offsets of a whole-block access, as the constant zero function. -/
theorem zero_offsets4 : (![0, 0] : Fin 2 → Nat) = fun _ => 0 := funext fun a => by fin_cases a <;> rfl

/-- Entry (p, q) of the normalise-scale-shift product: the sum over k of
    ((y (p, k) - mean k) · inv k · g k + be k) · w (k, q), plus bias q. On the extended reals the changes of format
    and the casts to the same shape are the identity, and a [1, 256] row repeated over 2000 rows reads its one row. -/
theorem bn_matmul_entry4 (v0 : Vec Ideal S2000x256 .f32) (v2 v6 v10 v14 : Vec Ideal S1x256 .f32)
    (v19 : Vec Ideal S256x256 .f32) (v22 : Vec Ideal S1x256 .f32) (p : Fin 2000) (q : Fin 256) :
    k4_pay1 v0 v2 v6 v10 v14 v19 v22 (ix2 p q)
      = (∑ k : Fin 256, ((v0 (ix2 p k) - v2 (ix2 (0 : Fin 1) k)) * v6 (ix2 (0 : Fin 1) k) * v10 (ix2 (0 : Fin 1) k)
          + v14 (ix2 (0 : Fin 1) k)) * v19 (ix2 k q)) + v22 (ix2 (0 : Fin 1) q) := by
  unfold k4_pay1
  simp only [shapeCast_self]
  refine (addf_apply _ _ (ix2 p q)).trans ?_
  refine congrArg₂ (· + ·) ?_ (broadcastTo_1b_ab_apply v22 broadcasts_S1x256_S2000x256 p q)
  refine (Cert.PlainMatmul.zero_acc_apply _ none _ _ p q).trans ?_
  refine Finset.sum_congr rfl fun k _ => ?_
  refine congrArg₂ (· * ·) ?_ rfl
  show ((v0 (ix2 p k) - broadcastTo S2000x256 v2 broadcasts_S1x256_S2000x256 (ix2 p k))
        * broadcastTo S2000x256 v6 broadcasts_S1x256_S2000x256 (ix2 p k))
        * broadcastTo S2000x256 v10 broadcasts_S1x256_S2000x256 (ix2 p k)
      + broadcastTo S2000x256 v14 broadcasts_S1x256_S2000x256 (ix2 p k) = _
  rw [broadcastTo_1b_ab_apply v2, broadcastTo_1b_ab_apply v6, broadcastTo_1b_ab_apply v10, broadcastTo_1b_ab_apply v14]

/-- The index maps over the 25 points: the two row-block windows sit at block (t, 0), every other window at (0, 0). -/
theorem index_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- The normalised operand's block at point t is rows 2000 t … 2000 t + 1999 of the array. -/
theorem rows_block_entry4 (t : Fin cfg4.N) (p : Fin 2000) (k : Fin 256) (i : S50000x256.Idx)
    (h0 : (i 0).val = t.val * 2000 + p.val) (h1 : (i 1).val = k.val) :
    (iblk4 V c 0 t : Vec Ideal S2000x256 .f32) (ix2 p k) = (V c main_v83 : S50000x256.Idx → EReal) i := by
  have e := index_facts4 t
  unfold iblk4
  rw [View.read_apply]
  show (V c main_v83 : S50000x256.Idx → EReal) _ = (V c main_v83 : S50000x256.Idx → EReal) _
  refine congrArg (V c main_v83 : S50000x256.Idx → EReal) ?_
  funext a
  apply Fin.ext
  match a with
  | ⟨0, _⟩ => show win4_0.index t (0 : Fin 2) * 2000 + 1 * p.val = (i 0).val; omega
  | ⟨1, _⟩ => show win4_0.index t (1 : Fin 2) * 256 + 1 * k.val = (i 1).val; omega

/-- The mean row's block at every point is the whole [1, 256] array. -/
theorem row_block_entry4_1 (t : Fin cfg4.N) (k : Fin 256) :
    (iblk4 V c 1 t : Vec Ideal S1x256 .f32) (ix2 (0 : Fin 1) k) = (V c main_v96 : S1x256.Idx → EReal) (ix2 (0 : Fin 1) k) := by
  have e := index_facts4 t
  unfold iblk4
  rw [View.read_apply]
  show (V c main_v96 : S1x256.Idx → EReal) _ = (V c main_v96 : S1x256.Idx → EReal) _
  refine congrArg (V c main_v96 : S1x256.Idx → EReal) ?_
  funext a
  apply Fin.ext
  match a with
  | ⟨0, _⟩ => show win4_1.index t (0 : Fin 2) * 1 + 1 * 0 = 0; omega
  | ⟨1, _⟩ => show win4_1.index t (1 : Fin 2) * 256 + 1 * k.val = k.val; omega

/-- The inverse deviation row's block at every point is the whole [1, 256] array. -/
theorem row_block_entry4_2 (t : Fin cfg4.N) (k : Fin 256) :
    (iblk4 V c 2 t : Vec Ideal S1x256 .f32) (ix2 (0 : Fin 1) k) = (V c main_v97 : S1x256.Idx → EReal) (ix2 (0 : Fin 1) k) := by
  have e := index_facts4 t
  unfold iblk4
  rw [View.read_apply]
  show (V c main_v97 : S1x256.Idx → EReal) _ = (V c main_v97 : S1x256.Idx → EReal) _
  refine congrArg (V c main_v97 : S1x256.Idx → EReal) ?_
  funext a
  apply Fin.ext
  match a with
  | ⟨0, _⟩ => show win4_2.index t (0 : Fin 2) * 1 + 1 * 0 = 0; omega
  | ⟨1, _⟩ => show win4_2.index t (1 : Fin 2) * 256 + 1 * k.val = k.val; omega

/-- The scale row's block at every point is the whole [1, 256] array. -/
theorem row_block_entry4_3 (t : Fin cfg4.N) (k : Fin 256) :
    (iblk4 V c 3 t : Vec Ideal S1x256 .f32) (ix2 (0 : Fin 1) k) = (V c main_v98 : S1x256.Idx → EReal) (ix2 (0 : Fin 1) k) := by
  have e := index_facts4 t
  unfold iblk4
  rw [View.read_apply]
  show (V c main_v98 : S1x256.Idx → EReal) _ = (V c main_v98 : S1x256.Idx → EReal) _
  refine congrArg (V c main_v98 : S1x256.Idx → EReal) ?_
  funext a
  apply Fin.ext
  match a with
  | ⟨0, _⟩ => show win4_3.index t (0 : Fin 2) * 1 + 1 * 0 = 0; omega
  | ⟨1, _⟩ => show win4_3.index t (1 : Fin 2) * 256 + 1 * k.val = k.val; omega

/-- The shift row's block at every point is the whole [1, 256] array. -/
theorem row_block_entry4_4 (t : Fin cfg4.N) (k : Fin 256) :
    (iblk4 V c 4 t : Vec Ideal S1x256 .f32) (ix2 (0 : Fin 1) k) = (V c main_v99 : S1x256.Idx → EReal) (ix2 (0 : Fin 1) k) := by
  have e := index_facts4 t
  unfold iblk4
  rw [View.read_apply]
  show (V c main_v99 : S1x256.Idx → EReal) _ = (V c main_v99 : S1x256.Idx → EReal) _
  refine congrArg (V c main_v99 : S1x256.Idx → EReal) ?_
  funext a
  apply Fin.ext
  match a with
  | ⟨0, _⟩ => show win4_4.index t (0 : Fin 2) * 1 + 1 * 0 = 0; omega
  | ⟨1, _⟩ => show win4_4.index t (1 : Fin 2) * 256 + 1 * k.val = k.val; omega

/-- The weight's block at every point is the whole [256, 256] array. -/
theorem weight_block_entry4 (t : Fin cfg4.N) (k : Fin 256) (q : Fin 256) (i : S256x256.Idx)
    (h0 : (i 0).val = k.val) (h1 : (i 1).val = q.val) :
    (iblk4 V c 5 t : Vec Ideal S256x256 .f32) (ix2 k q) = (V c main_arg10 : S256x256.Idx → EReal) i := by
  have e := index_facts4 t
  unfold iblk4
  rw [View.read_apply]
  show (V c main_arg10 : S256x256.Idx → EReal) _ = (V c main_arg10 : S256x256.Idx → EReal) _
  refine congrArg (V c main_arg10 : S256x256.Idx → EReal) ?_
  funext a
  apply Fin.ext
  match a with
  | ⟨0, _⟩ => show win4_5.index t (0 : Fin 2) * 256 + 1 * k.val = (i 0).val; omega
  | ⟨1, _⟩ => show win4_5.index t (1 : Fin 2) * 256 + 1 * q.val = (i 1).val; omega

/-- The bias row's block at every point is the whole [1, 256] array. -/
theorem bias_block_entry4 (t : Fin cfg4.N) (q : Fin 256) (i : S1x256.Idx) (h1 : (i 1).val = q.val) :
    (iblk4 V c 6 t : Vec Ideal S1x256 .f32) (ix2 (0 : Fin 1) q) = (V c main_v100 : S1x256.Idx → EReal) i := by
  have e := index_facts4 t
  have hi0 : (i 0).val < 1 := (i 0).isLt
  unfold iblk4
  rw [View.read_apply]
  show (V c main_v100 : S1x256.Idx → EReal) _ = (V c main_v100 : S1x256.Idx → EReal) _
  refine congrArg (V c main_v100 : S1x256.Idx → EReal) ?_
  funext a
  apply Fin.ext
  match a with
  | ⟨0, _⟩ => show win4_6.index t (0 : Fin 2) * 1 + 1 * 0 = (i 0).val; omega
  | ⟨1, _⟩ => show win4_6.index t (1 : Fin 2) * 256 + 1 * q.val = (i 1).val; omega

/-- When row p of the first block is row (i 0) of the array Y and every other block is its whole array, entry (p, q)
    of what the body stores is the normalise-scale-shift product of the arrays at i. -/
theorem block_bn_entry4 (x0 : Vec Ideal S2000x256 .f32) (x1 x2 x3 x4 : Vec Ideal S1x256 .f32)
    (x5 : Vec Ideal S256x256 .f32) (x6 : Vec Ideal S1x256 .f32)
    (Y : Cert.Gcn.Mat 50000 256) (mean inv g be : Cert.Gcn.Mat 1 256) (W : Cert.Gcn.Mat 256 256) (bias : Cert.Gcn.Mat 1 256)
    (p : Fin 2000) (q : Fin 256) (i : S50000x256.Idx)
    (h0 : ∀ k : Fin 256, x0 (ix2 p k) = Y (ix2 (i 0) k))
    (h1 : ∀ k : Fin 256, x1 (ix2 (0 : Fin 1) k) = mean (ix2 (0 : Fin 1) k))
    (h2 : ∀ k : Fin 256, x2 (ix2 (0 : Fin 1) k) = inv (ix2 (0 : Fin 1) k))
    (h3 : ∀ k : Fin 256, x3 (ix2 (0 : Fin 1) k) = g (ix2 (0 : Fin 1) k))
    (h4 : ∀ k : Fin 256, x4 (ix2 (0 : Fin 1) k) = be (ix2 (0 : Fin 1) k))
    (h5 : ∀ k : Fin 256, x5 (ix2 k q) = W (ix2 k (i 1)))
    (h6 : x6 (ix2 (0 : Fin 1) q) = bias (ix2 (0 : Fin 1) (i 1))) :
    k4_pay1 x0 x1 x2 x3 x4 x5 x6 (ix2 p q) = Cert.Gcn.bnmm Y mean inv g be W bias i := by
  refine (bn_matmul_entry4 x0 x1 x2 x3 x4 x5 x6 p q).trans ?_
  show _ = (∑ k : Fin 256, ((Y (ix2 (i 0) k) - mean (ix2 (0 : Fin 1) k)) * inv (ix2 (0 : Fin 1) k) * g (ix2 (0 : Fin 1) k)
      + be (ix2 (0 : Fin 1) k)) * W (ix2 k (i 1))) + bias (ix2 (0 : Fin 1) (i 1))
  rw [h6]
  refine congrArg₂ (· + ·) (Finset.sum_congr rfl fun k _ => ?_) rfl
  rw [h0 k, h1 k, h2 k, h3 k, h4 k, h5 k]

/-- What point t writes back is block t of the normalise-scale-shift product of the arrays. -/
theorem flushed_block4 (t : Fin cfg4.N) :
    (dat4 V c).flushed 7 t = ((cfg4.win 7).blk t).view.read (Elt Ideal)
      (Cert.Gcn.bnmm (V c main_v83) (V c main_v96) (V c main_v97) (V c main_v98) (V c main_v99) (V c main_arg10) (V c main_v100)) := by
  show (cfg4.win 7).cut (grid4.coords t) ((dat4 V c).after 7 t) = _
  rw [after4_7]
  unfold out4_7
  rw [View.canon_unit_zero zero_offsets4]
  simp only [View.ld_unit_zero (S := S2000x256) zero_offsets4, View.ld_unit_zero (S := S1x256) zero_offsets4,
    View.ld_unit_zero (S := S256x256) zero_offsets4]
  have e := index_facts4 t
  funext j
  obtain ⟨p, q, rfl⟩ : ∃ (p : Fin 2000) (q : Fin 256), j = ix2 p q := ⟨j 0, j 1, eq_ix2 j⟩
  rw [View.read_apply]
  show k4_pay1 (iblk4 V c 0 t) (iblk4 V c 1 t) (iblk4 V c 2 t) (iblk4 V c 3 t) (iblk4 V c 4 t) (iblk4 V c 5 t)
      (iblk4 V c 6 t) (ix2 p q)
    = Cert.Gcn.bnmm (V c main_v83) (V c main_v96) (V c main_v97) (V c main_v98) (V c main_v99) (V c main_arg10) (V c main_v100)
      (((cfg4.win 7).blk t).view.emb (ix2 p q))
  have h0 : ((((cfg4.win 7).blk t).view.emb (ix2 p q)) 0).val = t.val * 2000 + p.val := by
    show win4_7.index t (0 : Fin 2) * 2000 + 1 * p.val = t.val * 2000 + p.val; omega
  have h1 : ((((cfg4.win 7).blk t).view.emb (ix2 p q)) 1).val = q.val := by
    show win4_7.index t (1 : Fin 2) * 256 + 1 * q.val = q.val; omega
  exact block_bn_entry4 (iblk4 V c 0 t) (iblk4 V c 1 t) (iblk4 V c 2 t) (iblk4 V c 3 t) (iblk4 V c 4 t)
    (iblk4 V c 5 t) (iblk4 V c 6 t)
    (V c main_v83) (V c main_v96) (V c main_v97) (V c main_v98) (V c main_v99) (V c main_arg10) (V c main_v100) p q
    (((cfg4.win 7).blk t).view.emb (ix2 p q))
    (fun k => rows_block_entry4 V c t p k (ix2 ((((cfg4.win 7).blk t).view.emb (ix2 p q)) 0) k) h0 rfl)
    (fun k => row_block_entry4_1 V c t k) (fun k => row_block_entry4_2 V c t k)
    (fun k => row_block_entry4_3 V c t k) (fun k => row_block_entry4_4 V c t k)
    (fun k => weight_block_entry4 V c t k q (ix2 k ((((cfg4.win 7).blk t).view.emb (ix2 p q)) 1)) rfl h1)
    (bias_block_entry4 V c t q (ix2 (0 : Fin 1) ((((cfg4.win 7).blk t).view.emb (ix2 p q)) 1)) h1)

/-- An index of the result array is in point t's block iff each coordinate is in the block's range on its axis. -/
theorem mem_block4 (t : Fin cfg4.N) (i : S50000x256.Idx) :
    i ∈ ((cfg4.win 7).blk t).view.set ↔ ∀ a : Fin 2, win4_7.index t a * S2000x256.size a ≤ (i a).val ∧ (i a).val < win4_7.index t a * S2000x256.size a + S2000x256.size a := by
  show i ∈ ((View.whole main_v101).slice (win4_7.rect t)).set ↔ _
  rw [View.set_slice_whole, Rect.mem_set_unit]
  exact Iff.rfl

/-- Row r of the result lies in the block of point r / 2000, which is written back. -/
theorem covered4 (i : S50000x256.Idx) :
    ∃ t : Fin cfg4.N, (cfg4.win 7).flush t = true ∧ i ∈ ((cfg4.win 7).blk t).view.set := by
  have hN : grid4.N = 25 := N_4
  have hi0 : (i 0).val < 50000 := (i 0).isLt
  have hi1 : (i 1).val < 256 := (i 1).isLt
  have ht : (i 0).val / 2000 < cfg4.N := by show (i 0).val / 2000 < grid4.N; rw [hN]; omega
  refine ⟨⟨(i 0).val / 2000, ht⟩, flush4_7 _, ?_⟩
  have e := index_facts4 ⟨(i 0).val / 2000, ht⟩
  obtain ⟨-, -, -, -, -, -, -, -, -, -, -, -, -, -, e14, e15⟩ := e
  rw [mem_block4]
  intro a
  match a with
  | ⟨0, _⟩ => show win4_7.index ⟨(i 0).val / 2000, ht⟩ (0 : Fin 2) * 2000 ≤ (i 0).val ∧ (i 0).val < win4_7.index ⟨(i 0).val / 2000, ht⟩ (0 : Fin 2) * 2000 + 2000; rw [e14]; show (i 0).val / 2000 * 2000 ≤ (i 0).val ∧ (i 0).val < (i 0).val / 2000 * 2000 + 2000; omega
  | ⟨1, _⟩ => show win4_7.index ⟨(i 0).val / 2000, ht⟩ (1 : Fin 2) * 256 ≤ (i 1).val ∧ (i 1).val < win4_7.index ⟨(i 0).val / 2000, ht⟩ (1 : Fin 2) * 256 + 256; rw [e15]; omega

/-- Region 4 leaves the normalise-scale-shift product of its operand arrays in its result array. -/
theorem bn4 : (Gen.dat4 (F := Ideal) V c).arrAt 7 cfg4.N = Cert.Gcn.bnmm (V c main_v83) (V c main_v96) (V c main_v97) (V c main_v98) (V c main_v99) (V c main_arg10) (V c main_v100) :=
  (dat4 V c).arrAt_eq_of_cover 7
    (Cert.Gcn.bnmm (V c main_v83) (V c main_v96) (V c main_v97) (V c main_v98) (V c main_v99) (V c main_arg10) (V c main_v100))
    (fun t _ => flushed_block4 V c t) (covered4)

end Cert.KernelIdeal.RegionValue

end
-- ==== Proof.KValue.lean ====
/-
  The idealized kernel's result as one function of its arguments.  Reading the fold through the program back from
  the last region: the result is the normalise-scale-shift-multiply-add (`bnmm`) of the second aggregated array
  `act2` with the statistics the second statistics region and the stretch after it leave; `act2` is the aggregation
  of the same operation on the first aggregated array `act1` with a zero bias; `act1` is the aggregation of x · W1.
-/
import proofs.«127999_j35588099015570_1_alg».proof.Proof.KHostParams
import proofs.«127999_j35588099015570_1_alg».proof.Proof.KHostEdges
import proofs.«127999_j35588099015570_1_alg».proof.Proof.KHostStretch
import proofs.«127999_j35588099015570_1_alg».proof.Proof.RegMatmul
import proofs.«127999_j35588099015570_1_alg».proof.Proof.RegStats1
import proofs.«127999_j35588099015570_1_alg».proof.Proof.RegBn2
import proofs.«127999_j35588099015570_1_alg».proof.Proof.RegStats3
import proofs.«127999_j35588099015570_1_alg».proof.Proof.RegBn4

set_option maxRecDepth 16384

noncomputable section

namespace Cert.KernelIdeal.KValue

open Cert.KernelIdeal Cert.KernelIdeal.Gen Cert.KernelIdeal.HostValue Cert.Gcn
open Idealize.ShloMosaic Idealize.ShloMosaic.TcCoe Idealize.SL.Sem

/-! ## The kernel's function of the argument arrays -/

/-- The batch statistics of an activation array as the kernel's program computes them, kept as rows, and the
    normalise-scale-shift-multiply-add with them. -/
def layerK (Y : K.Fl S50000x256) (g be : K.Fl S256) (W : K.Fl S256x256) (bias : K.Fl S256) : K.Fl S50000x256 :=
  bnmm Y (K.rowT (K.meanT (colSum Y))) (K.rowT (K.invT (colSum Y) (colSumSq Y))) (K.rowT g) (K.rowT be) W (K.rowT bias)

/-- The first aggregated array. -/
def act1 (x : K.Fl S50000x128) (e : K.Ix S2x800000) (W1 : K.Fl S128x256) (b1 : K.Fl S256) : K.Fl S50000x256 :=
  K.agg e (mm x W1) b1

/-- The second aggregated array. -/
def act2 (x : K.Fl S50000x128) (e : K.Ix S2x800000) (W1 : K.Fl S128x256) (b1 g1 be1 : K.Fl S256) (W2 : K.Fl S256x256)
    (b2 : K.Fl S256) : K.Fl S50000x256 :=
  K.agg e (layerK (act1 x e W1 b1) g1 be1 W2 K.zeroV) b2

/-- The result. -/
def outK (x : K.Fl S50000x128) (e : K.Ix S2x800000) (W1 : K.Fl S128x256) (b1 g1 be1 : K.Fl S256) (W2 : K.Fl S256x256)
    (b2 g2 be2 : K.Fl S256) (Wfc : K.Fl S256x256) (bfc : K.Fl S256) : K.Fl S50000x256 :=
  layerK (act2 x e W1 b1 g1 be1 W2 b2) g2 be2 Wfc bfc

/-! ## Membership of the parameters -/

theorem p0 : IsParam main_arg0 := Or.inl rfl
theorem p2 : IsParam main_arg2 := Or.inr (Or.inl rfl)
theorem p3 : IsParam main_arg3 := Or.inr (Or.inr (Or.inl rfl))
theorem p4 : IsParam main_arg4 := Or.inr (Or.inr (Or.inr (Or.inl rfl)))
theorem p5 : IsParam main_arg5 := Or.inr (Or.inr (Or.inr (Or.inr (Or.inl rfl))))
theorem p6 : IsParam main_arg6 := Or.inr (Or.inr (Or.inr (Or.inr (Or.inr (Or.inl rfl)))))
theorem p7 : IsParam main_arg7 := Or.inr (Or.inr (Or.inr (Or.inr (Or.inr (Or.inr (Or.inl rfl))))))
theorem p8 : IsParam main_arg8 := Or.inr (Or.inr (Or.inr (Or.inr (Or.inr (Or.inr (Or.inr (Or.inl rfl)))))))
theorem p9 : IsParam main_arg9 := Or.inr (Or.inr (Or.inr (Or.inr (Or.inr (Or.inr (Or.inr (Or.inr (Or.inl rfl))))))))
theorem p10 : IsParam main_arg10 := Or.inr (Or.inr (Or.inr (Or.inr (Or.inr (Or.inr (Or.inr (Or.inr (Or.inr (Or.inl rfl)))))))))
theorem p11 : IsParam main_arg11 := Or.inr (Or.inr (Or.inr (Or.inr (Or.inr (Or.inr (Or.inr (Or.inr (Or.inr (Or.inr rfl)))))))))

variable (m : (ℓ : Loc nD τ sig) → Buf (Elt Ideal) ℓ) (ρ : Dev nD → PrngReg) (c : Dev nD)

/-! ## The fold, region by region -/

/-- Region 0 leaves x · W1. -/
theorem lin1 : W4 m ρ c (Proc.devRef .tc main_v32) = mm (m ((c : Thread nD τ).loc main_arg0)) (m ((c : Thread nD τ).loc main_arg2)) := by
  refine (W4_arr m ρ c 2).trans ((RegionValue.linear (V3 m ρ) c).trans ?_)
  show mm (W3 m ρ c (Proc.devRef .tc main_arg0)) (W3 m ρ c (Proc.devRef .tc main_arg2)) = _
  rw [params3 m ρ c main_arg0 p0, params3 m ρ c main_arg2 p2]

/-- The stretch after it leaves the first aggregated array. -/
theorem a1 : W5 m ρ c (Proc.devRef .tc main_v48) = act1 (m ((c : Thread nD τ).loc main_arg0)) (m ((c : Thread nD τ).loc main_arg1)) (m ((c : Thread nD τ).loc main_arg2)) (m ((c : Thread nD τ).loc main_arg3)) := by
  rw [agg5 m ρ c, (edges4 m ρ c).s, (edges4 m ρ c).d, (edges4 m ρ c).w, lin1 m ρ c, params4 m ρ c main_arg3 p3]
  rfl

/-- Region 1 leaves its column sums and column sums of squares. -/
theorem s1 : W6 m ρ c (Proc.devRef .tc main_v49_0) = colSum (act1 (m ((c : Thread nD τ).loc main_arg0)) (m ((c : Thread nD τ).loc main_arg1)) (m ((c : Thread nD τ).loc main_arg2)) (m ((c : Thread nD τ).loc main_arg3))) :=
  (W6_arr m ρ c 1).trans ((RegionValue.sum1 (V5 m ρ) c).trans (congrArg colSum (a1 m ρ c)))
theorem ss1 : W6 m ρ c (Proc.devRef .tc main_v49_1) = colSumSq (act1 (m ((c : Thread nD τ).loc main_arg0)) (m ((c : Thread nD τ).loc main_arg1)) (m ((c : Thread nD τ).loc main_arg2)) (m ((c : Thread nD τ).loc main_arg3))) :=
  (W6_arr m ρ c 2).trans ((RegionValue.sumsq1 (V5 m ρ) c).trans (congrArg colSumSq (a1 m ρ c)))

/-- Region 2 leaves the first layer's product. -/
theorem l2 : W8 m ρ c (Proc.devRef .tc main_v67)
    = layerK (act1 (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) K.zeroV := by
  refine (W8_arr m ρ c 7).trans ((RegionValue.bn2 (V7 m ρ) c).trans ?_)
  show bnmm (W7 m ρ c (Proc.devRef .tc main_v48)) (W7 m ρ c (Proc.devRef .tc main_v62)) (W7 m ρ c (Proc.devRef .tc main_v63))
    (W7 m ρ c (Proc.devRef .tc main_v64)) (W7 m ρ c (Proc.devRef .tc main_v65)) (W7 m ρ c (Proc.devRef .tc main_arg6))
    (W7 m ρ c (Proc.devRef .tc main_v66)) = _
  rw [keep48_7 m ρ c, a1 m ρ c, mean7 m ρ c, inv7 m ρ c, g7 m ρ c, be7 m ρ c, bias7 m ρ c, s1 m ρ c, ss1 m ρ c,
    params6 m ρ c main_arg4 p4, params6 m ρ c main_arg5 p5, params7 m ρ c main_arg6 p6]
  rfl

/-- The stretch after it leaves the second aggregated array. -/
theorem a2 : W9 m ρ c (Proc.devRef .tc main_v83)
    = act2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [agg9 m ρ c, (edges8 m ρ c).s, (edges8 m ρ c).d, (edges8 m ρ c).w, l2 m ρ c, params8 m ρ c main_arg7 p7]
  rfl

/-- Region 3 leaves its column sums and column sums of squares. -/
theorem s2 : W10 m ρ c (Proc.devRef .tc main_v84_0)
    = colSum (act2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (W10_arr m ρ c 1).trans ((RegionValue.sum3 (V9 m ρ) c).trans (congrArg colSum (a2 m ρ c)))
theorem ss2 : W10 m ρ c (Proc.devRef .tc main_v84_1)
    = colSumSq (act2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (W10_arr m ρ c 2).trans ((RegionValue.sumsq3 (V9 m ρ) c).trans (congrArg colSumSq (a2 m ρ c)))

/-- Region 4 leaves the result. -/
theorem result : W12 m ρ c (Proc.devRef .tc main_v101)
    = outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) (m ((c : Thread nD τ).loc main_arg11)) := by
  refine (W12_arr m ρ c 7).trans ((RegionValue.bn4 (V11 m ρ) c).trans ?_)
  show bnmm (W11 m ρ c (Proc.devRef .tc main_v83)) (W11 m ρ c (Proc.devRef .tc main_v96)) (W11 m ρ c (Proc.devRef .tc main_v97))
    (W11 m ρ c (Proc.devRef .tc main_v98)) (W11 m ρ c (Proc.devRef .tc main_v99)) (W11 m ρ c (Proc.devRef .tc main_arg10))
    (W11 m ρ c (Proc.devRef .tc main_v100)) = _
  rw [keep83_11 m ρ c, a2 m ρ c, mean11 m ρ c, inv11 m ρ c, g11 m ρ c, be11 m ρ c, bias11 m ρ c, s2 m ρ c, ss2 m ρ c,
    params10 m ρ c main_arg8 p8, params10 m ρ c main_arg9 p9, params10 m ρ c main_arg11 p11, params11 m ρ c main_arg10 p10]
  rfl

end Cert.KernelIdeal.KValue

end
-- ==== Proof.SpecBn.lean ====
/-
  Batch normalisation over the rows of an array, as a function on the extended reals, entry by entry: the form the
  reference computes.  `meanP Y k` is the mean of column k (the column's sum divided by the row count 50000),
  `varP Y k` the mean of the squared deviations from it, and `bnP Y g be` the array
  (Y (p, k) - mean k) · (var k + eps)^(-1/2) · g k + be k.  `IsReal v` says every entry of v is a real number.
-/
import proofs.«127999_j35588099015570_1_alg».proof.Proof.Spec

noncomputable section

open scoped BigOperators

namespace Cert.Gcn

open Idealize.ShloMosaic Idealize.ShloMosaic.ValueIdx

/-- Every entry is a real number (neither infinity). -/
def IsReal {S : Shape} (v : S.Idx → EReal) : Prop := ∀ i, ∃ r : ℝ, v i = (r : EReal)

/-- A vector [n] of extended reals. -/
abbrev Vec1 (n : ℕ) : Type := (⟨1, ![n]⟩ : Shape).Idx → EReal

/-- The row count 50000, as the single-precision word both programs divide by. -/
abbrev nRows : EReal := Ideal.ofBits .f32 0x47435000#32

/-- The variance floor, the single-precision word nearest 1e-5. -/
abbrev eps : EReal := Ideal.ofBits .f32 0x3727C5AC#32

/-- The mean of column k: its sum over the rows, divided by the row count. -/
def meanP {a n : ℕ} (Y : Mat a n) (k : Fin n) : EReal :=
  Ideal.div (∑ p : Fin a, Y (ix2 p k)) nRows

/-- The mean squared deviation of column k from its mean. -/
def varP {a n : ℕ} (Y : Mat a n) (k : Fin n) : EReal :=
  Ideal.div (∑ p : Fin a, (Y (ix2 p k) - meanP Y k) * (Y (ix2 p k) - meanP Y k)) nRows

/-- Normalise each column by its mean and variance, scale by g, shift by be. -/
def bnP {a n : ℕ} (Y : Mat a n) (g be : Vec1 n) : Mat a n :=
  fun j => (Y (ix2 (j 0) (j 1)) - meanP Y (j 1)) * Ideal.rsqrt (varP Y (j 1) + eps) * g (ix1 (j 1)) + be (ix1 (j 1))

end Cert.Gcn

end
-- ==== Proof.BnLaw.lean ====
/-
  The batch-normalisation law on the extended reals.

  The kernel computes the variance of a column as (sum of squares)/N - mean², the reference as
  (sum of squared deviations from the mean)/N, with mean = (sum)/N and N = 50000 the number of rows.
  For a column of real numbers the two agree (expand the square and use that the column has exactly N entries);
  on the extended reals the identity needs every entry of the array to be real, and nothing else: the scale,
  the shift, the weights and the bias enter both sides in the same places.  The module also shows that the
  matrix product of real arrays is real and that the normalised array of a real array is real (the mean squared
  deviation is at least 0 and the variance floor is positive, so the inverse square root is a real number).
-/
import proofs.«127999_j35588099015570_1_alg».proof.Proof.SpecBn

noncomputable section

open scoped BigOperators

namespace Cert.Gcn

open Idealize.ShloMosaic Idealize.ShloMosaic.ValueIdx

/-! ### The two constants -/

/-- The row count's word denotes the real number 50000. -/
theorem nRows_eq : nRows = ((50000 : ℝ) : EReal) := by
  simp [nRows, Ideal.ofBits, Ideal.ieee, -EReal.coe_mul]; norm_num

/-- The variance floor's word denotes a positive real number (10995116 · 2⁻⁴⁰). -/
theorem eps_pos : ∃ r : ℝ, 0 < r ∧ eps = (r : EReal) := by
  refine ⟨10995116 * (2 : ℝ) ^ (-40 : ℤ), by positivity, ?_⟩
  simp [eps, Ideal.ofBits, Ideal.ieee, -EReal.coe_mul]

/-! ### One column of real numbers -/

/-- The coercion of a finite sum of reals is the sum of the coercions. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- For N real numbers with sum S and c = 1/N: the mean of the squared deviations from the mean S·c is the
    mean of the squares minus the square of the mean. -/
theorem var_real {N : ℕ} (c : ℝ) (hc : (N : ℝ) * c = 1) (y : Fin N → ℝ) :
    (∑ p, (y p - (∑ q, y q) * c) * (y p - (∑ q, y q) * c)) * c
      = (∑ p, y p * y p) * c - ((∑ q, y q) * c) * ((∑ q, y q) * c) := by
  have h1 : ∀ p, (y p - (∑ q, y q) * c) * (y p - (∑ q, y q) * c)
      = y p * y p - 2 * ((∑ q, y q) * c) * y p + ((∑ q, y q) * c) * ((∑ q, y q) * c) := fun p => by ring
  simp_rw [h1, Finset.sum_add_distrib, Finset.sum_sub_distrib, ← Finset.mul_sum, Finset.sum_const,
    Finset.card_univ, Fintype.card_fin, nsmul_eq_mul]
  linear_combination ((∑ q, y q) ^ 2 * c ^ 2) * hc

/-- The mean of the squared deviations is at least 0. -/
theorem var_real_nonneg {N : ℕ} (c m : ℝ) (hc : 0 ≤ c) (y : Fin N → ℝ) :
    0 ≤ (∑ p, (y p - m) * (y p - m)) * c :=
  mul_nonneg (Finset.sum_nonneg fun p _ => mul_self_nonneg _) hc

/-! ### Transport to the extended reals -/

section Column

variable {n : ℕ} (Y : Mat 50000 n) (y : (⟨2, ![50000, n]⟩ : Shape).Idx → ℝ) (hy : ∀ i, Y i = (y i : EReal))
include hy

/-- The mean of a column of reals is the real mean. -/
theorem meanP_coe (k : Fin n) :
    meanP Y k = (((∑ p : Fin 50000, y (ix2 p k)) * (1 / (50000 : ℝ)) : ℝ) : EReal) := by
  rw [meanP, nRows_eq, Ideal.div_coe (by norm_num), EReal.coe_mul, coe_sum]
  simp_rw [hy]

/-- The mean squared deviation of a column of reals is the real one. -/
theorem varP_coe (k : Fin n) :
    varP Y k = (((∑ p : Fin 50000, (y (ix2 p k) - (∑ q : Fin 50000, y (ix2 q k)) * (1 / (50000 : ℝ)))
      * (y (ix2 p k) - (∑ q : Fin 50000, y (ix2 q k)) * (1 / (50000 : ℝ)))) * (1 / (50000 : ℝ)) : ℝ) : EReal) := by
  have h : ∀ p : Fin 50000, (Y (ix2 p k) - meanP Y k) * (Y (ix2 p k) - meanP Y k)
      = (((y (ix2 p k) - (∑ q : Fin 50000, y (ix2 q k)) * (1 / (50000 : ℝ)))
          * (y (ix2 p k) - (∑ q : Fin 50000, y (ix2 q k)) * (1 / (50000 : ℝ))) : ℝ) : EReal) := by
    intro p; rw [meanP_coe Y y hy k, hy, ← EReal.coe_sub, ← EReal.coe_mul]
  rw [varP, nRows_eq, Ideal.div_coe (by norm_num)]
  simp_rw [h]
  rw [← coe_sum, ← EReal.coe_mul]

/-- The kernel's form of the variance, (sum of squares)/N - mean², of a column of reals is the real one. -/
theorem varK_coe (k : Fin n) :
    Ideal.div (∑ p : Fin 50000, Y (ix2 p k) * Y (ix2 p k)) nRows - meanP Y k * meanP Y k
      = (((∑ p : Fin 50000, y (ix2 p k) * y (ix2 p k)) * (1 / (50000 : ℝ))
          - ((∑ q : Fin 50000, y (ix2 q k)) * (1 / (50000 : ℝ))) * ((∑ q : Fin 50000, y (ix2 q k)) * (1 / (50000 : ℝ))) : ℝ) : EReal) := by
  have h : ∀ p : Fin 50000, Y (ix2 p k) * Y (ix2 p k) = ((y (ix2 p k) * y (ix2 p k) : ℝ) : EReal) := by
    intro p; rw [hy, ← EReal.coe_mul]
  rw [meanP_coe Y y hy k, nRows_eq, Ideal.div_coe (by norm_num)]
  simp_rw [h]
  rw [← coe_sum, ← EReal.coe_mul, ← EReal.coe_mul, ← EReal.coe_sub]

/-- On a column of reals the kernel's variance is the reference's. -/
theorem varK_eq_varP (k : Fin n) :
    Ideal.div (∑ p : Fin 50000, Y (ix2 p k) * Y (ix2 p k)) nRows - meanP Y k * meanP Y k = varP Y k := by
  rw [varK_coe Y y hy k, varP_coe Y y hy k]
  exact congrArg _ (var_real (1 / (50000 : ℝ)) (by norm_num) fun p => y (ix2 p k)).symm

end Column

/-! ### The law -/

/-- The kernel's normalise-and-multiply of a real array, with the mean and the inverse deviation computed the
    kernel's way, is the product of the reference's normalised array with the weights, plus the bias. -/
theorem bnmm_eq {n b : ℕ} (Y : Mat 50000 n) (hY : IsReal Y) (mean inv gr ber : Mat 1 n) (g be : Vec1 n) (W : Mat n b)
    (biasr : Mat 1 b) (bias : Vec1 b)
    (hmean : ∀ k : Fin n, mean (ix2 (0 : Fin 1) k) = Ideal.div (colSum Y (ix2 (0 : Fin 1) k)) nRows)
    (hinv : ∀ k : Fin n, inv (ix2 (0 : Fin 1) k) = Ideal.rsqrt (Ideal.div (colSumSq Y (ix2 (0 : Fin 1) k)) nRows
      - mean (ix2 (0 : Fin 1) k) * mean (ix2 (0 : Fin 1) k) + eps))
    (hg : ∀ k : Fin n, gr (ix2 (0 : Fin 1) k) = g (ix1 k)) (hbe : ∀ k : Fin n, ber (ix2 (0 : Fin 1) k) = be (ix1 k))
    (hbias : ∀ q : Fin b, biasr (ix2 (0 : Fin 1) q) = bias (ix1 q)) :
    bnmm Y mean inv gr ber W biasr = fun j => mm (bnP Y g be) W j + bias (ix1 (j 1)) := by
  choose y hy using hY
  have hm : ∀ k : Fin n, mean (ix2 (0 : Fin 1) k) = meanP Y k := fun k => hmean k
  have hi : ∀ k : Fin n, inv (ix2 (0 : Fin 1) k) = Ideal.rsqrt (varP Y k + eps) := by
    intro k
    rw [hinv k, hm k, ← varK_eq_varP Y y hy k]
    rfl
  have key : ∀ (p : Fin 50000) (q : Fin b),
      (∑ k : Fin n, ((Y (ix2 p k) - mean (ix2 (0 : Fin 1) k)) * inv (ix2 (0 : Fin 1) k) * gr (ix2 (0 : Fin 1) k)
        + ber (ix2 (0 : Fin 1) k)) * W (ix2 k q)) + biasr (ix2 (0 : Fin 1) q)
      = (∑ k : Fin n, ((Y (ix2 p k) - meanP Y k) * Ideal.rsqrt (varP Y k + eps) * g (ix1 k) + be (ix1 k))
        * W (ix2 k q)) + bias (ix1 q) := by
    intro p q
    rw [hbias]
    congr 1
    refine Finset.sum_congr rfl fun k _ => ?_
    rw [hm, hi, hg, hbe]
  funext j
  exact key (j 0) (j 1)

/-- The same law with no bias: a bias row of zeros adds nothing. -/
theorem bnmm_eq_zero {n b : ℕ} (Y : Mat 50000 n) (hY : IsReal Y) (mean inv gr ber : Mat 1 n) (g be : Vec1 n) (W : Mat n b)
    (biasr : Mat 1 b)
    (hmean : ∀ k : Fin n, mean (ix2 (0 : Fin 1) k) = Ideal.div (colSum Y (ix2 (0 : Fin 1) k)) nRows)
    (hinv : ∀ k : Fin n, inv (ix2 (0 : Fin 1) k) = Ideal.rsqrt (Ideal.div (colSumSq Y (ix2 (0 : Fin 1) k)) nRows
      - mean (ix2 (0 : Fin 1) k) * mean (ix2 (0 : Fin 1) k) + eps))
    (hg : ∀ k : Fin n, gr (ix2 (0 : Fin 1) k) = g (ix1 k)) (hbe : ∀ k : Fin n, ber (ix2 (0 : Fin 1) k) = be (ix1 k))
    (hbias : ∀ q : Fin b, biasr (ix2 (0 : Fin 1) q) = 0) :
    bnmm Y mean inv gr ber W biasr = mm (bnP Y g be) W := by
  rw [bnmm_eq Y hY mean inv gr ber g be W biasr (fun _ => 0) hmean hinv hg hbe hbias]
  funext j
  exact add_zero _

/-! ### Real arrays stay real -/

/-- A finite sum of real numbers is a real number. -/
theorem sum_real {ι : Type} (s : Finset ι) (f : ι → EReal) (hf : ∀ i, ∃ r : ℝ, f i = (r : EReal)) :
    ∃ r : ℝ, ∑ i ∈ s, f i = (r : EReal) := by
  choose r hr using hf
  exact ⟨∑ i ∈ s, r i, by rw [coe_sum]; exact Finset.sum_congr rfl fun i _ => hr i⟩

/-- The matrix product of two real arrays is real. -/
theorem mm_real {a n b : ℕ} (A : Mat a n) (B : Mat n b) (hA : IsReal A) (hB : IsReal B) : IsReal (mm A B) := by
  intro j
  refine sum_real _ _ fun k => ?_
  obtain ⟨x, hx⟩ := hA (ix2 (j 0) k)
  obtain ⟨z, hz⟩ := hB (ix2 k (j 1))
  exact ⟨x * z, by rw [hx, hz, EReal.coe_mul]⟩

/-- The normalised array of a real array, with real scale and shift, is real: the mean and the mean squared
    deviation are real, the latter at least 0, and the floor is positive, so the inverse square root is taken of
    a positive real. -/
theorem bnP_real {n : ℕ} (Y : Mat 50000 n) (g be : Vec1 n) (hY : IsReal Y) (hg : IsReal g) (hbe : IsReal be) :
    IsReal (bnP Y g be) := by
  choose y hy using hY
  obtain ⟨e, he, hee⟩ := eps_pos
  have key : ∀ (p : Fin 50000) (k : Fin n), ∃ r : ℝ,
      (Y (ix2 p k) - meanP Y k) * Ideal.rsqrt (varP Y k + eps) * g (ix1 k) + be (ix1 k) = (r : EReal) := by
    intro p k
    obtain ⟨gk, hgk⟩ := hg (ix1 k)
    obtain ⟨bk, hbk⟩ := hbe (ix1 k)
    obtain ⟨m, hmP⟩ : ∃ m : ℝ, meanP Y k = (m : EReal) := ⟨_, meanP_coe Y y hy k⟩
    obtain ⟨v, hv, hvP⟩ : ∃ v : ℝ, 0 ≤ v ∧ varP Y k = (v : EReal) :=
      ⟨_, var_real_nonneg _ _ (by norm_num) fun p => y (ix2 p k), varP_coe Y y hy k⟩
    have hpos : 0 < v + e := by linarith
    refine ⟨(y (ix2 p k) - m) * (Real.sqrt (v + e))⁻¹ * gk + bk, ?_⟩
    rw [hmP, hvP, hee, hy, hgk, hbk, ← EReal.coe_add, Ideal.rsqrt_coe, if_neg (not_lt.mpr hpos.le), if_neg hpos.ne',
      ← EReal.coe_sub, ← EReal.coe_mul, ← EReal.coe_mul, ← EReal.coe_add]
  intro j
  exact key (j 0) (j 1)

end Cert.Gcn

end
-- ==== Proof.KStat.lean ====
/-
  The kernel's batch statistics, read entry by entry.

  Between its regions the kernel's program turns the row of column sums s and the row of column sums of squares ss
  into the batch mean and the inverse standard deviation: each row is viewed as a vector, divided by the row count
  50000, and the inverse square root is taken of (ss / 50000 - mean · mean + eps); the results, and the scale, shift
  and bias vectors, are viewed as rows again.  A row [1, 256] and the vector [256] it is a view of have the same
  entries, and every operation in between acts entry by entry, so entry k of the mean row is s (0, k) / 50000 and
  entry k of the inverse-deviation row is (ss (0, k) / 50000 - mean k · mean k + eps)^(-1/2).
-/
import proofs.«127999_j35588099015570_1_alg».proof.Proof.TermsK
import proofs.«127999_j35588099015570_1_alg».proof.Proof.SpecBn
import Idealize.ShloMosaic.Lib.ValueIdx
import Idealize.ShloMosaic.Lib.ValueLayout
import Idealize.ShloMosaic.Lib.Pipeline.Value
import Idealize.ShloMosaic.PureOps.Ideal.Laws

noncomputable section

namespace Cert.Gcn.K

open Cert.KernelIdeal Cert.KernelIdeal.Facts₀ Cert.KernelIdeal.Facts Idealize.ShloMosaic Idealize.ShloMosaic.ValueIdx

/-- A vector viewed as a row has the vector's entries. -/
theorem row_vec (v : Fl S256) (k : Fin 256) : rowT v (ix2 (0 : Fin 1) k) = v (ix1 k) :=
  shapeCast_a_1a_apply v shapeCasts_S256_S1x256 (0 : Fin 1) k

/-- A row viewed as a vector has the row's entries. -/
theorem vec_row (r : Fl S1x256) (k : Fin 256) : vecT r (ix1 k) = r (ix2 (0 : Fin 1) k) :=
  shapeCast_1a_a_apply r shapeCasts_S1x256_S256 k

/-- A scalar constant spread over a vector has the constant's value at every entry. -/
theorem bcast_const (w : BitVec 32) (i : S256.Idx) :
    broadcastInDim S256 ![] bcast_S_S256 (constant (F := Ideal) S_ .f32 w) i = Ideal.ofBits .f32 w :=
  broadcastInDim_apply (![] : Fin 0 → Fin S256.rank) bcast_S_S256 (constant (F := Ideal) S_ .f32 w) i ix0 (fun a => a.elim0)

/-- The zero vector, viewed as a row, is 0 at every entry. -/
theorem zero_row (q : Fin 256) : rowT zeroV (ix2 (0 : Fin 1) q) = 0 := by
  rw [row_vec, zeroV, bcast_const, Ideal.ofBits_zero_f32]

/-- Entry k of the mean vector: the column sum divided by the row count. -/
theorem mean_vec (s : Fl S1x256) (k : Fin 256) : meanT s (ix1 k) = Ideal.div (s (ix2 (0 : Fin 1) k)) Cert.Gcn.nRows := by
  show Ideal.div (vecT s (ix1 k)) (broadcastInDim S256 ![] bcast_S_S256 (constant (F := Ideal) S_ .f32 0x47435000#32) (ix1 k)) = _
  rw [vec_row, bcast_const]

/-- Entry k of the mean row: the column sum divided by the row count. -/
theorem mean_row (s : Fl S1x256) (k : Fin 256) :
    rowT (meanT s) (ix2 (0 : Fin 1) k) = Ideal.div (s (ix2 (0 : Fin 1) k)) Cert.Gcn.nRows := by
  rw [row_vec, mean_vec]

/-- Entry k of the inverse-deviation row: (sum of squares / row count - mean · mean + eps)^(-1/2). -/
theorem inv_row (s ss : Fl S1x256) (k : Fin 256) : rowT (invT s ss) (ix2 (0 : Fin 1) k)
    = Ideal.rsqrt (Ideal.div (ss (ix2 (0 : Fin 1) k)) Cert.Gcn.nRows
        - rowT (meanT s) (ix2 (0 : Fin 1) k) * rowT (meanT s) (ix2 (0 : Fin 1) k) + Cert.Gcn.eps) := by
  rw [row_vec, row_vec]
  show Ideal.rsqrt (Ideal.div (vecT ss (ix1 k)) (broadcastInDim S256 ![] bcast_S_S256 (constant (F := Ideal) S_ .f32 0x47435000#32) (ix1 k))
      - meanT s (ix1 k) * meanT s (ix1 k)
      + broadcastInDim S256 ![] bcast_S_S256 (constant (F := Ideal) S_ .f32 0x3727C5AC#32) (ix1 k)) = _
  rw [vec_row, bcast_const, bcast_const]

end Cert.Gcn.K

end
-- ==== Proof.RefValue.lean ====
/-
  The reference, stage by stage, as the array functions of the specification.

  The reference program computes x · W1, aggregates, normalises over the rows, multiplies by W2, aggregates,
  normalises again, multiplies by Wfc and adds the bias.  Read one entry at a time, each normalisation is: the column
  sums (a sum over the 50000 rows started from the zero word), divided by the row count; the deviations from that
  mean, squared, summed over the rows and divided by the row count; the variance floor added, the inverse square root
  taken; and the deviation times the inverse root times the scale plus the shift, the four vectors spread over the
  rows.  That is the specification's normalised array of whatever array enters the normalisation (the aggregation's
  result, which is not opened here), and each product is the specification's matrix product.
-/
import proofs.«127999_j35588099015570_1_alg».proof.Proof.RefRead
import proofs.«127999_j35588099015570_1_alg».proof.Proof.SpecBn
import Idealize.ShloMosaic.Lib.ValueIdx
import Idealize.ShloMosaic.PureOps.Ideal.Laws

noncomputable section

open scoped BigOperators

namespace Cert.ReferenceIdeal.RefValue

open Cert.ReferenceIdeal Cert.ReferenceIdeal.ReadP Idealize.ShloMosaic Idealize.ShloMosaic.ValueIdx

/-! ### The three shapes a stage takes, for any array -/

/-- A sum of products read through two index maps that are (p, k) and (k, q) is an entry of the matrix product. -/
theorem mm_form {a n b : ℕ} (A : Cert.Gcn.Mat a n) (B : Cert.Gcn.Mat n b) (p : Fin a) (q : Fin b)
    (fl : Fin n → (⟨2, ![a, n]⟩ : Shape).Idx) (fr : Fin n → (⟨2, ![n, b]⟩ : Shape).Idx)
    (hl : ∀ k, fl k = ix2 p k) (hr : ∀ k, fr k = ix2 k q) :
    ∑ k : Fin n, A (fl k) * B (fr k) = Cert.Gcn.mm A B (ix2 p q) := by
  simp only [hl, hr]
  rfl

/-- The zero word plus the sum of column k over the rows, divided by the row count's word, is the column's mean. -/
theorem mean_form (Y : Cert.Gcn.Mat 50000 256) (k : Fin 256) (f : Fin 50000 → (⟨2, ![50000, 256]⟩ : Shape).Idx)
    (hf : ∀ p, f p = ix2 p k) :
    Ideal.div (Ideal.ofBits .f32 0x00000000#32 + ∑ p : Fin 50000, Y (f p)) (Ideal.ofBits .f32 0x47435000#32)
      = Cert.Gcn.meanP Y k := by
  rw [Ideal.ofBits_zero_f32, zero_add]
  simp only [hf]
  rfl

/-- The zero word plus the sum of the squared deviations of column k, divided by the row count's word, is the
    column's mean squared deviation. -/
theorem var_form (Y : Cert.Gcn.Mat 50000 256) (k : Fin 256) (f : Fin 50000 → EReal)
    (hf : ∀ p, f p = (Y (ix2 p k) - Cert.Gcn.meanP Y k) * (Y (ix2 p k) - Cert.Gcn.meanP Y k)) :
    Ideal.div (Ideal.ofBits .f32 0x00000000#32 + ∑ p : Fin 50000, f p) (Ideal.ofBits .f32 0x47435000#32)
      = Cert.Gcn.varP Y k := by
  rw [Ideal.ofBits_zero_f32, zero_add]
  simp only [hf]
  rfl

/-! ### The first product -/

/-- x · W1 is the matrix product. -/
theorem linear1 (x0 : (⟨S50000x128, .f32⟩ : BufTy).Contents (Elt Ideal)) (x2 : (⟨S128x256, .f32⟩ : BufTy).Contents (Elt Ideal)) :
    val_main_v17 (F := Ideal) x0 x2 = Cert.Gcn.mm x0 x2 := by
  funext i
  obtain ⟨p, q, rfl⟩ : ∃ (p : Fin 50000) (q : Fin 256), i = ix2 p q := ⟨_, _, eq_ix2 i⟩
  rw [val_main_v17_apply]
  exact mm_form x0 x2 p q (fun k => lidx_main_v17 (ix2 p q) k) (fun k => ridx_main_v17 (ix2 p q) k)
    (fun k => funext fun a => by match a with | ⟨0, _⟩ => rfl | ⟨1, _⟩ => rfl)
    (fun k => funext fun a => by match a with | ⟨0, _⟩ => rfl | ⟨1, _⟩ => rfl)

/-! ### The first normalisation -/

/-- Batch norm 1: entry k of the mean vector is the mean of column k of the array being normalised. -/
theorem mean_1 (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 : (⟨S256, .f32⟩ : BufTy).Contents (Elt Ideal)) (k : Fin 256) :
    val_main_v51 (F := Ideal) x0 x1 x2 x3 (ix1 k) = Cert.Gcn.meanP (val_main_v48 (F := Ideal) x0 x1 x2 x3) k := by
  rw [val_main_v51_apply, val_main_v49_apply, val_main_v50_apply, val_main_cst_11_apply, val_main_cst_10_apply]
  generalize val_main_v48 (F := Ideal) x0 x1 x2 x3 = Y
  exact mean_form Y k (fun p => idx_main_v49 (ix1 k) p) fun p =>
    funext fun a => by match a with | ⟨0, _⟩ => rfl | ⟨1, _⟩ => rfl

/-- Batch norm 1: the deviation of entry (p, k) from the mean of its column. -/
theorem dev_1 (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 : (⟨S256, .f32⟩ : BufTy).Contents (Elt Ideal)) (p : Fin 50000) (k : Fin 256) :
    val_main_v54 (F := Ideal) x0 x1 x2 x3 (ix2 p k) = val_main_v48 (F := Ideal) x0 x1 x2 x3 (ix2 p k) - Cert.Gcn.meanP (val_main_v48 (F := Ideal) x0 x1 x2 x3) k := by
  rw [val_main_v54_apply, val_main_v53_apply, val_main_v52_apply]
  have hidx : idx_main_v52 (idx_main_v53 (ix2 p k)) = ix1 k := funext fun a => by match a with | ⟨0, _⟩ => rfl
  rw [hidx, mean_1]
  generalize val_main_v48 (F := Ideal) x0 x1 x2 x3 = Y
  rfl

/-- Batch norm 1: entry k of the variance vector is the mean squared deviation of column k. -/
theorem var_1 (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 : (⟨S256, .f32⟩ : BufTy).Contents (Elt Ideal)) (k : Fin 256) :
    val_main_v58 (F := Ideal) x0 x1 x2 x3 (ix1 k) = Cert.Gcn.varP (val_main_v48 (F := Ideal) x0 x1 x2 x3) k := by
  rw [val_main_v58_apply, val_main_v56_apply, val_main_v57_apply, val_main_cst_13_apply, val_main_cst_12_apply]
  refine var_form (val_main_v48 (F := Ideal) x0 x1 x2 x3) k (fun p => val_main_v55 (F := Ideal) x0 x1 x2 x3 (idx_main_v56 (ix1 k) p)) fun p => ?_
  have hidx : idx_main_v56 (ix1 k) p = ix2 p k := funext fun a => by match a with | ⟨0, _⟩ => rfl | ⟨1, _⟩ => rfl
  show val_main_v55 (F := Ideal) x0 x1 x2 x3 (idx_main_v56 (ix1 k) p) = _
  rw [hidx, val_main_v55_apply, dev_1]
  generalize val_main_v48 (F := Ideal) x0 x1 x2 x3 = Y
  rfl

/-- Batch norm 1: entry k of the inverse deviation is (variance of column k + eps)^(-1/2). -/
theorem inv_1 (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 : (⟨S256, .f32⟩ : BufTy).Contents (Elt Ideal)) (k : Fin 256) :
    val_main_v64 (F := Ideal) x0 x1 x2 x3 (ix1 k) = Ideal.rsqrt (Cert.Gcn.varP (val_main_v48 (F := Ideal) x0 x1 x2 x3) k + Cert.Gcn.eps) := by
  rw [val_main_v64_apply, val_main_v63_apply, var_1, val_main_v62_apply, val_main_cst_14_apply]
  generalize val_main_v48 (F := Ideal) x0 x1 x2 x3 = Y
  rfl

/-- Batch norm 1: the stage is the normalised array. -/
theorem bn_1 (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 : (⟨S256, .f32⟩ : BufTy).Contents (Elt Ideal)) (x4 x5 : (⟨S256, .f32⟩ : BufTy).Contents (Elt Ideal)) :
    val_main_v73 (F := Ideal) x0 x1 x2 x3 x4 x5 = Cert.Gcn.bnP (val_main_v48 (F := Ideal) x0 x1 x2 x3) x4 x5 := by
  funext i
  obtain ⟨p, k, rfl⟩ : ∃ (p : Fin 50000) (k : Fin 256), i = ix2 p k := ⟨_, _, eq_ix2 i⟩
  rw [val_main_v73_apply, val_main_v70_apply, val_main_v67_apply, val_main_v61_apply, val_main_v60_apply, val_main_v59_apply, val_main_v66_apply, val_main_v65_apply,
    val_main_v69_apply, val_main_v68_apply, val_main_v72_apply, val_main_v71_apply]
  have h1 : idx_main_v59 (idx_main_v60 (ix2 p k)) = ix1 k := funext fun a => by match a with | ⟨0, _⟩ => rfl
  have h2 : idx_main_v65 (idx_main_v66 (ix2 p k)) = ix1 k := funext fun a => by match a with | ⟨0, _⟩ => rfl
  have h3 : idx_main_v68 (idx_main_v69 (ix2 p k)) = ix1 k := funext fun a => by match a with | ⟨0, _⟩ => rfl
  have h4 : idx_main_v71 (idx_main_v72 (ix2 p k)) = ix1 k := funext fun a => by match a with | ⟨0, _⟩ => rfl
  rw [h1, h2, h3, h4, mean_1, inv_1]
  generalize val_main_v48 (F := Ideal) x0 x1 x2 x3 = Y
  rfl

/-- (normalised first aggregation) · W2 is the matrix product of the normalised array. -/
theorem linear2 (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 x4 x5 : (⟨S256, .f32⟩ : BufTy).Contents (Elt Ideal)) (x6 : (⟨S256x256, .f32⟩ : BufTy).Contents (Elt Ideal)) :
    val_main_v74 (F := Ideal) x0 x1 x2 x3 x4 x5 x6
      = Cert.Gcn.mm (Cert.Gcn.bnP (val_main_v48 (F := Ideal) x0 x1 x2 x3) x4 x5) x6 := by
  rw [← bn_1]
  funext i
  obtain ⟨p, q, rfl⟩ : ∃ (p : Fin 50000) (q : Fin 256), i = ix2 p q := ⟨_, _, eq_ix2 i⟩
  rw [val_main_v74_apply]
  generalize val_main_v73 (F := Ideal) x0 x1 x2 x3 x4 x5 = Z
  exact mm_form Z x6 p q (fun k => lidx_main_v74 (ix2 p q) k) (fun k => ridx_main_v74 (ix2 p q) k)
    (fun k => funext fun a => by match a with | ⟨0, _⟩ => rfl | ⟨1, _⟩ => rfl)
    (fun k => funext fun a => by match a with | ⟨0, _⟩ => rfl | ⟨1, _⟩ => rfl)

/-! ### The second normalisation -/

/-- Batch norm 2: entry k of the mean vector is the mean of column k of the array being normalised. -/
theorem mean_2 (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 x4 x5 : (⟨S256, .f32⟩ : BufTy).Contents (Elt Ideal)) (x6 : (⟨S256x256, .f32⟩ : BufTy).Contents (Elt Ideal)) (x7 : (⟨S256, .f32⟩ : BufTy).Contents (Elt Ideal)) (k : Fin 256) :
    val_main_v108 (F := Ideal) x0 x1 x2 x3 x4 x5 x6 x7 (ix1 k) = Cert.Gcn.meanP (val_main_v105 (F := Ideal) x0 x1 x2 x3 x4 x5 x6 x7) k := by
  rw [val_main_v108_apply, val_main_v106_apply, val_main_v107_apply, val_main_cst_23_apply, val_main_cst_22_apply]
  generalize val_main_v105 (F := Ideal) x0 x1 x2 x3 x4 x5 x6 x7 = Y
  exact mean_form Y k (fun p => idx_main_v106 (ix1 k) p) fun p =>
    funext fun a => by match a with | ⟨0, _⟩ => rfl | ⟨1, _⟩ => rfl

/-- Batch norm 2: the deviation of entry (p, k) from the mean of its column. -/
theorem dev_2 (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 x4 x5 : (⟨S256, .f32⟩ : BufTy).Contents (Elt Ideal)) (x6 : (⟨S256x256, .f32⟩ : BufTy).Contents (Elt Ideal)) (x7 : (⟨S256, .f32⟩ : BufTy).Contents (Elt Ideal)) (p : Fin 50000) (k : Fin 256) :
    val_main_v111 (F := Ideal) x0 x1 x2 x3 x4 x5 x6 x7 (ix2 p k) = val_main_v105 (F := Ideal) x0 x1 x2 x3 x4 x5 x6 x7 (ix2 p k) - Cert.Gcn.meanP (val_main_v105 (F := Ideal) x0 x1 x2 x3 x4 x5 x6 x7) k := by
  rw [val_main_v111_apply, val_main_v110_apply, val_main_v109_apply]
  have hidx : idx_main_v109 (idx_main_v110 (ix2 p k)) = ix1 k := funext fun a => by match a with | ⟨0, _⟩ => rfl
  rw [hidx, mean_2]
  generalize val_main_v105 (F := Ideal) x0 x1 x2 x3 x4 x5 x6 x7 = Y
  rfl

/-- Batch norm 2: entry k of the variance vector is the mean squared deviation of column k. -/
theorem var_2 (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 x4 x5 : (⟨S256, .f32⟩ : BufTy).Contents (Elt Ideal)) (x6 : (⟨S256x256, .f32⟩ : BufTy).Contents (Elt Ideal)) (x7 : (⟨S256, .f32⟩ : BufTy).Contents (Elt Ideal)) (k : Fin 256) :
    val_main_v115 (F := Ideal) x0 x1 x2 x3 x4 x5 x6 x7 (ix1 k) = Cert.Gcn.varP (val_main_v105 (F := Ideal) x0 x1 x2 x3 x4 x5 x6 x7) k := by
  rw [val_main_v115_apply, val_main_v113_apply, val_main_v114_apply, val_main_cst_25_apply, val_main_cst_24_apply]
  refine var_form (val_main_v105 (F := Ideal) x0 x1 x2 x3 x4 x5 x6 x7) k (fun p => val_main_v112 (F := Ideal) x0 x1 x2 x3 x4 x5 x6 x7 (idx_main_v113 (ix1 k) p)) fun p => ?_
  have hidx : idx_main_v113 (ix1 k) p = ix2 p k := funext fun a => by match a with | ⟨0, _⟩ => rfl | ⟨1, _⟩ => rfl
  show val_main_v112 (F := Ideal) x0 x1 x2 x3 x4 x5 x6 x7 (idx_main_v113 (ix1 k) p) = _
  rw [hidx, val_main_v112_apply, dev_2]
  generalize val_main_v105 (F := Ideal) x0 x1 x2 x3 x4 x5 x6 x7 = Y
  rfl

/-- Batch norm 2: entry k of the inverse deviation is (variance of column k + eps)^(-1/2). -/
theorem inv_2 (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 x4 x5 : (⟨S256, .f32⟩ : BufTy).Contents (Elt Ideal)) (x6 : (⟨S256x256, .f32⟩ : BufTy).Contents (Elt Ideal)) (x7 : (⟨S256, .f32⟩ : BufTy).Contents (Elt Ideal)) (k : Fin 256) :
    val_main_v121 (F := Ideal) x0 x1 x2 x3 x4 x5 x6 x7 (ix1 k) = Ideal.rsqrt (Cert.Gcn.varP (val_main_v105 (F := Ideal) x0 x1 x2 x3 x4 x5 x6 x7) k + Cert.Gcn.eps) := by
  rw [val_main_v121_apply, val_main_v120_apply, var_2, val_main_v119_apply, val_main_cst_26_apply]
  generalize val_main_v105 (F := Ideal) x0 x1 x2 x3 x4 x5 x6 x7 = Y
  rfl

/-- Batch norm 2: the stage is the normalised array. -/
theorem bn_2 (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 x4 x5 : (⟨S256, .f32⟩ : BufTy).Contents (Elt Ideal)) (x6 : (⟨S256x256, .f32⟩ : BufTy).Contents (Elt Ideal)) (x7 : (⟨S256, .f32⟩ : BufTy).Contents (Elt Ideal)) (x8 x9 : (⟨S256, .f32⟩ : BufTy).Contents (Elt Ideal)) :
    val_main_v130 (F := Ideal) x0 x1 x2 x3 x4 x5 x6 x7 x8 x9 = Cert.Gcn.bnP (val_main_v105 (F := Ideal) x0 x1 x2 x3 x4 x5 x6 x7) x8 x9 := by
  funext i
  obtain ⟨p, k, rfl⟩ : ∃ (p : Fin 50000) (k : Fin 256), i = ix2 p k := ⟨_, _, eq_ix2 i⟩
  rw [val_main_v130_apply, val_main_v127_apply, val_main_v124_apply, val_main_v118_apply, val_main_v117_apply, val_main_v116_apply, val_main_v123_apply, val_main_v122_apply,
    val_main_v126_apply, val_main_v125_apply, val_main_v129_apply, val_main_v128_apply]
  have h1 : idx_main_v116 (idx_main_v117 (ix2 p k)) = ix1 k := funext fun a => by match a with | ⟨0, _⟩ => rfl
  have h2 : idx_main_v122 (idx_main_v123 (ix2 p k)) = ix1 k := funext fun a => by match a with | ⟨0, _⟩ => rfl
  have h3 : idx_main_v125 (idx_main_v126 (ix2 p k)) = ix1 k := funext fun a => by match a with | ⟨0, _⟩ => rfl
  have h4 : idx_main_v128 (idx_main_v129 (ix2 p k)) = ix1 k := funext fun a => by match a with | ⟨0, _⟩ => rfl
  rw [h1, h2, h3, h4, mean_2, inv_2]
  generalize val_main_v105 (F := Ideal) x0 x1 x2 x3 x4 x5 x6 x7 = Y
  rfl

/-- The result: (normalised second aggregation) · Wfc plus the bias, entry by entry. -/
theorem final (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 x4 x5 : (⟨S256, .f32⟩ : BufTy).Contents (Elt Ideal)) (x6 : (⟨S256x256, .f32⟩ : BufTy).Contents (Elt Ideal)) (x7 x8 x9 : (⟨S256, .f32⟩ : BufTy).Contents (Elt Ideal)) (x10 : (⟨S256x256, .f32⟩ : BufTy).Contents (Elt Ideal)) (x11 : (⟨S256, .f32⟩ : BufTy).Contents (Elt Ideal)) :
    val_main_v134 (F := Ideal) x0 x1 x2 x3 x4 x5 x6 x7 x8 x9 x10 x11
      = fun j => Cert.Gcn.mm (Cert.Gcn.bnP (val_main_v105 (F := Ideal) x0 x1 x2 x3 x4 x5 x6 x7) x8 x9) x10 j + x11 (ix1 (j 1)) := by
  rw [← bn_2]
  funext i
  obtain ⟨p, q, rfl⟩ : ∃ (p : Fin 50000) (q : Fin 256), i = ix2 p q := ⟨_, _, eq_ix2 i⟩
  rw [val_main_v134_apply, val_main_v131_apply, val_main_v133_apply, val_main_v132_apply]
  generalize val_main_v130 (F := Ideal) x0 x1 x2 x3 x4 x5 x6 x7 x8 x9 = Z
  have hb : idx_main_v132 (idx_main_v133 (ix2 p q)) = ix1 q := funext fun a => by match a with | ⟨0, _⟩ => rfl
  have hmm := mm_form Z x10 p q (fun k => lidx_main_v131 (ix2 p q) k) (fun k => ridx_main_v131 (ix2 p q) k)
    (fun k => funext fun a => by match a with | ⟨0, _⟩ => rfl | ⟨1, _⟩ => rfl)
    (fun k => funext fun a => by match a with | ⟨0, _⟩ => rfl | ⟨1, _⟩ => rfl)
  rw [hb]
  exact congrArg (fun t : EReal => t + x11 (ix1 q)) hmm

end Cert.ReferenceIdeal.RefValue

end
-- ==== Proof.Finite.lean ====
/-
  Finiteness.  Every entry of the aggregation `K.agg e h b` is a real number when every entry of h and of b is:
  a gather's entry is an entry of its operand, a broadcast's entry is an entry of its operand, a select's entry is
  an entry of one of its two branches, products and sums of reals are real, and an accumulating scatter's entry is
  the operand's entry plus a finite sum of update entries.  The edge weights are real whatever the edge list: the
  degree is a finite sum of ones, and the inverse square root of max(degree, 1), a real at least 1, is a real.
  The precondition says every float argument has all its entries strictly between the two infinities.
-/
import proofs.«127999_j35588099015570_1_alg».proof.Defs
import proofs.«127999_j35588099015570_1_alg».proof.Proof.SpecBn
import proofs.«127999_j35588099015570_1_alg».proof.Proof.TermsK
import Idealize.ShloMosaic.Lib.ValueIdx
import Idealize.ShloMosaic.Lib.IdealHost
import Idealize.ShloMosaic.Lib.ReduceAll
import Idealize.ShloMosaic.PureOps.Ideal.Laws

noncomputable section

open scoped BigOperators

namespace Cert.Gcn.Finite

open Cert.KernelIdeal Idealize.ShloMosaic Idealize.ShloMosaic.ValueIdx Idealize.SL.Sem

/-! ## Closure of "every entry is real" under the host operations -/

section Closure
variable {s t : Shape}

/-- A gather's entry is an entry of its operand. -/
theorem isReal_gather {si : Shape} {w : Nat} (d : GatherDims s si t) (x : s.Idx → EReal) (idx : IVec si w)
    (hx : IsReal x) : IsReal (Host.gather d x idx) := by
  intro j
  unfold Host.gather
  exact hx _

/-- A broadcast's entry is an entry of its operand. -/
theorem isReal_broadcastInDim (dims : Fin s.rank → Fin t.rank) (h : s.BroadcastsInDim t dims) (x : s.Idx → EReal)
    (hx : IsReal x) : IsReal (broadcastInDim t dims h x) := by
  intro j
  unfold broadcastInDim
  exact hx _

/-- A select's entry is an entry of one of its two branches. -/
theorem isReal_select (c : IVec s 1) (a b : s.Idx → EReal) (ha : IsReal a) (hb : IsReal b) :
    IsReal (select c a b) := by
  intro i
  rw [select_apply]
  unfold Scalar.select
  split
  · exact ha i
  · exact hb i

/-- A product of reals is real. -/
theorem isReal_mulf {φ : FTy} (a b : FVec Ideal s φ) (ha : IsReal a) (hb : IsReal b) : IsReal (mulf a b) := by
  intro i
  obtain ⟨p, hp⟩ := ha i
  obtain ⟨q, hq⟩ := hb i
  exact ⟨p * q, by rw [mulf_apply, hp, hq, EReal.coe_mul]⟩

/-- A sum of reals is real. -/
theorem isReal_addf {φ : FTy} (a b : FVec Ideal s φ) (ha : IsReal a) (hb : IsReal b) : IsReal (addf a b) := by
  intro i
  obtain ⟨p, hp⟩ := ha i
  obtain ⟨q, hq⟩ := hb i
  exact ⟨p + q, by rw [addf_apply, hp, hq, EReal.coe_add]⟩

/-- A finite sum of reals is real. -/
theorem sum_real {ι : Type} (T : Finset ι) (f : ι → EReal) (hf : ∀ j, ∃ r : ℝ, f j = (r : EReal)) :
    ∃ r : ℝ, ∑ j ∈ T, f j = (r : EReal) := by
  classical
  induction T using Finset.induction_on with
  | empty => exact ⟨0, by rw [Finset.sum_empty, EReal.coe_zero]⟩
  | insert j T hj ih =>
    obtain ⟨r, hr⟩ := ih
    obtain ⟨q, hq⟩ := hf j
    exact ⟨q + r, by rw [Finset.sum_insert hj, hr, hq, EReal.coe_add]⟩

/-- An accumulating scatter's entry is the operand's entry plus a finite sum of update entries. -/
theorem isReal_scatterAdd {si u : Shape} {w : Nat} {φ : FTy} (d : ScatterDims s si u) (x : FVec Ideal s φ)
    (idx : IVec si w) (upd : FVec Ideal u φ) (hx : IsReal x) (hu : IsReal upd) :
    IsReal (Host.scatterAdd d x idx upd) := by
  intro i
  show ∃ r : ℝ, Ideal.hostScatterAdd d x idx upd i = (r : EReal)
  unfold Ideal.hostScatterAdd
  obtain ⟨p, hp⟩ := hx i
  obtain ⟨q, hq⟩ := sum_real (Finset.univ.filter (fun j => d.resultIdx? j idx = some i)) upd hu
  exact ⟨p + q, by rw [EReal.coe_add, ← hp, ← hq]⟩

/-- The constant zero is real. -/
theorem isReal_zero : IsReal (constant (F := Ideal) s .f32 0x00000000#32) := by
  intro i
  exact ⟨0, by rw [constant_apply, Ideal.ofBits_zero_f32, EReal.coe_zero]⟩

/-- The constant one is real. -/
theorem isReal_one : IsReal (constant (F := Ideal) s .f32 0x3F800000#32) := by
  intro i
  exact ⟨1, by rw [constant_apply, Ideal.ofBits_one_f32, EReal.coe_one]⟩

/-- The inverse square root of max(r, 1), r real, is real: the maximum is a real at least 1. -/
theorem rsqrt_max_one_real (r : ℝ) : ∃ q : ℝ, Ideal.rsqrt (max (r : EReal) 1) = (q : EReal) := by
  have hm : max (r : EReal) 1 = ((max r 1 : ℝ) : EReal) := by
    rw [← EReal.coe_one]
    exact (EReal.coe_strictMono.monotone.map_max).symm
  have h1 : (1 : ℝ) ≤ max r 1 := le_max_right _ _
  rw [hm, Ideal.rsqrt_coe, if_neg (by linarith), if_neg (by linarith)]
  exact ⟨_, rfl⟩

/-- A broadcast of the constant one reads one everywhere. -/
theorem bcast_one_apply (dims : Fin s.rank → Fin t.rank) (h : s.BroadcastsInDim t dims) (i : t.Idx) :
    broadcastInDim t dims h (constant (F := Ideal) s .f32 0x3F800000#32) i = 1 := by
  unfold broadcastInDim
  rw [constant_apply, Ideal.ofBits_one_f32]

/-- Entry by entry, the inverse square root of max(a, 1) is real when a is. -/
theorem isReal_rsqrt_max {φ : FTy} (a b : FVec Ideal s φ) (ha : IsReal a) (hb : ∀ i, b i = 1) :
    IsReal (Host.rsqrt (maximumf a b)) := by
  intro i
  obtain ⟨r, hr⟩ := ha i
  show ∃ q : ℝ, Ideal.rsqrt (max (a i) (b i)) = (q : EReal)
  rw [hr, hb i]
  exact rsqrt_max_one_real r

end Closure

/-! ## The aggregation -/

/-- The degree is real: zeros plus a finite sum of ones. -/
theorem deg_real (d : K.Ix S850000) : IsReal (K.deg d) := by
  unfold K.deg
  exact isReal_scatterAdd _ _ _ _ (isReal_broadcastInDim _ _ _ isReal_zero) (isReal_broadcastInDim _ _ _ isReal_one)

/-- The inverse square root of the degree where positive, else zero, is real. -/
theorem dis_real (d : K.Ix S850000) : IsReal (K.dis d) := by
  unfold K.dis
  exact isReal_select _ _ _ (isReal_rsqrt_max _ _ (deg_real d) (bcast_one_apply _ _))
    (isReal_broadcastInDim _ _ _ isReal_zero)

/-- The edge weights are real, whatever the edge list. -/
theorem norm_real (s d : K.Ix S850000) : IsReal (K.norm s d) := by
  unfold K.norm
  exact isReal_mulf _ _ (isReal_gather _ _ _ (dis_real d)) (isReal_gather _ _ _ (dis_real d))

/-- The aggregation with given real weights is real. -/
theorem aggT_real (s d : K.Ix S850000) (w : K.Fl S850000) (h : K.Fl S50000x256) (b : K.Fl S256)
    (hw : IsReal w) (hh : IsReal h) (hb : IsReal b) : IsReal (K.aggT s d w h b) := by
  unfold K.aggT
  refine isReal_addf _ _ (isReal_scatterAdd _ _ _ _ (isReal_broadcastInDim _ _ _ isReal_zero) ?_)
    (isReal_broadcastInDim _ _ _ (isReal_broadcastInDim _ _ _ hb))
  exact isReal_mulf _ _ (isReal_gather _ _ _ hh) (isReal_broadcastInDim _ _ _ (isReal_broadcastInDim _ _ _ hw))

/-- Every entry of the aggregation is real when every entry of h and of b is. -/
theorem agg_real (e : K.Ix Cert.KernelIdeal.S2x800000) (h : K.Fl Cert.KernelIdeal.S50000x256) (b : K.Fl Cert.KernelIdeal.S256)
    (hh : IsReal h) (hb : IsReal b) : IsReal (K.agg e h b) := by
  unfold K.agg
  exact aggT_real _ _ _ h b (norm_real _ _) hh hb

/-! ## The precondition: every float argument is real -/

/-- The rank-0 shape has one index. -/
instance subsingleton_idx0 : Subsingleton (⟨0, ![]⟩ : Shape).Idx := ⟨fun a b => funext fun d => d.elim0⟩

/-- The word 0x7F800000 is plus infinity. -/
theorem ofBits_inf_f32 : Ideal.ofBits .f32 0x7F800000#32 = ⊤ := by simp [Ideal.ofBits, Ideal.ieee]

/-- An extended real whose absolute value is strictly below plus infinity is a real. -/
theorem real_of_abs_lt_inf (x : EReal)
    (h : FloatOps.cmpf (F := Ideal) (φ := .f32) .olt (FloatOps.hostAbsf x) (Ideal.ofBits .f32 0x7F800000#32) = 1#1) :
    ∃ r : ℝ, x = (r : EReal) := by
  rw [ofBits_inf_f32] at h
  change BitVec.ofBool (decide (max x (-x) < ⊤)) = 1#1 at h
  induction x using EReal.rec with
  | bot => simp at h
  | coe r => exact ⟨r, rfl⟩
  | top => simp at h

/-- An array all of whose entries have absolute value below plus infinity has real entries. -/
theorem isReal_of_all {s : Shape} {axes : List (Fin s.rank)} (x : FVec Ideal s .f32)
    (bc : (⟨0, ![]⟩ : Shape).BroadcastsInDim s (![] : Fin 0 → Fin s.rank)) (red : s.ReducesTo axes ⟨0, ![]⟩)
    (hS : 0 < (⟨0, ![]⟩ : Shape).numel)
    (h : Host.reduce IntOp.andi (cmpf .olt (Host.absf x) (broadcastInDim s ![] bc (constant ⟨0, ![]⟩ .f32 0x7F800000#32)))
      (constantI ⟨0, ![]⟩ 1 1#1) red hS ix0 = 1#1) : IsReal x := by
  intro i
  exact real_of_abs_lt_inf (x i) (Host.reduce_andi_all _ _ red hS ix0 h i)

/-- Under the precondition every float argument of the kernel has real entries. -/
theorem pre_real [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (m ((c.tc : Thread Cert.KernelIdeal.nD Cert.KernelIdeal.τ).loc Cert.KernelIdeal.main_arg0))
    ∧ IsReal (m ((c.tc : Thread Cert.KernelIdeal.nD Cert.KernelIdeal.τ).loc Cert.KernelIdeal.main_arg2))
    ∧ IsReal (m ((c.tc : Thread Cert.KernelIdeal.nD Cert.KernelIdeal.τ).loc Cert.KernelIdeal.main_arg3))
    ∧ IsReal (m ((c.tc : Thread Cert.KernelIdeal.nD Cert.KernelIdeal.τ).loc Cert.KernelIdeal.main_arg4))
    ∧ IsReal (m ((c.tc : Thread Cert.KernelIdeal.nD Cert.KernelIdeal.τ).loc Cert.KernelIdeal.main_arg5))
    ∧ IsReal (m ((c.tc : Thread Cert.KernelIdeal.nD Cert.KernelIdeal.τ).loc Cert.KernelIdeal.main_arg6))
    ∧ IsReal (m ((c.tc : Thread Cert.KernelIdeal.nD Cert.KernelIdeal.τ).loc Cert.KernelIdeal.main_arg7))
    ∧ IsReal (m ((c.tc : Thread Cert.KernelIdeal.nD Cert.KernelIdeal.τ).loc Cert.KernelIdeal.main_arg8))
    ∧ IsReal (m ((c.tc : Thread Cert.KernelIdeal.nD Cert.KernelIdeal.τ).loc Cert.KernelIdeal.main_arg9))
    ∧ IsReal (m ((c.tc : Thread Cert.KernelIdeal.nD Cert.KernelIdeal.τ).loc Cert.KernelIdeal.main_arg10))
    ∧ IsReal (m ((c.tc : Thread Cert.KernelIdeal.nD Cert.KernelIdeal.τ).loc Cert.KernelIdeal.main_arg11)) := by
  have e := congrFun (hpre c) ValueIdx.ix0
  dsimp only [Cert.Pre_finite_inputs.fn, Cert.Pre_finite_inputs.fn_part1, Cert.Pre_finite_inputs.fn_part2,
    Cert.Pre_finite_inputs.fn_part3] at e
  simp only [andi, IntOp.andi_eq_one] at e
  obtain ⟨⟨⟨⟨⟨⟨⟨⟨⟨⟨h0, h2⟩, h3⟩, h4⟩, h5⟩, h6⟩, h7⟩, h8⟩, h9⟩, h10⟩, h11⟩ := e
  exact ⟨isReal_of_all _ _ _ _ h0, isReal_of_all _ _ _ _ h2, isReal_of_all _ _ _ _ h3, isReal_of_all _ _ _ _ h4,
    isReal_of_all _ _ _ _ h5, isReal_of_all _ _ _ _ h6, isReal_of_all _ _ _ _ h7, isReal_of_all _ _ _ _ h8,
    isReal_of_all _ _ _ _ h9, isReal_of_all _ _ _ _ h10, isReal_of_all _ _ _ _ h11⟩

end Cert.Gcn.Finite

end
-- ==== Proof.Bridge.lean ====
/-
  The idealized kernel's function of the arguments is the reference's.  Both aggregate with one function of the edge
  list (`K.agg`: the two programs print the same host operations); the kernel's two normalise-and-multiply layers
  use the variance as (sum of squares)/N − mean², the reference's as the mean squared deviation: equal for arrays of
  real numbers (`bnmm_eq`), and the aggregated arrays are real when the float arguments are (`agg_real`).
-/
import proofs.«127999_j35588099015570_1_alg».proof.Proof.KValue
import proofs.«127999_j35588099015570_1_alg».proof.Proof.BnLaw
import proofs.«127999_j35588099015570_1_alg».proof.Proof.KStat
import proofs.«127999_j35588099015570_1_alg».proof.Proof.RefValue
import proofs.«127999_j35588099015570_1_alg».proof.Proof.Finite

set_option maxRecDepth 16384

noncomputable section

namespace Cert.Proof.Bridge

open Cert.Gcn Cert.KernelIdeal.KValue Cert.ReferenceIdeal.ReadP Cert.ReferenceIdeal.RefValue
open Idealize.ShloMosaic Idealize.ShloMosaic.ValueIdx

/-! ## One aggregation -/

/-- The reference's first aggregated array is the kernel program's aggregation of the reference's product. -/
theorem ref_act1 (x0 : K.Fl Cert.KernelIdeal.S50000x128) (x1 : K.Ix Cert.KernelIdeal.S2x800000) (x2 : K.Fl Cert.KernelIdeal.S128x256)
    (x3 : K.Fl Cert.KernelIdeal.S256) :
    val_main_v48 (F := Ideal) x0 x1 x2 x3 = K.agg x1 (val_main_v17 (F := Ideal) x0 x2) x3 := rfl

/-- The reference's second aggregated array likewise. -/
theorem ref_act2 (x0 : K.Fl Cert.KernelIdeal.S50000x128) (x1 : K.Ix Cert.KernelIdeal.S2x800000) (x2 : K.Fl Cert.KernelIdeal.S128x256)
    (x3 x4 x5 : K.Fl Cert.KernelIdeal.S256) (x6 : K.Fl Cert.KernelIdeal.S256x256) (x7 : K.Fl Cert.KernelIdeal.S256) :
    val_main_v105 (F := Ideal) x0 x1 x2 x3 x4 x5 x6 x7 = K.agg x1 (val_main_v74 (F := Ideal) x0 x1 x2 x3 x4 x5 x6) x7 := rfl

/-! ## One layer -/

/-- With a zero bias: the kernel's layer on a real array is the product of the reference's normalised array. -/
theorem layer_zero (Y : K.Fl Cert.KernelIdeal.S50000x256) (hY : IsReal Y) (g be : K.Fl Cert.KernelIdeal.S256)
    (W : K.Fl Cert.KernelIdeal.S256x256) : layerK Y g be W K.zeroV = mm (bnP Y g be) W :=
  bnmm_eq_zero Y hY _ _ _ _ g be W _ (fun k => K.mean_row _ k) (fun k => K.inv_row _ _ k) (fun k => K.row_vec g k)
    (fun k => K.row_vec be k) (fun q => K.zero_row q)

/-- With a bias: the same, plus the bias. -/
theorem layer_bias (Y : K.Fl Cert.KernelIdeal.S50000x256) (hY : IsReal Y) (g be : K.Fl Cert.KernelIdeal.S256)
    (W : K.Fl Cert.KernelIdeal.S256x256) (bias : K.Fl Cert.KernelIdeal.S256) :
    layerK Y g be W bias = fun j => mm (bnP Y g be) W j + bias (ix1 (j 1)) :=
  bnmm_eq Y hY _ _ _ _ g be W _ bias (fun k => K.mean_row _ k) (fun k => K.inv_row _ _ k) (fun k => K.row_vec g k)
    (fun k => K.row_vec be k) (fun q => K.row_vec bias q)

/-! ## The two programs -/

/-- For real float arguments the kernel's function is the reference's last stage. -/
theorem out_eq (x0 : K.Fl Cert.KernelIdeal.S50000x128) (x1 : K.Ix Cert.KernelIdeal.S2x800000) (x2 : K.Fl Cert.KernelIdeal.S128x256)
    (x3 x4 x5 : K.Fl Cert.KernelIdeal.S256) (x6 : K.Fl Cert.KernelIdeal.S256x256) (x7 x8 x9 : K.Fl Cert.KernelIdeal.S256)
    (x10 : K.Fl Cert.KernelIdeal.S256x256) (x11 : K.Fl Cert.KernelIdeal.S256)
    (h0 : IsReal x0) (h2 : IsReal x2) (h3 : IsReal x3) (h4 : IsReal x4) (h5 : IsReal x5) (h6 : IsReal x6) (h7 : IsReal x7) :
    outK x0 x1 x2 x3 x4 x5 x6 x7 x8 x9 x10 x11 = val_main_v134 (F := Ideal) x0 x1 x2 x3 x4 x5 x6 x7 x8 x9 x10 x11 := by
  have hA1 : act1 x0 x1 x2 x3 = val_main_v48 (F := Ideal) x0 x1 x2 x3 := by
    unfold act1
    rw [ref_act1, linear1]
  have hR1 : IsReal (act1 x0 x1 x2 x3) := Finite.agg_real x1 _ x3 (mm_real x0 x2 h0 h2) h3
  have hL2 : layerK (act1 x0 x1 x2 x3) x4 x5 x6 K.zeroV = val_main_v74 (F := Ideal) x0 x1 x2 x3 x4 x5 x6 := by
    rw [layer_zero _ hR1, linear2, hA1]
  have hR2 : IsReal (act2 x0 x1 x2 x3 x4 x5 x6 x7) := by
    unfold act2
    rw [layer_zero _ hR1]
    exact Finite.agg_real x1 _ x7 (mm_real _ x6 (bnP_real _ x4 x5 hR1 h4 h5) h6) h7
  have hA2 : act2 x0 x1 x2 x3 x4 x5 x6 x7 = val_main_v105 (F := Ideal) x0 x1 x2 x3 x4 x5 x6 x7 := by
    unfold act2
    rw [hL2, ref_act2]
  unfold outK
  rw [layer_bias _ hR2, final, hA2]

end Cert.Proof.Bridge

end
-- ==== Proof.lean ====
/-
  The certificate: a two-layer graph convolution with batch normalisation and a final linear layer, computed by five
  kernel regions (a matrix product; column sums and column sums of squares accumulated over the row blocks, twice;
  normalise-scale-shift fused with a matrix product and a bias, twice) among host operations that gather, weight and
  add up the rows along the edges, against the plain array program.

  On the extended reals the two programs are one function of the arguments.  The matrix products agree as sums; both
  programs aggregate with the same host operations; the kernel's variance, (sum of squares)/N − mean², is the
  reference's mean squared deviation for columns of real numbers, and the aggregated arrays are real because the
  float arguments are finite (the precondition) and every edge weight is the product of two inverse square roots of
  numbers at least one.  The three frames: the two kernel programs' by their region-by-region runs, the reference's
  by its run with the result dropped.  The idealization rewrote nothing, so what it preserves is trivial.
-/
import proofs.«127999_j35588099015570_1_alg».proof.Defs
import proofs.«127999_j35588099015570_1_alg».proof.Proof.Gen.Kernel
import proofs.«127999_j35588099015570_1_alg».proof.Proof.Gen.Kernel.Skeleton
import proofs.«127999_j35588099015570_1_alg».proof.Proof.Gen.Kernel.Launch
import proofs.«127999_j35588099015570_1_alg».proof.Proof.Gen.Kernel.Points
import proofs.«127999_j35588099015570_1_alg».proof.Proof.Gen.Kernel.Frame
import proofs.«127999_j35588099015570_1_alg».proof.Proof.Gen.KernelIdeal
import proofs.«127999_j35588099015570_1_alg».proof.Proof.Gen.KernelIdeal.Skeleton
import proofs.«127999_j35588099015570_1_alg».proof.Proof.Gen.KernelIdeal.Launch
import proofs.«127999_j35588099015570_1_alg».proof.Proof.Gen.KernelIdeal.Points
import proofs.«127999_j35588099015570_1_alg».proof.Proof.Gen.KernelIdeal.Frame
import proofs.«127999_j35588099015570_1_alg».proof.Proof.Gen.ReferenceIdeal
import proofs.«127999_j35588099015570_1_alg».proof.Proof.Gen.Pre_finite_inputs
import proofs.«127999_j35588099015570_1_alg».proof.Proof.KRun
import proofs.«127999_j35588099015570_1_alg».proof.Proof.Bridge
import Idealize.ShloMosaic.Adequacy
import Idealize.ShloMosaic.Init

noncomputable section

namespace Cert.Proof

open Idealize.ShloMosaic Idealize.SL.Sem Cert.Kernel

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments, finite where they are floats, both idealized programs end with the
    same result array: the kernel's at the last region's write-backs, read back to `outK` of the arguments; the
    reference's at its last stage, which is `outK` of the same arguments. -/
theorem algebraic : Cert.algebraic_KernelIdeal_ReferenceIdeal := by
  intro m ρ m' ρ' hpre hagree
  refine ⟨fun c => Cert.KernelIdeal.Gen.W12 m ρ c (Proc.devRef .tc Cert.KernelIdeal.main_v101),
    Cert.KernelIdeal.RunValue.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨r0, r2, r3, r4, r5, r6, r7, -, -, -, -⟩ := Cert.Gcn.Finite.pre_real m hpre c
  obtain ⟨e0, e1, e2, e3, e4, e5, e6, e7, e8, e9, e10, e11⟩ := hagree c
  rw [Cert.ReferenceIdeal.ReadP.val_main_v134_eq, e0, e1, e2, e3, e4, e5, e6, e7, e8, e9, e10, e11]
  exact ((Cert.KernelIdeal.KValue.result m ρ c).trans
    (Cert.Proof.Bridge.out_eq _ _ _ _ _ _ _ _ _ _ _ _ r0 r2 r3 r4 r5 r6 r7)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
